-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S16384x512 : Shape := ⟨2, ![16384, 512]⟩
abbrev S4096x16384 : Shape := ⟨2, ![4096, 16384]⟩
abbrev S4096 : Shape := ⟨1, ![4096]⟩
abbrev S512x512 : Shape := ⟨2, ![512, 512]⟩
abbrev S512 : Shape := ⟨1, ![512]⟩
abbrev S4096x512 : Shape := ⟨2, ![4096, 512]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S4096x512 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_v33

def fn {F : FTy → Type} [FloatOps F] (main_arg0 : FVec F S1024x16384 .f32) (main_arg1 : FVec F S16384x512 .f32) (main_arg2 : FVec F S4096x16384 .f32) (main_arg3 : FVec F S4096 .f32) (main_arg4 : FVec F S512x512 .f32) (main_arg5 : FVec F S512 .f32) (main_arg6 : FVec F S4096x512 .f32) (main_arg7 : FVec F S4096 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S1024x16384 : Shape := ⟨2, ![1024, 16384]⟩
abbrev S16384x512 : Shape := ⟨2, ![16384, 512]⟩
abbrev S4096x16384 : Shape := ⟨2, ![4096, 16384]⟩
abbrev S4096 : Shape := ⟨1, ![4096]⟩
abbrev S512x512 : Shape := ⟨2, ![512, 512]⟩
abbrev S512 : Shape := ⟨1, ![512]⟩
abbrev S4096x512 : Shape := ⟨2, ![4096, 512]⟩
abbrev S1024x512 : Shape := ⟨2, ![1024, 512]⟩
abbrev S512x1024 : Shape := ⟨2, ![512, 1024]⟩
abbrev S1x512 : Shape := ⟨2, ![1, 512]⟩
abbrev S1024x4096 : Shape := ⟨2, ![1024, 4096]⟩
abbrev S256x2048 : Shape := ⟨2, ![256, 2048]⟩
abbrev S1024x2048 : Shape := ⟨2, ![1024, 2048]⟩
abbrev S1024 : Shape := ⟨1, ![1024]⟩
abbrev S256x512 : Shape := ⟨2, ![256, 512]⟩
abbrev S256x1024 : Shape := ⟨2, ![256, 1024]⟩
abbrev S1x1024 : Shape := ⟨2, ![1, 1024]⟩

abbrev nBuf : Space → Nat
  | .hbm => 12
  | .vmem => 25
  | .smem => 0
  | _ => 0

abbrev bufTy : (tb : Table) → Fin (tcTables nBuf tb) → BufTy
  | .hbm, ⟨0, _⟩ => ⟨S1024x16384, .f32⟩
  | .hbm, ⟨1, _⟩ => ⟨S16384x512, .f32⟩
  | .hbm, ⟨2, _⟩ => ⟨S4096x16384, .f32⟩
  | .hbm, ⟨3, _⟩ => ⟨S4096, .f32⟩
  | .hbm, ⟨4, _⟩ => ⟨S512x512, .f32⟩
  | .hbm, ⟨5, _⟩ => ⟨S512, .f32⟩
  | .hbm, ⟨6, _⟩ => ⟨S4096x512, .f32⟩
  | .hbm, ⟨7, _⟩ => ⟨S4096, .f32⟩
  | .hbm, ⟨8, _⟩ => ⟨S512x512, .bf16⟩
  | .hbm, ⟨9, _⟩ => ⟨S4096x512, .bf16⟩
  | .hbm, ⟨10, _⟩ => ⟨S1024x512, .f32⟩
  | .hbm, ⟨11, _⟩ => ⟨S1024x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S256x2048, .f32⟩
  | .local _ .vmem, ⟨11, _⟩ => ⟨S256x2048, .f32⟩
  | .local _ .vmem, ⟨12, _⟩ => ⟨S1024x2048, .f32⟩
  | .local _ .vmem, ⟨13, _⟩ => ⟨S1024x2048, .f32⟩
  | .local _ .vmem, ⟨14, _⟩ => ⟨S1024, .f32⟩
  | .local _ .vmem, ⟨15, _⟩ => ⟨S1024, .f32⟩
  | .local _ .vmem, ⟨16, _⟩ => ⟨S256x512, .f32⟩
  | .local _ .vmem, ⟨17, _⟩ => ⟨S256x512, .f32⟩
  | .local _ .vmem, ⟨18, _⟩ => ⟨S1024x512, .bf16⟩
  | .local _ .vmem, ⟨19, _⟩ => ⟨S1024x512, .bf16⟩
  | .local _ .vmem, ⟨20, _⟩ => ⟨S1024, .f32⟩
  | .local _ .vmem, ⟨21, _⟩ => ⟨S1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  inb_S1024x2048_S1024x2048_0_0 : ∀ a, (![0, 0] : Fin 2 → Nat) a + S1024x2048.size a ≤ S1024x2048.size a
  h_S1024x2048 : 0 < S1024x2048.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S512x1024_S1024x512_S512x512_1_0_0_1_n_n_wf : DotDims.WF S512x1024 S1024x512 S512x512 [1] [0] [0] [1] [] []
  dot_S512x512_S512x512_S512x512_1_1_0_0_n_n_wf : DotDims.WF S512x512 S512x512 S512x512 [1] [1] [0] [0] [] []
  dot_S256x2048_S1024x2048_S256x1024_1_1_0_0_n_n_wf : DotDims.WF S256x2048 S1024x2048 S256x1024 [1] [1] [0] [0] [] []
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x16384.size a
  hwx0_0 : ∀ i : grid0.Coords, EltTy.bits .f32 = 32 ∨ (Rect.block (s := S1024x16384) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S1024x512.size a
  hwx0_4 : ∀ i : grid0.Coords, EltTy.bits .f32 = 32 ∨ (Rect.block (s := S1024x512) S512x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S1024x16384.size a
  hwx1_0 : ∀ i : grid1.Coords, EltTy.bits .f32 = 32 ∨ (Rect.block (s := S1024x16384) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x16384.size a
  hwx1_1 : ∀ i : grid1.Coords, EltTy.bits .f32 = 32 ∨ (Rect.block (s := S4096x16384) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S1024x512.size a
  hwx1_3 : ∀ i : grid1.Coords, EltTy.bits .f32 = 32 ∨ (Rect.block (s := S1024x512) S256x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S4096x512.size a
  hwx1_4 : ∀ i : grid1.Coords, EltTy.bits .bf16 = 32 ∨ (Rect.block (s := S4096x512) S1024x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S4096.size a
  hwx1_5 : ∀ i : grid1.Coords, EltTy.bits .f32 = 32 ∨ (Rect.block (s := S4096) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S1024x4096.size a
  hwx1_6 : ∀ i : grid1.Coords, EltTy.bits .f32 = 32 ∨ (Rect.block (s := S1024x4096) S256x1024.size (cc1_transform_6 i) (hinb1_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1024x16384 : Shape := ⟨2, ![1024, 16384]⟩
abbrev S16384x512 : Shape := ⟨2, ![16384, 512]⟩
abbrev S4096x16384 : Shape := ⟨2, ![4096, 16384]⟩
abbrev S4096 : Shape := ⟨1, ![4096]⟩
abbrev S512x512 : Shape := ⟨2, ![512, 512]⟩
abbrev S512 : Shape := ⟨1, ![512]⟩
abbrev S4096x512 : Shape := ⟨2, ![4096, 512]⟩
abbrev S1024x512 : Shape := ⟨2, ![1024, 512]⟩
abbrev S_ : Shape := ⟨0, ![]⟩
abbrev S1x512 : Shape := ⟨2, ![1, 512]⟩
abbrev S512x4096 : Shape := ⟨2, ![512, 4096]⟩
abbrev S1024x4096 : Shape := ⟨2, ![1024, 4096]⟩
abbrev S1x4096 : Shape := ⟨2, ![1, 4096]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x512, .f32⟩
  | .hbm, ⟨2, _⟩ => ⟨S4096x16384, .f32⟩
  | .hbm, ⟨3, _⟩ => ⟨S4096, .f32⟩
  | .hbm, ⟨4, _⟩ => ⟨S512x512, .f32⟩
  | .hbm, ⟨5, _⟩ => ⟨S512, .f32⟩
  | .hbm, ⟨6, _⟩ => ⟨S4096x512, .f32⟩
  | .hbm, ⟨7, _⟩ => ⟨S4096, .f32⟩
  | .hbm, ⟨8, _⟩ => ⟨S1024x512, .f32⟩
  | .hbm, ⟨9, _⟩ => ⟨S1024x16384, .f32⟩
  | .hbm, ⟨10, _⟩ => ⟨S16384x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S512x512, .f32⟩
  | .hbm, ⟨18, _⟩ => ⟨S1024x512, .f32⟩
  | .hbm, ⟨19, _⟩ => ⟨S1x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S512x4096, .f32⟩
  | .hbm, ⟨26, _⟩ => ⟨S1024x4096, .f32⟩
  | .hbm, ⟨27, _⟩ => ⟨S1x4096, .f32⟩
  | .hbm, ⟨28, _⟩ => ⟨S1024x4096, .f32⟩
  | .hbm, ⟨29, _⟩ => ⟨S1024x4096, .f32⟩
  | .hbm, ⟨30, _⟩ => ⟨S16384x4096, .f32⟩
  | .hbm, ⟨31, _⟩ => ⟨S1024x4096, .f32⟩
  | .hbm, ⟨32, _⟩ => ⟨S1x4096, .f32⟩
  | .hbm, ⟨33, _⟩ => ⟨S1024x4096, .f32⟩
  | .hbm, ⟨34, _⟩ => ⟨S1024x4096, .f32⟩
  | .hbm, ⟨35, _⟩ => ⟨S1024x4096, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  transposes_S512x512_S512x512_1_0 : S512x512.Transposes [1, 0] S512x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  transposes_S4096x512_S512x4096_1_0 : S4096x512.Transposes [1, 0] S512x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S4096x16384_S16384x4096_1_0 : S4096x16384.Transposes [1, 0] S16384x4096
  dot_S1024x16384_S16384x512_S1024x512_1_0_0_1_n_n_wf : DotDims.WF S1024x16384 S16384x512 S1024x512 [1] [0] [0] [1] [] []
  dot_S1024x512_S512x512_S1024x512_1_0_0_1_n_n_wf : DotDims.WF S1024x512 S512x512 S1024x512 [1] [0] [0] [1] [] []
  dot_S1024x512_S512x4096_S1024x4096_1_0_0_1_n_n_wf : DotDims.WF S1024x512 S512x4096 S1024x4096 [1] [0] [0] [1] [] []
  dot_S1024x16384_S16384x4096_S1024x4096_1_0_0_1_n_n_wf : DotDims.WF S1024x16384 S16384x4096 S1024x4096 [1] [0] [0] [1] [] []

variable [Facts₀]

def dot_S1024x16384_S16384x512_S1024x512_1_0_0_1_n_n : DotDims S1024x16384 S16384x512 S1024x512 where
  lhsContracting := [1]
  rhsContracting := [0]
  lhsNonContracting := [0]
  rhsNonContracting := [1]
  lhsBatch := []
  rhsBatch := []
  wf := dot_S1024x16384_S16384x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x4096_S1024x4096_1_0_0_1_n_n : DotDims S1024x512 S512x4096 S1024x4096 where
  lhsContracting := [1]
  rhsContracting := [0]
  lhsNonContracting := [0]
  rhsNonContracting := [1]
  lhsBatch := []
  rhsBatch := []
  wf := dot_S1024x512_S512x4096_S1024x4096_1_0_0_1_n_n_wf
def dot_S1024x16384_S16384x4096_S1024x4096_1_0_0_1_n_n : DotDims S1024x16384 S16384x4096 S1024x4096 where
  lhsContracting := [1]
  rhsContracting := [0]
  lhsNonContracting := [0]
  rhsNonContracting := [1]
  lhsBatch := []
  rhsBatch := []
  wf := dot_S1024x16384_S16384x4096_S1024x4096_1_0_0_1_n_n_wf

class Facts : Prop extends Facts₀ where

variable [Facts]
-- ==== Proof.K.Whole.lean ====
/-
  The run of the whole program from its two kernel regions.

  @main is: two host conversions (the two small weight matrices rounded to bf16), then the first kernel region (the
  factorization-machine interaction and the first layer, result `main_v2`), then the second (the linear branch, the
  second layer and the biases, result `main_v3`).  Each region is described by a record of five facts about its
  pipeline, stated at the buffer contents `V` the region is entered from: the proof data (what every staging buffer
  holds after the body at every grid point, and the invariant carrying the accumulators between points), that its
  arrays are `V`'s, the body obligation, and how the scoped rest becomes the invariant before the first point and is
  given back after the last.  From two such records this module builds the two region segments, chains them behind the
  host stretch, and proves: every weakly fair execution of @main terminates, nothing faulting, with EVERY unscoped
  buffer at a named valuation `Wend` — the launch contents, then the host stretch, then each region's arrays at what its
  write-backs leave.  The arguments read back through that valuation to the launch memory, and the result buffer
  `main_v3` to the second region's final output array, the first region's final output array being what the second
  finds in `main_v2`.
-/
import proofs.«181743_j4071628997276_2_alg».proof.Proof.Gen.Kernel.Launch
import proofs.«181743_j4071628997276_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents a region is entered from, per core, read at the TensorCore's references. -/
abbrev Entry (F : FTy → Type) [FloatOps F] : Type :=
  (c : Dev nD) → (b : Ref sig .tc) → Buf (Elt F) ((c : Thread nD τ).loc b)

/-- What the run needs to know of the first region, at any entry contents. -/
structure Half0 (F : FTy → Type) [FloatOps F] where
  dat : Entry F → (c : Dev nD) → Dat τ (Elt F) Unit ℕ (UR sig nD τ) ℕ cfg0 c
  arrays : ∀ V c (w : Fin cfg0.W), (dat V c).A w = V c (Pipeline.arrRef spec0 w)
  shares : ∀ V c (w : Fin cfg0.W), (dat V c).q w = fullShare
  owes_nothing : ∀ V c t, (dat V c).owed t = 0
  records_all : ∀ V c t, (dat V c).recorded t = Set.univ
  body : ∀ V c, BodyObligation (dat V c) (defs₀ (F := F)) Variants.none () Set.univ
  enter : ∀ V c, Pipeline.ΦA spec0 c ⊢ (dat V c).Φ 0
  leave : ∀ V c, (dat V c).Φ (Fin.last cfg0.N) ⊢ Pipeline.ΦA spec0 c

/-- The same of the second region. -/
structure Half1 (F : FTy → Type) [FloatOps F] where
  dat : Entry F → (c : Dev nD) → Dat τ (Elt F) Unit ℕ (UR sig nD τ) ℕ cfg1 c
  arrays : ∀ V c (w : Fin cfg1.W), (dat V c).A w = V c (Pipeline.arrRef spec1 w)
  shares : ∀ V c (w : Fin cfg1.W), (dat V c).q w = fullShare
  owes_nothing : ∀ V c t, (dat V c).owed t = 0
  records_all : ∀ V c t, (dat V c).recorded t = Set.univ
  body : ∀ V c, BodyObligation (dat V c) (defs₀ (F := F)) Variants.none () Set.univ
  enter : ∀ V c, Pipeline.ΦA spec1 c ⊢ (dat V c).Φ 0
  leave : ∀ V c, (dat V c).Φ (Fin.last cfg1.N) ⊢ Pipeline.ΦA spec1 c

variable (m : (ℓ : Loc nD τ sig) → Buf (Elt F) ℓ) (ρ : Dev nD → PrngReg) (h0 : Half0 F) (h1 : Half1 F)

/-! ## The buffer contents at each boundary -/

/-- At launch. -/
abbrev Wlaunch : Dev nD → Valuation τ sig (Elt F) := fun c b => m (c, b)
/-- After the two host conversions: what the first region is entered from. -/
abbrev Whost : Dev nD → Valuation τ sig (Elt F) := fun c => StableHlo.after hostOps0 (Wlaunch m c)
abbrev Vhost : Entry F := fun c b => Whost m c b
/-- After the first region: its arrays at what its write-backs leave, everything else as entered. -/
def Wmid (c : Dev nD) : Valuation τ sig (Elt F) :=
  Pipeline.withArrays spec0 c (Whost m c) fun w => (h0.dat (Vhost m) c).arrAt w cfg0.N
abbrev Vmid : Entry F := fun c b => Wmid m h0 c b
/-- After the second region. -/
def Wend (c : Dev nD) : Valuation τ sig (Elt F) :=
  Pipeline.withArrays spec1 c (Wmid m h0 c) fun w => (h1.dat (Vmid m h0) c).arrAt w cfg1.N
abbrev Vend : Entry F := fun c b => Wend m h0 h1 c b

theorem Wmid_arr (c : Dev nD) (w : Fin cfg0.W) :
    Wmid m h0 c (Proc.devRef .tc (Pipeline.arrRef spec0 w)) = (h0.dat (Vhost m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid m h0 c (Proc.devRef .tc b) = Whost m c (Proc.devRef .tc b) := by
  unfold Wmid; exact Pipeline.withArrays_of_ne spec0 c _ _ b hb
theorem Wend_arr (c : Dev nD) (w : Fin cfg1.W) :
    Wend m h0 h1 c (Proc.devRef .tc (Pipeline.arrRef spec1 w)) = (h1.dat (Vmid m h0) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m h0 h1 c (Proc.devRef .tc b) = Wmid m h0 c (Proc.devRef .tc b) := by
  unfold Wend; exact Pipeline.withArrays_of_ne spec1 c _ _ b hb

theorem mid_arrays (c : Dev nD) (w : Fin cfg0.W) : (h0.dat (Vhost m) c).arrAt w cfg0.N = Vmid m h0 c (Pipeline.arrRef spec0 w) :=
  (Wmid_arr m h0 c w).symm
theorem mid_rest (c : Dev nD) : ∀ b, b ∉ Finset.univ.image (Pipeline.arrRef spec0) → Vmid m h0 c b = Vhost m c b :=
  fun b hb => Wmid_of_ne m h0 c b fun w e => hb (Finset.mem_image.mpr ⟨w, Finset.mem_univ _, e⟩)
theorem end_arrays (c : Dev nD) (w : Fin cfg1.W) : (h1.dat (Vmid m h0) c).arrAt w cfg1.N = Vend m h0 h1 c (Pipeline.arrRef spec1 w) :=
  (Wend_arr m h0 h1 c w).symm
theorem end_rest (c : Dev nD) : ∀ b, b ∉ Finset.univ.image (Pipeline.arrRef spec1) → Vend m h0 h1 c b = Vmid m h0 c b :=
  fun b hb => Wend_of_ne m h0 h1 c b fun w e => hb (Finset.mem_image.mpr ⟨w, Finset.mem_univ _, e⟩)

/-! ## The proof data family and the thread state -/

abbrev adm : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => h0.dat (Vhost m) c
  | ⟨1, _⟩ => fun c => h1.dat (Vmid m h0) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wlaunch m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (Wend m h0 h1 c) ∗ ∃ r, prngReg c r)

/-! ## The regions as segments -/

set_option backward.isDefEq.respectTransparency.types false in
/-- The first region: entered from every unscoped buffer at `Whost`, left at `Wmid`. -/
def reg0 : Pipeline.RegionSeg (pcfgs (F := F)) adm (pdats m h0 h1) () defs₀ 𝒱₀ L lv 0 where
  win := launch0.win.to₀
  block_pos := launch0.block_pos
  stage_whole := launch0.stage_whole
  K := PEmpty
  osem k := k.elim
  ho := Pipeline.OwnSemFacts.none _
  hbody c := (h0.body (Vhost m) c).loose
  hwaits := Pipeline.hwaits_of_owed_zero _ _ _ _ L lv 0 fun c t => h0.owes_nothing (Vhost m) c t
  pre c := iprop(StableHlo.held (c : Thread nD τ) (Pipeline.ucRefs τ sig) (Whost m c) ∗ R c)
  post c := iprop(StableHlo.held (c : Thread nD τ) (Pipeline.ucRefs τ sig) (Wmid m h0 c) ∗ R c)
  X c := iprop(∃ r, prngReg c r)
  Y c := iprop(∃ r, prngReg c r)
  Z c := Pipeline.unscopedRest (Ix := Unit) (Name := ℕ) (U := UR sig nD τ) (Lvl := ℕ) spec0 c (Vhost m c)
  hentry c := by
    rw [Pipeline.ownSems0_none]
    have hsplit := Pipeline.arrays_of_unscopedBufs (p := 0) (pcfgs (F := F)) adm (pdats m h0 h1) launch0.win launch0.arr_whole c
      ((pdats m h0 h1 0 c).share_full (h0.shares (Vhost m) c)) (Vhost m c) (h0.arrays (Vhost m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hr : (pdats m h0 h1 0 c).recorded 0 = Set.univ := h0.records_all (Vhost m) c 0
      have ho : (pdats m h0 h1 0 c).owed 0 = 0 := h0.owes_nothing (Vhost m) c 0
      unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ (h0.enter (Vhost m) c)
    unfold Pipeline.ΦA
    iintro ⟨Hp, -, Hr⟩
    isplitl [Hr]; · iexact Hr
    iexact Hp
  hout c := by
    rw [Pipeline.ownSems0_none]
    refine BIBase.Entails.trans (h0.leave (Vhost m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1) ((pdats m h0 h1 0 c).share_full (h0.shares (Vhost m) c))
      (Vhost m c) (Vmid m h0 c) ((pdats m h0 h1 0 c).arrAt · cfg0.N) (mid_arrays m h0 c) (mid_rest m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    have ho : (pdats m h0 h1 0 c).owed (Fin.last (Pipeline.pin (pcfgs (F := F)) adm 0).N) = 0 := h0.owes_nothing (Vhost m) c _
    unfold Pipeline.Dat.owesAt Pipeline.owesWithin
    rw [ho]
    icases HO with ⟨%W, -, HO⟩; iexists W; iexact HO

set_option backward.isDefEq.respectTransparency.types false in
/-- The second region: entered from every unscoped buffer at `Wmid`, left at `Wend`. -/
def reg1 : Pipeline.RegionSeg (pcfgs (F := F)) adm (pdats m h0 h1) () defs₀ 𝒱₀ L lv 1 where
  win := launch1.win.to₀
  block_pos := launch1.block_pos
  stage_whole := launch1.stage_whole
  K := PEmpty
  osem k := k.elim
  ho := Pipeline.OwnSemFacts.none _
  hbody c := (h1.body (Vmid m h0) c).loose
  hwaits := Pipeline.hwaits_of_owed_zero _ _ _ _ L lv 1 fun c t => h1.owes_nothing (Vmid m h0) c t
  pre c := iprop(StableHlo.held (c : Thread nD τ) (Pipeline.ucRefs τ sig) (Wmid m h0 c) ∗ R c)
  post c := iprop(Tend m h0 h1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m h0 c)
  hentry c := by
    rw [Pipeline.ownSems0_none]
    have hsplit := Pipeline.arrays_of_unscopedBufs (p := 1) (pcfgs (F := F)) adm (pdats m h0 h1) launch1.win launch1.arr_whole c
      ((pdats m h0 h1 1 c).share_full (h1.shares (Vmid m h0) c)) (Vmid m h0 c) (h1.arrays (Vmid m h0) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hr : (pdats m h0 h1 1 c).recorded 0 = Set.univ := h1.records_all (Vmid m h0) c 0
      have ho : (pdats m h0 h1 1 c).owed 0 = 0 := h1.owes_nothing (Vmid m h0) c 0
      unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ (h1.enter (Vmid m h0) c)
    unfold Pipeline.ΦA
    iintro ⟨Hp, -, Hr⟩
    isplitl [Hr]; · iexact Hr
    iexact Hp
  hout c := by
    rw [Pipeline.ownSems0_none]
    refine BIBase.Entails.trans (h1.leave (Vmid m h0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1) ((pdats m h0 h1 1 c).share_full (h1.shares (Vmid m h0) c))
      (Vmid m h0 c) (Vend m h0 h1 c) ((pdats m h0 h1 1 c).arrAt · cfg1.N) (end_arrays m h0 h1 c) (end_rest m h0 h1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have ho : (pdats m h0 h1 1 c).owed (Fin.last (Pipeline.pin (pcfgs (F := F)) adm 1).N) = 0 := h1.owes_nothing (Vmid m h0) c _
    unfold Pipeline.Dat.owesAt Pipeline.owesWithin
    rw [ho]
    icases HO with ⟨%W, -, HO⟩; iexists W; iexact HO

/-! ## @main as segments, and the run -/

abbrev segs : List (Pipeline.Seg (pcfgs (F := F)) adm (pdats m h0 h1) () defs₀ 𝒱₀ L lv) :=
  [ .host (hostSeg m), .region (reg0 m h0 h1), .region (reg1 m h0 h1) ]

theorem main_run (c : Dev nD) : main (F := F) c = Pipeline.Seg.run (segs m h0 h1) := (main_chain c).trans (by chain_rfl)

set_option backward.isDefEq.respectTransparency.types false in
/-- THE RUN: from any memory with zero counters every weakly fair execution of @main terminates, nothing faulting, and
    the final memory holds every unscoped buffer at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m h0 h1 c b) :=
  Pipeline.θ_run_regions_kit (pcfgs (F := F)) adm (pdats m h0 h1) () cellOf_inj emb₁ defs₀ 𝒱₀ L lv m ρ main (segs m h0 h1)
    (fun c Q => by rw [main_run m h0 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m c) ∗ R c)) (Tₙ := Tend m h0 h1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m c)
        from Pipeline.unscopedBufs_held c (Wlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m h0 h1 c b)
    (hfin := fun c s' => by
      iintro ⟨⟨Hh, -⟩, HSI⟩
      unfold StableHlo.held
      imodintro
      iapply (pointsTo_read_all (Pipeline.ucRefs τ sig) (fun b => (((c : Thread nD τ)).1, b)) (Wend m h0 h1 c) s')
      isplitl [Hh] <;> iassumption)
    (hQ := fun s h c => h c)

end Cert.Kernel.Whole

end
-- ==== Proof.K.Ends.lean ====
/-
  The final valuation read back.

  `Wend` is the launch memory pushed through the host stretch and the two regions.  No host operation and no region
  writes an argument: a region either reads it through an input window (whose array the write-backs leave as entered) or
  does not touch it; so every argument reads back to the launch memory at every boundary.  The two converted weight
  matrices `main_v0`, `main_v1` hold the host conversion of their arguments from the host stretch on; `main_v2` holds
  the first region's output array from the first region on; `main_v3` ends at the second region's output array.
-/
import proofs.«181743_j4071628997276_2_alg».proof.Proof.K.Whole
import Idealize.ShloMosaic.Lib.StableHlo.Run

noncomputable section

namespace Cert.Kernel.Whole

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (h0 : Half0 F) (h1 : Half1 F)

/-! ## After the host stretch -/

theorem Whost_of (c : Dev nD) (r : Ref sig .tc) (h : r ∉ hostOps0_W) : Whost m c (Proc.devRef .tc r) = m ((c : Thread nD τ).loc r) :=
  Gen.V1_of m c r h

/-- The first small weight matrix, converted. -/
theorem Whost_main_v0 (c : Dev nD) :
    Whost m c (Proc.devRef .tc main_v0) = truncf .bf16 (m ((c : Thread nD τ).loc main_arg4)) bitsLt_bf16_f32 := by
  dsimp only [Whost, Wlaunch, hostOps0]; after_results <;> rfl

/-- The second small weight matrix, converted. -/
theorem Whost_main_v1 (c : Dev nD) :
    Whost m c (Proc.devRef .tc main_v1) = truncf .bf16 (m ((c : Thread nD τ).loc main_arg6)) bitsLt_bf16_f32 := by
  dsimp only [Whost, Wlaunch, hostOps0]; after_results <;> rfl

/-! ## After the first region -/

/-- An input window's array is left as entered. -/
theorem Wmid_in (c : Dev nD) (w : Fin cfg0.W) (hw : (cfg0.win w).isOut = false) :
    Wmid m h0 c (Proc.devRef .tc (Pipeline.arrRef spec0 w)) = Whost m c (Proc.devRef .tc (Pipeline.arrRef spec0 w)) :=
  (Wmid_arr m h0 c w).trans (((h0.dat (Vhost m) c).arrAt_in w hw _).trans (h0.arrays (Vhost m) c w))

theorem Wmid_main_arg0 (c : Dev nD) : Wmid m h0 c (Proc.devRef .tc main_arg0) = m ((c : Thread nD τ).loc main_arg0) :=
  (Wmid_in m h0 c 0 rfl).trans (Whost_of m c main_arg0 (by decide))
theorem Wmid_main_arg1 (c : Dev nD) : Wmid m h0 c (Proc.devRef .tc main_arg1) = m ((c : Thread nD τ).loc main_arg1) :=
  (Wmid_in m h0 c 1 rfl).trans (Whost_of m c main_arg1 (by decide))
theorem Wmid_main_arg2 (c : Dev nD) : Wmid m h0 c (Proc.devRef .tc main_arg2) = m ((c : Thread nD τ).loc main_arg2) :=
  (Wmid_of_ne m h0 c main_arg2 (by decide)).trans (Whost_of m c main_arg2 (by decide))
theorem Wmid_main_arg3 (c : Dev nD) : Wmid m h0 c (Proc.devRef .tc main_arg3) = m ((c : Thread nD τ).loc main_arg3) :=
  (Wmid_of_ne m h0 c main_arg3 (by decide)).trans (Whost_of m c main_arg3 (by decide))
theorem Wmid_main_arg4 (c : Dev nD) : Wmid m h0 c (Proc.devRef .tc main_arg4) = m ((c : Thread nD τ).loc main_arg4) :=
  (Wmid_of_ne m h0 c main_arg4 (by decide)).trans (Whost_of m c main_arg4 (by decide))
theorem Wmid_main_arg5 (c : Dev nD) : Wmid m h0 c (Proc.devRef .tc main_arg5) = m ((c : Thread nD τ).loc main_arg5) :=
  (Wmid_in m h0 c 3 rfl).trans (Whost_of m c main_arg5 (by decide))
theorem Wmid_main_arg6 (c : Dev nD) : Wmid m h0 c (Proc.devRef .tc main_arg6) = m ((c : Thread nD τ).loc main_arg6) :=
  (Wmid_of_ne m h0 c main_arg6 (by decide)).trans (Whost_of m c main_arg6 (by decide))
theorem Wmid_main_arg7 (c : Dev nD) : Wmid m h0 c (Proc.devRef .tc main_arg7) = m ((c : Thread nD τ).loc main_arg7) :=
  (Wmid_of_ne m h0 c main_arg7 (by decide)).trans (Whost_of m c main_arg7 (by decide))
theorem Wmid_main_v1 (c : Dev nD) :
    Wmid m h0 c (Proc.devRef .tc main_v1) = truncf .bf16 (m ((c : Thread nD τ).loc main_arg6)) bitsLt_bf16_f32 :=
  (Wmid_of_ne m h0 c main_v1 (by decide)).trans (Whost_main_v1 m c)
/-- The hidden layer's buffer holds the first region's output array. -/
theorem Wmid_main_v2 (c : Dev nD) : Wmid m h0 c (Proc.devRef .tc main_v2) = (h0.dat (Vhost m) c).arrAt 4 cfg0.N :=
  Wmid_arr m h0 c 4

/-! ## After the second region -/

theorem Wend_in (c : Dev nD) (w : Fin cfg1.W) (hw : (cfg1.win w).isOut = false) :
    Wend m h0 h1 c (Proc.devRef .tc (Pipeline.arrRef spec1 w)) = Wmid m h0 c (Proc.devRef .tc (Pipeline.arrRef spec1 w)) :=
  (Wend_arr m h0 h1 c w).trans (((h1.dat (Vmid m h0) c).arrAt_in w hw _).trans (h1.arrays (Vmid m h0) c w))

theorem Wend_main_arg0 (c : Dev nD) : Wend m h0 h1 c (Proc.devRef .tc main_arg0) = m ((c : Thread nD τ).loc main_arg0) :=
  (Wend_in m h0 h1 c 0 rfl).trans (Wmid_main_arg0 m h0 c)
theorem Wend_main_arg1 (c : Dev nD) : Wend m h0 h1 c (Proc.devRef .tc main_arg1) = m ((c : Thread nD τ).loc main_arg1) :=
  (Wend_of_ne m h0 h1 c main_arg1 (by decide)).trans (Wmid_main_arg1 m h0 c)
theorem Wend_main_arg2 (c : Dev nD) : Wend m h0 h1 c (Proc.devRef .tc main_arg2) = m ((c : Thread nD τ).loc main_arg2) :=
  (Wend_in m h0 h1 c 1 rfl).trans (Wmid_main_arg2 m h0 c)
theorem Wend_main_arg3 (c : Dev nD) : Wend m h0 h1 c (Proc.devRef .tc main_arg3) = m ((c : Thread nD τ).loc main_arg3) :=
  (Wend_in m h0 h1 c 2 rfl).trans (Wmid_main_arg3 m h0 c)
theorem Wend_main_arg4 (c : Dev nD) : Wend m h0 h1 c (Proc.devRef .tc main_arg4) = m ((c : Thread nD τ).loc main_arg4) :=
  (Wend_of_ne m h0 h1 c main_arg4 (by decide)).trans (Wmid_main_arg4 m h0 c)
theorem Wend_main_arg5 (c : Dev nD) : Wend m h0 h1 c (Proc.devRef .tc main_arg5) = m ((c : Thread nD τ).loc main_arg5) :=
  (Wend_of_ne m h0 h1 c main_arg5 (by decide)).trans (Wmid_main_arg5 m h0 c)
theorem Wend_main_arg6 (c : Dev nD) : Wend m h0 h1 c (Proc.devRef .tc main_arg6) = m ((c : Thread nD τ).loc main_arg6) :=
  (Wend_of_ne m h0 h1 c main_arg6 (by decide)).trans (Wmid_main_arg6 m h0 c)
theorem Wend_main_arg7 (c : Dev nD) : Wend m h0 h1 c (Proc.devRef .tc main_arg7) = m ((c : Thread nD τ).loc main_arg7) :=
  (Wend_in m h0 h1 c 5 rfl).trans (Wmid_main_arg7 m h0 c)
/-- The result buffer ends at the second region's output array. -/
theorem Wend_main_v3 (c : Dev nD) : Wend m h0 h1 c (Proc.devRef .tc main_v3) = (h1.dat (Vmid m h0) c).arrAt 6 cfg1.N :=
  Wend_arr m h0 h1 c 6

/-! ## The run, with the result named and the arguments read back -/

/-- Every weakly fair execution of @main terminates, nothing faulting; the result buffer ends at the second region's
    output array (entered from the first region's), and every argument array as launched. -/
theorem run_named (ρ : Dev nD → PrngReg) :
    θ_run defs (onTc (τ := τ) (main (F := F))) ⟨m, fun _ => 0, ρ⟩ (fun r => ∀ c : Dev nD,
      r.2.mem ((c.tc : Thread nD τ).loc main_v3) = (h1.dat (Vmid m h0) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v3 (by decide))).trans (Wend_main_v3 m h0 h1 c),
     (h c _ (mem_uc main_arg0 (by decide))).trans (Wend_main_arg0 m h0 h1 c),
     (h c _ (mem_uc main_arg1 (by decide))).trans (Wend_main_arg1 m h0 h1 c),
     (h c _ (mem_uc main_arg2 (by decide))).trans (Wend_main_arg2 m h0 h1 c),
     (h c _ (mem_uc main_arg3 (by decide))).trans (Wend_main_arg3 m h0 h1 c),
     (h c _ (mem_uc main_arg4 (by decide))).trans (Wend_main_arg4 m h0 h1 c),
     (h c _ (mem_uc main_arg5 (by decide))).trans (Wend_main_arg5 m h0 h1 c),
     (h c _ (mem_uc main_arg6 (by decide))).trans (Wend_main_arg6 m h0 h1 c),
     (h c _ (mem_uc main_arg7 (by decide))).trans (Wend_main_arg7 m h0 h1 c)⟩)
    (run_all m ρ h0 h1)

include h0 h1 in
/-- The frame claim's post: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_named m h0 h1 ρ)

end Cert.Kernel.Whole

end
-- ==== Proof.K.R0Runs.lean ====
/- The first region (the factorization-machine sums and the first dense layer), what its three control cases share:
   the blocks the windows read, the two branch conditions in closed form over the grid, where the output window is
   idle, the staging and scratch memrefs at a point, and the region's invariant with the two running sums named. -/
import proofs.«181743_j4071628997276_2_alg».proof.Proof.Gen.Kernel.Launch
import proofs.«181743_j4071628997276_2_alg».proof.Proof.Gen.Kernel.Skeleton
import proofs.«181743_j4071628997276_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of the first factor (512 rows, 1024 columns of the contracted axis)) is found in its current staging buffer at every point, fetched there
    or not: unfetched, the block index has not moved. For any proof data whose array is `V`'s and whose body leaves
    the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the block of the second factor (1024 rows of the contracted axis, 512 columns)) is found in its current staging buffer at every point, fetched there
    or not: unfetched, the block index has not moved. For any proof data whose array is `V`'s and whose body leaves
    the block in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the whole weight matrix) is found in its current staging buffer at every point, fetched there
    or not: unfetched, the block index has not moved. For any proof data whose array is `V`'s and whose body leaves
    the block in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the whole bias vector) is found in its current staging buffer at every point, fetched there
    or not: unfetched, the block index has not moved. For any proof data whose array is `V`'s and whose body leaves
    the block in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions

The grid is 2 × 16: point `t` is row block `t / 16`, step `t % 16` along the contracted axis. -/

/-- The first branch: the step along the contracted axis is 0 (the running sums are reset). -/
abbrev atFirst (i : grid0.Coords) : Prop := (Scalar.cmpi .ne (Scalar.extui (Scalar.cmpi .eq (BitVec.ofNat 32 (i 1).val) 0#32)) 0#32) = 1#1
/-- It holds at the points ≡ 0 (mod 16). -/
theorem atFirst_iff : ∀ t : Fin cfg0.N, atFirst (grid0.coords t) ↔ t.val % 16 = 0 :=
  (by decide +kernel : ∀ t : Fin grid0.N, atFirst (grid0.coords t) ↔ t.val % 16 = 0)

/-- The second branch: the step along the contracted axis is 15, the last (the output block is stored). -/
abbrev atLast (i : grid0.Coords) : Prop := k0_cond2 i = 1#1
/-- It holds at the points ≡ 15 (mod 16). -/
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

/-- The inputs are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- At a first step the output window is idle (nothing is stored into it) -/
theorem idle4_first : ∀ t : Fin cfg0.N, atFirst (grid0.coords t) → ¬atLast (grid0.coords t) → cfg0.idle 4 (grid0.coords t) = true := by decide +kernel
/-- and not written back. -/
theorem noFlush4_first : ∀ t : Fin cfg0.N, atFirst (grid0.coords t) → ¬atLast (grid0.coords t) → (cfg0.win 4).flush t = false := by decide +kernel
/-- At a middle step likewise: idle -/
theorem idle4_mid : ∀ t : Fin cfg0.N, ¬atFirst (grid0.coords t) → ¬atLast (grid0.coords t) → cfg0.idle 4 (grid0.coords t) = true := by decide +kernel
/-- and not written back. -/
theorem noFlush4_mid : ∀ t : Fin cfg0.N, ¬atFirst (grid0.coords t) → ¬atLast (grid0.coords t) → (cfg0.win 4).flush t = false := by decide +kernel
/-- At a last step the output window is live: its block is stored whole. -/
theorem live4_last : ∀ t : Fin cfg0.N, ¬atFirst (grid0.coords t) → atLast (grid0.coords t) → cfg0.idle 4 (grid0.coords t) = false := by decide +kernel

/-! ## The memrefs at a point -/

/-- One staging buffer of the output window, through which its contents are stated (the choice does not matter). -/
abbrev VO : View sig .tc .vmem S512x512 .f32 := (Memref.whole cc0_stg4_0 : Memref sig .tc .vmem S512x512 .f32).view
/-- Each window's current staging memref at point `t`, spelled as the pipeline passes it, and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
/-- The two scratch operands, carried between points: the running sum of the products -/
abbrev scS : Memref sig .tc .vmem S512x512 .f32 := Memref.whole cc0_scratch0
/-- and the running sum of the products of the squares. -/
abbrev scQ : Memref sig .tc .vmem S512x512 .f32 := Memref.whole cc0_scratch1
/-- The same as views: what they hold is stated through these. -/
abbrev VS : View sig .tc .vmem S512x512 .f32 := scS.view
abbrev VQ : View sig .tc .vmem S512x512 .f32 := scQ.view

/-! ## The region's invariant -/

/-- The scoped buffers of the OTHER region, each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The invariant the launch hands the region, with the two running sums as memrefs owned at some contents:
    what the body obligation hands a run and takes back. -/
theorem PhiA_eq (c : Dev nD) :
    (Pipeline.ΦA spec0 c : sProp 𝕄)
      = iprop(iprop((∃ d, owns (c : Thread nD τ) scS fullShare d) ∗ (∃ d, owns (c : Thread nD τ) scQ fullShare d) ∗ otherScoped (F := F) c) ∗ (∃ r, prngReg c r)) := by
  unfold Pipeline.ΦA otherScoped; rw [scopedRest0_eq]; simp only [scS, scQ, owns_whole]; try rfl

end Cert.Kernel.R0

end
-- ==== Proof.K.R0RunFirst.lean ====
/- The body's run at a FIRST step along the contracted axis: both running sums are stored whole with zeros and then
   added to; nothing is stored into the output block. The pieces each running sum ends with are found by the run. -/
import proofs.«181743_j4071628997276_2_alg».proof.Proof.K.R0Runs

-- membership in a rectangle of full extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a first step: on whole memrefs — the four inputs at their contents, the output's buffer at contents `xi4`
    handed back untouched, the two running sums at anything — the body runs to the continuation holding the inputs as
    they were, the output's buffer as it was, and each running sum with its pieces (`LS`, `LQ`, last first) written. -/
noncomputable def runFirst (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) :
    Σ' (L4 : List (View.Piece (Elt F) S512x512 .f32)) (LS : List (View.Piece (Elt F) S512x512 .f32)), { LQ : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc0__fm_mlp_kernel i arg2 harg2 arg3 harg3 arg4 harg4 arg5 harg5 arg6 harg6 arg7 harg7 arg8 harg8) K } := by
  refine ⟨[], ?_, ?_, fun xi4 E K => ?run⟩
  case run =>
    simp only [cc0__fm_mlp_kernel_eq_skeleton]; unfold cc0__fm_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, ⟨%dq, %fq, -, HQ⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]; · iexists _; iexact HS
    iexists _; iexact HQ

end Cert.Kernel.R0

end
-- ==== Proof.K.R0RunMid.lean ====
/- The body's run at a MIDDLE step along the contracted axis: both running sums are added to; nothing is stored into
   the output block. The pieces each running sum ends with are found by the run. -/
import proofs.«181743_j4071628997276_2_alg».proof.Proof.K.R0Runs

-- membership in a rectangle of full extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle step: on whole memrefs — the four inputs at their contents, the output's buffer at contents `xi4`
    handed back untouched, the two running sums at what the step before left (`xs`, `xq`) — the body runs to the
    continuation holding the inputs and the output's buffer as they were and each running sum with its pieces written. -/
noncomputable def runMid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) :
    Σ' (L4 : List (View.Piece (Elt F) S512x512 .f32)) (LS : List (View.Piece (Elt F) S512x512 .f32)), { LQ : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs ∗ owns (c : Thread nD τ) arg8 fullShare xq
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc0__fm_mlp_kernel i arg2 harg2 arg3 harg3 arg4 harg4 arg5 harg5 arg6 harg6 arg7 harg7 arg8 harg8) K } := by
  refine ⟨[], ?_, ?_, fun xi4 E K => ?run⟩
  case run =>
    simp only [cc0__fm_mlp_kernel_eq_skeleton]; unfold cc0__fm_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, ⟨%fq, %hfq, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs; obtain rfl := harg8.eq_unread hfq
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]; · iexists _; iexact HS
    iexists _; iexact HQ

end Cert.Kernel.R0

end
-- ==== Proof.K.R0RunLast.lean ====
/- The body's run at a LAST step along the contracted axis: both running sums are added to, then the output block is
   computed from them, the weights and the bias, and stored whole. The pieces each buffer ends with are found by the run. -/
import proofs.«181743_j4071628997276_2_alg».proof.Proof.K.R0Runs

-- membership in a rectangle of full extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a last step: on whole memrefs — the four inputs at their contents, the output's buffer at anything, the two
    running sums at what the step before left (`xs`, `xq`) — the body runs to the continuation holding the inputs as
    they were and the output's buffer and each running sum with their pieces (`L4`, `LS`, `LQ`) written. -/
noncomputable def runLast (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) :
    Σ' (L4 : List (View.Piece (Elt F) S512x512 .f32)) (LS : List (View.Piece (Elt F) S512x512 .f32)), { LQ : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs ∗ owns (c : Thread nD τ) arg8 fullShare xq
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc0__fm_mlp_kernel i arg2 harg2 arg3 harg3 arg4 harg4 arg5 harg5 arg6 harg6 arg7 harg7 arg8 harg8) K } := by
  refine ⟨?_, ?_, ?_, fun E K => ?run⟩
  case run =>
    simp only [cc0__fm_mlp_kernel_eq_skeleton]; unfold cc0__fm_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, ⟨%fq, %hfq, HQ⟩, Hk⟩
    obtain rfl := harg2.eq_unread hf0; obtain rfl := harg3.eq_unread hf1; obtain rfl := harg4.eq_unread hf2; obtain rfl := harg5.eq_unread hf3; obtain rfl := harg7.eq_unread hfs; obtain rfl := harg8.eq_unread hfq
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS]; · iexists _; iexact HS
    iexists _; iexact HQ

end Cert.Kernel.R0

end
-- ==== Proof.K.R0Body.lean ====
/- The first region's body at every grid point: what each control case leaves in the output's staging buffer and in
   the two running sums, those contents point by point (a recursion on the point), the proof data of the pipeline with
   the running sums carried in the invariant, and the body obligation — the case a point is in decided by the closed
   forms of the two branch conditions. -/
import proofs.«181743_j4071628997276_2_alg».proof.Proof.K.R0RunFirst
import proofs.«181743_j4071628997276_2_alg».proof.Proof.K.R0RunMid
import proofs.«181743_j4071628997276_2_alg».proof.Proof.K.R0RunLast

-- membership in a rectangle of full extents recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a first step nothing is stored into the output's buffer: no pieces — a placeholder nothing consults, the window being
    neither written back there nor read at the next point. -/
def out4_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) : Vec F S512x512 .f32 :=
  VO.read (Elt F) (VO.writes (Elt F) VO.junk (runFirst c i arg2 harg2 arg3 harg3 arg4 harg4 arg5 harg5 arg6 harg6 arg7 harg7 arg8 harg8 hc0 hc1 x0 x1 x2 x3).1)

/-- At a first step the stores into the running sum of the products tile it, so its pieces cover it. -/
theorem scoverS_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) (y : S512x512.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S512x512.size (by sl_kernel_rfl) y

/-- What a first step leaves in the running sum of the products: its pieces read back. -/
def soutS_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) : Vec F S512x512 .f32 :=
  VS.read (Elt F) (VS.writes (Elt F) VS.junk (runFirst c i arg2 harg2 arg3 harg3 arg4 harg4 arg5 harg5 arg6 harg6 arg7 harg7 arg8 harg8 hc0 hc1 x0 x1 x2 x3).2.1)

/-- At a first step the stores into the running sum of the products of the squares tile it, so its pieces cover it. -/
theorem scoverQ_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) (y : S512x512.Idx) :
    ∃ pc ∈ (runFirst c i arg2 harg2 arg3 harg3 arg4 harg4 arg5 harg5 arg6 harg6 arg7 harg7 arg8 harg8 hc0 hc1 x0 x1 x2 x3).2.2.1, y ∈ pc.1.set :=
  View.cover_of_tiledL (runFirst c i arg2 harg2 arg3 harg3 arg4 harg4 arg5 harg5 arg6 harg6 arg7 harg7 arg8 harg8 hc0 hc1 x0 x1 x2 x3).2.2.1 S512x512.size (by sl_kernel_rfl) y

/-- What a first step leaves in the running sum of the products of the squares: its pieces read back. -/
def soutQ_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) : Vec F S512x512 .f32 :=
  VQ.read (Elt F) (VQ.writes (Elt F) VQ.junk (runFirst c i arg2 harg2 arg3 harg3 arg4 harg4 arg5 harg5 arg6 harg6 arg7 harg7 arg8 harg8 hc0 hc1 x0 x1 x2 x3).2.2.1)

/-- At a middle step nothing is stored into the output's buffer: no pieces — a placeholder nothing consults, the window being
    neither written back there nor read at the next point. -/
def out4_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VO.read (Elt F) (VO.writes (Elt F) VO.junk (runMid c i arg2 harg2 arg3 harg3 arg4 harg4 arg5 harg5 arg6 harg6 arg7 harg7 arg8 harg8 hc0 hc1 x0 x1 x2 x3 xs xq).1)

/-- At a middle step the stores into the running sum of the products tile it, so its pieces cover it. -/
theorem scoverS_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runMid c i arg2 harg2 arg3 harg3 arg4 harg4 arg5 harg5 arg6 harg6 arg7 harg7 arg8 harg8 hc0 hc1 x0 x1 x2 x3 xs xq).2.1, y ∈ pc.1.set :=
  View.cover_of_tiledL (runMid c i arg2 harg2 arg3 harg3 arg4 harg4 arg5 harg5 arg6 harg6 arg7 harg7 arg8 harg8 hc0 hc1 x0 x1 x2 x3 xs xq).2.1 S512x512.size (by sl_kernel_rfl) y

/-- What a middle step leaves in the running sum of the products: its pieces read back. -/
def soutS_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VS.read (Elt F) (VS.writes (Elt F) VS.junk (runMid c i arg2 harg2 arg3 harg3 arg4 harg4 arg5 harg5 arg6 harg6 arg7 harg7 arg8 harg8 hc0 hc1 x0 x1 x2 x3 xs xq).2.1)

/-- At a middle step the stores into the running sum of the products of the squares tile it, so its pieces cover it. -/
theorem scoverQ_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runMid c i arg2 harg2 arg3 harg3 arg4 harg4 arg5 harg5 arg6 harg6 arg7 harg7 arg8 harg8 hc0 hc1 x0 x1 x2 x3 xs xq).2.2.1, y ∈ pc.1.set :=
  View.cover_of_tiledL (runMid c i arg2 harg2 arg3 harg3 arg4 harg4 arg5 harg5 arg6 harg6 arg7 harg7 arg8 harg8 hc0 hc1 x0 x1 x2 x3 xs xq).2.2.1 S512x512.size (by sl_kernel_rfl) y

/-- What a middle step leaves in the running sum of the products of the squares: its pieces read back. -/
def soutQ_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VQ.read (Elt F) (VQ.writes (Elt F) VQ.junk (runMid c i arg2 harg2 arg3 harg3 arg4 harg4 arg5 harg5 arg6 harg6 arg7 harg7 arg8 harg8 hc0 hc1 x0 x1 x2 x3 xs xq).2.2.1)

/-- At a last step the one store into the output's buffer tiles its block, so its pieces cover it. -/
theorem cover4_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runLast c i arg2 harg2 arg3 harg3 arg4 harg4 arg5 harg5 arg6 harg6 arg7 harg7 arg8 harg8 hc0 hc1 x0 x1 x2 x3 xs xq).1, y ∈ pc.1.set :=
  View.cover_of_tiledL (runLast c i arg2 harg2 arg3 harg3 arg4 harg4 arg5 harg5 arg6 harg6 arg7 harg7 arg8 harg8 hc0 hc1 x0 x1 x2 x3 xs xq).1 S512x512.size (by sl_kernel_rfl) y

/-- What a last step leaves in the output's staging buffer: its pieces read back. -/
def out4_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VO.read (Elt F) (VO.writes (Elt F) VO.junk (runLast c i arg2 harg2 arg3 harg3 arg4 harg4 arg5 harg5 arg6 harg6 arg7 harg7 arg8 harg8 hc0 hc1 x0 x1 x2 x3 xs xq).1)

/-- At a last step the stores into the running sum of the products tile it, so its pieces cover it. -/
theorem scoverS_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runLast c i arg2 harg2 arg3 harg3 arg4 harg4 arg5 harg5 arg6 harg6 arg7 harg7 arg8 harg8 hc0 hc1 x0 x1 x2 x3 xs xq).2.1, y ∈ pc.1.set :=
  View.cover_of_tiledL (runLast c i arg2 harg2 arg3 harg3 arg4 harg4 arg5 harg5 arg6 harg6 arg7 harg7 arg8 harg8 hc0 hc1 x0 x1 x2 x3 xs xq).2.1 S512x512.size (by sl_kernel_rfl) y

/-- What a last step leaves in the running sum of the products: its pieces read back. -/
def soutS_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VS.read (Elt F) (VS.writes (Elt F) VS.junk (runLast c i arg2 harg2 arg3 harg3 arg4 harg4 arg5 harg5 arg6 harg6 arg7 harg7 arg8 harg8 hc0 hc1 x0 x1 x2 x3 xs xq).2.1)

/-- At a last step the stores into the running sum of the products of the squares tile it, so its pieces cover it. -/
theorem scoverQ_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runLast c i arg2 harg2 arg3 harg3 arg4 harg4 arg5 harg5 arg6 harg6 arg7 harg7 arg8 harg8 hc0 hc1 x0 x1 x2 x3 xs xq).2.2.1, y ∈ pc.1.set :=
  View.cover_of_tiledL (runLast c i arg2 harg2 arg3 harg3 arg4 harg4 arg5 harg5 arg6 harg6 arg7 harg7 arg8 harg8 hc0 hc1 x0 x1 x2 x3 xs xq).2.2.1 S512x512.size (by sl_kernel_rfl) y

/-- What a last step leaves in the running sum of the products of the squares: its pieces read back. -/
def soutQ_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VQ.read (Elt F) (VQ.writes (Elt F) VQ.junk (runLast c i arg2 harg2 arg3 harg3 arg4 harg4 arg5 harg5 arg6 harg6 arg7 harg7 arg8 harg8 hc0 hc1 x0 x1 x2 x3 xs xq).2.2.1)

/-! ## What the buffers hold after each point -/

/-- THE ACCUMULATION. What the output's staging buffer and the two running sums hold after the body at position `n`
    (the output first, then the sum of the products, then the sum of the products of the squares): the case the closed
    forms select at `n`, run at the point's memrefs and input blocks, the running sums at what this leaves at `n - 1`.
    A step cannot be first and last at once. -/
def outsAt (c : Dev nD) : (n : ℕ) → n < cfg0.N → Vec F S512x512 .f32 × Vec F S512x512 .f32 × Vec F S512x512 .f32
  | 0, hn => (out4_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scS (Memref.isWhole_whole _) scQ (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩) (iblk V c 3 ⟨0, hn⟩), soutS_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scS (Memref.isWhole_whole _) scQ (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩) (iblk V c 3 ⟨0, hn⟩), soutQ_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scS (Memref.isWhole_whole _) scQ (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 16 = 0 then
      if h1 : (n + 1) % 16 = 15 then
        False.elim (by omega)
      else
        (out4_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩), soutS_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩), soutQ_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 16 = 15 then
        (out4_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutS_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutQ_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)
      else
        (out4_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutS_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutQ_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)

/-- `outsAt` at a first step: that case's contents. -/
theorem outsAt_First (c : Dev nD) (t : Fin cfg0.N) (h0 : t.val % 16 = 0) (h1 : ¬t.val % 16 = 15) :
    outsAt V c t.val t.isLt = (out4_First c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t), soutS_First c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t), soutQ_First c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt` at a middle step: that case's contents, over what the point before left. -/
theorem outsAt_Mid (c : Dev nD) (t : Fin cfg0.N) (h0 : ¬t.val % 16 = 0) (h1 : ¬t.val % 16 = 15) :
    outsAt V c t.val t.isLt = (out4_Mid c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutS_Mid c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutQ_Mid c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last step: that case's contents, over what the point before left. -/
theorem outsAt_Last (c : Dev nD) (t : Fin cfg0.N) (h0 : ¬t.val % 16 = 0) (h1 : t.val % 16 = 15) :
    outsAt V c t.val t.isLt = (out4_Last c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutS_Last c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutQ_Last c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the running sums carried between points -/

/-- The region invariant before position `n`: before the first point what the launch hands over (every scoped buffer
    at anything); afterwards the two running sums at what the point before left in them, the other region's scoped
    buffers at anything, and the generator register at some state. -/
def PhiS (c : Dev nD) : (n : ℕ) → n ≤ cfg0.N → sProp 𝕄
  | 0, _ => Pipeline.ΦA spec0 c
  | n + 1, hn => iprop(iprop(owns (c : Thread nD τ) scS fullShare ((outsAt V c n hn).2.1) ∗ owns (c : Thread nD τ) scQ fullShare ((outsAt V c n hn).2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the running sums at that point's contents. -/
theorem PhiS_succ (c : Dev nD) (n : ℕ) (hn : n < cfg0.N) :
    PhiS V c (n + 1) hn = iprop(iprop(owns (c : Thread nD τ) scS fullShare ((outsAt V c n hn).2.1) ∗ owns (c : Thread nD τ) scQ fullShare ((outsAt V c n hn).2.2) ∗ otherScoped (F := F) c) ∗ (∃ r, prngReg c r)) := rfl

/-- Before a point that is not the first: the running sums at what the point before left. -/
theorem PhiS_pos (c : Dev nD) (n : ℕ) (h : n ≤ cfg0.N) (hz : n ≠ 0) :
    PhiS V c n h = iprop(iprop(owns (c : Thread nD τ) scS fullShare ((outsAt V c (n - 1) (by omega)).2.1) ∗ owns (c : Thread nD τ) scQ fullShare ((outsAt V c (n - 1) (by omega)).2.2) ∗ otherScoped (F := F) c) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation, at a generic point -/

/-- What the body is called with at point `t`: the invariant, nothing owed, and each window's current staging buffer
    at what the pipeline left in it, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the closed forms say which case the point is in; the
    invariant hands the body the two running sums at what the point before left (at anything at the very first point)
    and takes them back at this point's contents, each covered by the case's stores; at a first or middle step the
    output's buffer is handed back as found, at a last step it is covered by the one store. Nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4_first t ((atFirst_iff t).mpr h0) (fun h => h1 ((atLast_iff t).mp h))) (noFlush4_first t ((atFirst_iff t).mpr h0) (fun h => h1 ((atLast_iff t).mp h)))]
      rw [outsAt_First V c t h0 h1]
      unfold soutS_First soutQ_First; (try dsimp only)
      by_cases hz : t.val = 0
      · rw [PhiS_castSucc V c t, PhiS_zero V c _ _ hz, PhiA_eq]
        iintro ⟨⟨⟨HS, HQ, HR⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ ((atFirst_iff t).mpr h0) (fun h => h1 ((atLast_iff t).mp h)) (iblk V c 0 t) (iblk V c 1 t) (iblk V c 2 t) (iblk V c 3 t)).2.2.2 _ Set.univ _)
        isplitl [H0]; · iexact H0
        isplitl [H1]; · iexact H1
        isplitl [H2]; · iexact H2
        isplitl [H3]; · iexact H3
        isplitl [H4]; · iexact H4
        isplitl [HS]; · iexact HS
        isplitl [HQ]; · iexact HQ
        iintro ⟨H0, H1, H2, H3, H4, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_First c _ _ _ _ _ _ _ _ _ _ _ _ _ _ _ _ _ _ _ _ _)
            isplitl [HQ]
            · unfold owns; iexists _; isplitr
              swap; · iexact HQ
              ipureintro; exact View.read_writes_of_cover _ _ _ _ _ (scoverQ_First c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS, HQ, HR⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ ((atFirst_iff t).mpr h0) (fun h => h1 ((atLast_iff t).mp h)) (iblk V c 0 t) (iblk V c 1 t) (iblk V c 2 t) (iblk V c 3 t)).2.2.2 _ Set.univ _)
        isplitl [H0]; · iexact H0
        isplitl [H1]; · iexact H1
        isplitl [H2]; · iexact H2
        isplitl [H3]; · iexact H3
        isplitl [H4]; · iexact H4
        isplitl [HS]; · iexists _; iexact HS
        isplitl [HQ]; · iexists _; iexact HQ
        iintro ⟨H0, H1, H2, H3, H4, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_First c _ _ _ _ _ _ _ _ _ _ _ _ _ _ _ _ _ _ _ _ _)
            isplitl [HQ]
            · unfold owns; iexists _; isplitr
              swap; · iexact HQ
              ipureintro; exact View.read_writes_of_cover _ _ _ _ _ (scoverQ_First c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4_last t (fun h => h0 ((atFirst_iff t).mp h)) ((atLast_iff t).mpr h1)], after4]
      rw [outsAt_Last V c t h0 h1]
      unfold out4_Last soutS_Last soutQ_Last; (try dsimp only)
      by_cases hz : t.val = 0
      · exfalso; omega
      · rw [PhiS_castSucc V c t, PhiS_pos V c _ _ hz]
        iintro ⟨⟨⟨HS, HQ, HR⟩, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ _ _ (fun h => h0 ((atFirst_iff t).mp h)) ((atLast_iff t).mpr h1) (iblk V c 0 t) (iblk V c 1 t) (iblk V c 2 t) (iblk V c 3 t) _ _).2.2.2 Set.univ _)
        isplitl [H0]; · iexact H0
        isplitl [H1]; · iexact H1
        isplitl [H2]; · iexact H2
        isplitl [H3]; · iexact H3
        isplitl [H4]; · iexists _; iexact H4
        isplitl [HS]; · iexact HS
        isplitl [HQ]; · iexact HQ
        iintro ⟨H0, H1, H2, H3, ⟨%e4, H4⟩, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_Last c _ _ _ _ _ _ _ _ _ _ _ _ _ _ _ _ _ _ _ _ _ _ _)
            isplitl [HQ]
            · unfold owns; iexists _; isplitr
              swap; · iexact HQ
              ipureintro; exact View.read_writes_of_cover _ _ _ _ _ (scoverQ_Last c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_Last c _ _ _ _ _ _ _ _ _ _ _ _ _ _ _ _ _ _ _ _ _ _ _)
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4_mid t (fun h => h0 ((atFirst_iff t).mp h)) (fun h => h1 ((atLast_iff t).mp h))) (noFlush4_mid t (fun h => h0 ((atFirst_iff t).mp h)) (fun h => h1 ((atLast_iff t).mp h)))]
      rw [outsAt_Mid V c t h0 h1]
      unfold soutS_Mid soutQ_Mid; (try dsimp only)
      by_cases hz : t.val = 0
      · exfalso; omega
      · rw [PhiS_castSucc V c t, PhiS_pos V c _ _ hz]
        iintro ⟨⟨⟨HS, HQ, HR⟩, Hg⟩, Ho, ⟨%d0, H0⟩, ⟨%d1, H1⟩, ⟨%d2, H2⟩, ⟨%d3, H3⟩, ⟨%d4, H4⟩⟩
        iapply ((runMid c (grid0.coords t) _ _ _ _ _ _ _ _ _ _ _ _ _ _ (fun h => h0 ((atFirst_iff t).mp h)) (fun h => h1 ((atLast_iff t).mp h)) (iblk V c 0 t) (iblk V c 1 t) (iblk V c 2 t) (iblk V c 3 t) _ _).2.2.2 _ Set.univ _)
        isplitl [H0]; · iexact H0
        isplitl [H1]; · iexact H1
        isplitl [H2]; · iexact H2
        isplitl [H3]; · iexact H3
        isplitl [H4]; · iexact H4
        isplitl [HS]; · iexact HS
        isplitl [HQ]; · iexact HQ
        iintro ⟨H0, H1, H2, H3, H4, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_Mid c _ _ _ _ _ _ _ _ _ _ _ _ _ _ _ _ _ _ _ _ _ _ _)
            isplitl [HQ]
            · unfold owns; iexists _; isplitr
              swap; · iexact HQ
              ipureintro; exact View.read_writes_of_cover _ _ _ _ _ (scoverQ_Mid c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives it back: the running sums' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HQ, HR⟩, Hg⟩
  isplitl [HS HQ HR]
  · isplitl [HS]; · iexists _; iexact HS
    isplitl [HQ]; · iexists _; iexact HQ
    iexact HR
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.Kernel.R0

end
-- ==== Proof.K.R1Runs.lean ====
/-
  The second pallas_call (grid 4 × 4 × 8: row block i, column block j, contraction block k; point t has
  i = t / 32, j = (t / 8) % 4, k = t % 8), what its three control cases share.

  The body keeps a running sum in a scratch buffer it carries from point to point: at k = 0 it stores zeros into
  the scratch; at every point it adds the product of the point's blocks of sae and linear_w to it; at k = 7 it
  stores the output block, the finished sum plus the bias, the second product and the second bias.  Everything
  here is stated over V, the TensorCore's buffer contents when the call is entered.
-/
import proofs.«181743_j4071628997276_2_alg».proof.Proof.Gen.Kernel.Launch
import proofs.«181743_j4071628997276_2_alg».proof.Proof.Gen.Kernel.Skeleton
import proofs.«181743_j4071628997276_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the block of sae at every point, fetched there or not (unfetched, the block
    index has not moved), for any proof data whose array is `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the block of linear_w at every point, fetched there or not (unfetched, the block
    index has not moved), for any proof data whose array is `V`'s and whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the block of linear_b at every point, fetched there or not (unfetched, the block
    index has not moved), for any proof data whose array is `V`'s and whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the block of h at every point, fetched there or not (unfetched, the block
    index has not moved), for any proof data whose array is `V`'s and whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the block of mlp2_w at every point, fetched there or not (unfetched, the block
    index has not moved), for any proof data whose array is `V`'s and whose body leaves the block in place. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the block of mlp2_b at every point, fetched there or not (unfetched, the block
    index has not moved), for any proof data whose array is `V`'s and whose body leaves the block in place. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- The point is the first of its run of eight: k = 0 (the condition of the branch that zeroes the scratch, as the
    body computes it from the third grid coordinate). -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The point is the last of its run of eight: k = 7 (the condition of the branch that stores the output). -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle -/
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl
theorem liveAt4 : ∀ t : Fin cfg1.N, cfg1.idle 4 (grid1.coords t) = false := fun _ => rfl
theorem liveAt5 : ∀ t : Fin cfg1.N, cfg1.idle 5 (grid1.coords t) = false := fun _ => rfl
/-- Before the last point of a run the body stores nothing into the output's buffer: the window is idle there, -/
theorem idleAt6 : ∀ t : Fin cfg1.N, ¬condLast (grid1.coords t) → cfg1.idle 6 (grid1.coords t) = true := by decide +kernel
/-- and the block is not written back there. -/
theorem noFlush6 : ∀ t : Fin cfg1.N, ¬condLast (grid1.coords t) → (cfg1.win 6).flush t = false := by decide +kernel
/-- At the last point of a run the output is live. -/
theorem liveAt6 : ∀ t : Fin cfg1.N, condLast (grid1.coords t) → cfg1.idle 6 (grid1.coords t) = false := by decide +kernel

/-! ## The memrefs the body is called with -/

/-- One staging buffer of the output window, through which its contents are stated (the choice does not matter). -/
abbrev VO6 : View sig .tc .vmem S256x1024 .f32 := (Memref.whole cc1_stg6_0 : Memref sig .tc .vmem S256x1024 .f32).view
abbrev ms0 (t : Fin cfg1.N) : Memref sig .tc .vmem S256x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x512 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S256x1024 .f32 := win1_6.stage (cfg1.slots t 6)
abbrev hs6 (t : Fin cfg1.N) : (ms6 t).IsWhole := hstage1_6 ((cfg1.slots t 6).cast nbuf1_6)
/-- The scratch holding the running sum: a whole scoped buffer of the call's own, passed beside the windows. -/
abbrev scM : Memref sig .tc .vmem S256x1024 .f32 := Memref.whole cc1_scratch0
/-- The same as a view: what the scratch holds is stated through it. -/
abbrev VS : View sig .tc .vmem S256x1024 .f32 := scM.view

/-- Every other scoped buffer of the core that is no staging buffer of this call (the first call's staging buffers
    and scratch), at some contents each: carried through every point unopened. -/
abbrev others (c : Dev nD) : sProp 𝕄 :=
  Pipeline.scopedRestBut (Ix := Unit) (Name := ℕ) (U := UR sig nD τ) (Lvl := ℕ) (Val := Elt F) spec1 c [cc1_scratch0]

/-- What the launch hands the call: the scratch at some contents, the other scoped buffers, the generator
    register at some state. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA
  rw [Pipeline.scopedRest_split_of_list spec1 c [cc1_scratch0] (by decide) (by decide)]
  simp only [scM, owns_whole, bigSepL_singleton]; try rfl

end Cert.Kernel.R1

end
-- ==== Proof.K.R1RunA.lean ====
/-
  The body at the FIRST point of a run of eight (k = 0): it stores zeros into the scratch, reads them back, adds the
  product of the point's blocks of sae and linear_w, and stores the sum into the scratch; it stores nothing into the
  output.  The pieces the scratch ends with are found by running the body.
-/
import proofs.«181743_j4071628997276_2_alg».proof.Proof.K.R1Runs

-- membership in a rectangle of these extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two operand blocks at their contents, the scratch at anything — the body runs to the
    continuation holding the operand blocks as they were and the scratch with its pieces `LS` written. The other
    windows' buffers are not touched and stay with the caller. -/
noncomputable def runFirst (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : condFirst i) (hc1 : ¬condLast i)
    (x0 : Vec F S256x2048 .f32) (x1 : Vec F S1024x2048 .f32) :
    { LS : List (View.Piece (Elt F) S256x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg10 fullShare d)
            ∗ (iprop(owns (c : Thread nD τ) arg3 fullShare x0 ∗ owns (c : Thread nD τ) arg4 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc1__linear_kernel i arg3 harg3 arg4 harg4 arg5 harg5 arg6 harg6 arg7 harg7 arg8 harg8 arg9 harg9 arg10 harg10) K } := by
  refine ⟨?_, fun E K => ?run⟩
  case run =>
    simp only [cc1__linear_kernel_eq_skeleton]; unfold cc1__linear_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.R1

end
-- ==== Proof.K.R1RunB.lean ====
/-
  The body at a MIDDLE point of a run of eight (0 < k < 7): it adds the product of the point's blocks of sae and
  linear_w to the scratch, which holds what the point before left; it stores nothing into the output.
-/
import proofs.«181743_j4071628997276_2_alg».proof.Proof.K.R1Runs

-- membership in a rectangle of these extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two operand blocks at their contents, the scratch at the contents `xs` the point before
    left — the body runs to the continuation holding the operand blocks as they were and the scratch with its pieces
    `LS` written. -/
noncomputable def runMid (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : ¬condLast i)
    (x0 : Vec F S256x2048 .f32) (x1 : Vec F S1024x2048 .f32) (xs : Vec F S256x1024 .f32) :
    { LS : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg10 fullShare xs
            ∗ (iprop(owns (c : Thread nD τ) arg3 fullShare x0 ∗ owns (c : Thread nD τ) arg4 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc1__linear_kernel i arg3 harg3 arg4 harg4 arg5 harg5 arg6 harg6 arg7 harg7 arg8 harg8 arg9 harg9 arg10 harg10) K } := by
  refine ⟨?_, fun E K => ?run⟩
  case run =>
    simp only [cc1__linear_kernel_eq_skeleton]; unfold cc1__linear_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.Kernel.R1

end
-- ==== Proof.K.R1RunC.lean ====
/-
  The body at the LAST point of a run of eight (k = 7): it adds the product of the point's blocks of sae and linear_w to
  the scratch, then stores the output block whole: the finished sum plus linear_b, plus the product of the blocks of h
  and mlp2_w, plus mlp2_b.
-/
import proofs.«181743_j4071628997276_2_alg».proof.Proof.K.R1Runs

-- membership in a rectangle of these extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six input blocks at their contents, the output's buffer at anything, the scratch at the
    contents `xs` the point before left — the body runs to the continuation holding the input blocks as they were, the
    output's buffer with its pieces `L6` written and the scratch with its pieces `LS` written. -/
noncomputable def runLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) :
    Σ' (L6 : List (View.Piece (Elt F) S256x1024 .f32)), { LS : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc1__linear_kernel i arg3 harg3 arg4 harg4 arg5 harg5 arg6 harg6 arg7 harg7 arg8 harg8 arg9 harg9 arg10 harg10) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.Kernel.R1

end
-- ==== Proof.K.R1Body.lean ====
/-
  The second pallas_call's body obligation.  What each control case leaves in the scratch (and, at the last point of a
  run of eight, in the output's buffer) is read back from the pieces its run found; what the scratch and the output
  hold after each point follows by recursion on the point; the invariant between points says that the scratch holds
  what the point before left; and the body at any point is the run of the case its position in the run of eight
  selects.
-/
import proofs.«181743_j4071628997276_2_alg».proof.Proof.K.R1RunA
import proofs.«181743_j4071628997276_2_alg».proof.Proof.K.R1RunB
import proofs.«181743_j4071628997276_2_alg».proof.Proof.K.R1RunC

-- membership in a rectangle of these extents recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first point's pieces for the scratch tile it, so they cover it. -/
theorem scoverFirst (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : condFirst i) (hc1 : ¬condLast i)
    (x0 : Vec F S256x2048 .f32) (x1 : Vec F S1024x2048 .f32) (y : S256x1024.Idx) :
    ∃ pc ∈ (runFirst c i arg3 harg3 arg4 harg4 arg5 harg5 arg6 harg6 arg7 harg7 arg8 harg8 arg9 harg9 arg10 harg10 hc0 hc1 x0 x1).1, y ∈ pc.1.set :=
  View.cover_of_tiledL (runFirst c i arg3 harg3 arg4 harg4 arg5 harg5 arg6 harg6 arg7 harg7 arg8 harg8 arg9 harg9 arg10 harg10 hc0 hc1 x0 x1).1 S256x1024.size (by sl_kernel_rfl) y

/-- What the first point of a run leaves in the scratch: its pieces read back. -/
def soutFirst (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : condFirst i) (hc1 : ¬condLast i)
    (x0 : Vec F S256x2048 .f32) (x1 : Vec F S1024x2048 .f32) : Vec F S256x1024 .f32 :=
  VS.read (Elt F) (VS.writes (Elt F) VS.junk (runFirst c i arg3 harg3 arg4 harg4 arg5 harg5 arg6 harg6 arg7 harg7 arg8 harg8 arg9 harg9 arg10 harg10 hc0 hc1 x0 x1).1)

/-- A middle point's pieces for the scratch tile it, so they cover it. -/
theorem scoverMid (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : ¬condLast i)
    (x0 : Vec F S256x2048 .f32) (x1 : Vec F S1024x2048 .f32) (xs : Vec F S256x1024 .f32) (y : S256x1024.Idx) :
    ∃ pc ∈ (runMid c i arg3 harg3 arg4 harg4 arg5 harg5 arg6 harg6 arg7 harg7 arg8 harg8 arg9 harg9 arg10 harg10 hc0 hc1 x0 x1 xs).1, y ∈ pc.1.set :=
  View.cover_of_tiledL (runMid c i arg3 harg3 arg4 harg4 arg5 harg5 arg6 harg6 arg7 harg7 arg8 harg8 arg9 harg9 arg10 harg10 hc0 hc1 x0 x1 xs).1 S256x1024.size (by sl_kernel_rfl) y

/-- What a middle point of a run leaves in the scratch, over what the point before left. -/
def soutMid (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : ¬condLast i)
    (x0 : Vec F S256x2048 .f32) (x1 : Vec F S1024x2048 .f32) (xs : Vec F S256x1024 .f32) : Vec F S256x1024 .f32 :=
  VS.read (Elt F) (VS.writes (Elt F) VS.junk (runMid c i arg3 harg3 arg4 harg4 arg5 harg5 arg6 harg6 arg7 harg7 arg8 harg8 arg9 harg9 arg10 harg10 hc0 hc1 x0 x1 xs).1)

/-- The last point's pieces for the output's buffer tile it, so they cover it. -/
theorem coverLast6 (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) (y : S256x1024.Idx) :
    ∃ pc ∈ (runLast c i arg3 harg3 arg4 harg4 arg5 harg5 arg6 harg6 arg7 harg7 arg8 harg8 arg9 harg9 arg10 harg10 hc0 hc1 x0 x1 x2 x3 x4 x5 xs).1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs).1 S256x1024.size (by sl_kernel_rfl) y

/-- What the last point of a run leaves in the output's staging buffer: its pieces read back. -/
def outLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) : Vec F S256x1024 .f32 :=
  VO6.read (Elt F) (VO6.writes (Elt F) VO6.junk (runLast c i arg3 harg3 arg4 harg4 arg5 harg5 arg6 harg6 arg7 harg7 arg8 harg8 arg9 harg9 arg10 harg10 hc0 hc1 x0 x1 x2 x3 x4 x5 xs).1)

/-- The last point's pieces for the scratch tile it, so they cover it. -/
theorem scoverLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) (y : S256x1024.Idx) :
    ∃ pc ∈ (runLast c i arg3 harg3 arg4 harg4 arg5 harg5 arg6 harg6 arg7 harg7 arg8 harg8 arg9 harg9 arg10 harg10 hc0 hc1 x0 x1 x2 x3 x4 x5 xs).2.1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs).2.1 S256x1024.size (by sl_kernel_rfl) y

/-- What the last point of a run leaves in the scratch, over what the point before left. -/
def soutLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) : Vec F S256x1024 .f32 :=
  VS.read (Elt F) (VS.writes (Elt F) VS.junk (runLast c i arg3 harg3 arg4 harg4 arg5 harg5 arg6 harg6 arg7 harg7 arg8 harg8 arg9 harg9 arg10 harg10 hc0 hc1 x0 x1 x2 x3 x4 x5 xs).2.1)

/-- A placeholder for the output's buffer at the points that store nothing into it: nothing consults it, since there
    the window is neither written back nor read at the next point. -/
def idleOut : Vec F S256x1024 .f32 := VO6.read (Elt F) VO6.junk

/-! ## What the output's buffer and the scratch hold after each point -/

/-- One point: the case its place in the run of eight selects, run at the point's memrefs and input blocks, the scratch
    at `prev`, what the point before left (not read at the first point of a run, which zeroes it). The pair is the
    output's buffer, then the scratch. The two conditions cannot hold together; that branch is never met. -/
def step (c : Dev nD) (t : Fin cfg1.N) (prev : Vec F S256x1024 .f32) : Vec F S256x1024 .f32 × Vec F S256x1024 .f32 :=
  if h0 : t.val % 8 = 0 then
    if h1 : t.val % 8 = 7 then (idleOut, prev)
    else (idleOut, soutFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk V c 0 t) (iblk V c 1 t))
  else
    if h1 : t.val % 8 = 7 then
      (outLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) prev,
        soutLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) prev)
    else (idleOut, soutMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk V c 0 t) (iblk V c 1 t) prev)

/-- THE ACCUMULATION: after the body at position `n`, by recursion on the position. -/
def outsAt (c : Dev nD) : (n : ℕ) → n < cfg1.N → Vec F S256x1024 .f32 × Vec F S256x1024 .f32
  | 0, hn => step V c ⟨0, hn⟩ idleOut
  | n + 1, hn => step V c ⟨n + 1, hn⟩ (outsAt c n (Nat.lt_of_succ_lt hn)).2

theorem outsAt_zero (c : Dev nD) (t : Fin cfg1.N) (hz : t.val = 0) : outsAt V c t.val t.isLt = step V c t idleOut := by
  obtain ⟨n, hn⟩ := t
  cases n with
  | zero => rfl
  | succ n => exact absurd hz (Nat.succ_ne_zero n)

theorem outsAt_pos (c : Dev nD) (t : Fin cfg1.N) (hz : t.val ≠ 0) :
    outsAt V c t.val t.isLt = step V c t (outsAt V c (t.val - 1) (Nat.lt_of_le_of_lt (Nat.sub_le _ _) t.isLt)).2 := by
  obtain ⟨n, hn⟩ := t
  cases n with
  | zero => exact absurd rfl hz
  | succ n => rfl

/-- At the first point of a run: that case's contents, whatever the point before left. -/
theorem outsAt_first (c : Dev nD) (t : Fin cfg1.N) (h0 : t.val % 8 = 0) (h1 : ¬t.val % 8 = 7) :
    outsAt V c t.val t.isLt = (idleOut, soutFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk V c 0 t) (iblk V c 1 t)) := by
  by_cases hz : t.val = 0
  · rw [outsAt_zero V c t hz]; exact (dif_pos h0).trans (dif_neg h1)
  · rw [outsAt_pos V c t hz]; exact (dif_pos h0).trans (dif_neg h1)

/-- At a middle point of a run: that case's contents, over what the point before left. -/
theorem outsAt_mid (c : Dev nD) (t : Fin cfg1.N) (h0 : ¬t.val % 8 = 0) (h1 : ¬t.val % 8 = 7) :
    outsAt V c t.val t.isLt = (idleOut, soutMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2) := by
  have hz : t.val ≠ 0 := fun e => h0 (by rw [e])
  rw [outsAt_pos V c t hz]; exact (dif_neg h0).trans (dif_neg h1)

/-- At the last point of a run: that case's contents, over what the point before left. -/
theorem outsAt_last (c : Dev nD) (t : Fin cfg1.N) (h0 : ¬t.val % 8 = 0) (h1 : t.val % 8 = 7) :
    outsAt V c t.val t.isLt = (outLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2,
      soutLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2) := by
  have hz : t.val ≠ 0 := fun e => h0 (by rw [e])
  rw [outsAt_pos V c t hz]; exact (dif_neg h0).trans (dif_pos h1)

/-! ## The invariant between points -/

/-- Before the first point what the launch hands the call; afterwards the scratch at what the point before left, the
    other scoped buffers unopened, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

/-- The proof data of the call on core `c`: the arrays as the call finds them; after the body at point `t` each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = (outsAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-- Input window 0 is live at every point: the body hands its buffer back at its block. -/
theorem leaves0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t], after0]

/-- Input window 1 is live at every point: the body hands its buffer back at its block. -/
theorem leaves1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t], after1]

/-- Input window 2 is live at every point: the body hands its buffer back at its block. -/
theorem leaves2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t], after2]

/-- Input window 3 is live at every point: the body hands its buffer back at its block. -/
theorem leaves3 (c : Dev nD) (t : Fin cfg1.N) :
    (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [liveAt3 t], after3]

/-- Input window 4 is live at every point: the body hands its buffer back at its block. -/
theorem leaves4 (c : Dev nD) (t : Fin cfg1.N) :
    (dat V c).leavesExact 4 t = owns (c : Thread nD τ) (ms4 t) fullShare (iblk V c 4 t) := by
  rw [show (dat V c).leavesExact 4 t = owns (c : Thread nD τ) (ms4 t) fullShare ((dat V c).after 4 t) from by
    unfold Dat.leavesExact; rw [liveAt4 t], after4]

/-- Input window 5 is live at every point: the body hands its buffer back at its block. -/
theorem leaves5 (c : Dev nD) (t : Fin cfg1.N) :
    (dat V c).leavesExact 5 t = owns (c : Thread nD τ) (ms5 t) fullShare (iblk V c 5 t) := by
  rw [show (dat V c).leavesExact 5 t = owns (c : Thread nD τ) (ms5 t) fullShare ((dat V c).after 5 t) from by
    unfold Dat.leavesExact; rw [liveAt5 t], after5]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point. The inputs' memrefs hold their blocks; the point's place in its run of eight says which case
    it is in; the invariant hands the body the scratch at what the point before left (at anything before the first
    point of all) and takes it back at this point's contents, the pieces covering it; before the last point of a run
    the output's buffer goes back as it came, at the last point it comes back with its pieces written, which cover
    it; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0 V c, before1 V c, before2 V c, before3 V c, before4 V c, before5 V c]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 128 := lt_of_lt_of_eq t.isLt (show cfg1.N = 128 from N_1)
  by_cases h0 : t.val % 8 = 0
  · by_cases h1 : t.val % 8 = 7
    · exfalso; omega
    · rw [Dat.leavesExact_idle (dat V c) 6 t (idleAt6 t (fun h => h1 ((hcondLast t).mp h))) (noFlush6 t (fun h => h1 ((hcondLast t).mp h)))]
      rw [outsAt_first V c t h0 h1]
      unfold soutFirst; (try dsimp only)
      by_cases hz : t.val = 0
      · rw [PhiS_castSucc V c t, PhiS_zero V c _ _ hz, PhiA_eq]
        iintro ⟨⟨⟨HS, Hr⟩, Hg⟩, Ho, ⟨%d0, H0⟩, ⟨%d1, H1⟩, ⟨%d2, H2⟩, ⟨%d3, H3⟩, ⟨%d4, H4⟩, ⟨%d5, H5⟩, H6⟩
        iapply ((runFirst c (grid1.coords t) _ _ _ _ _ _ _ _ _ _ _ _ _ _ _ _ ((hcondFirst t).mpr h0) (fun h => h1 ((hcondLast t).mp h)) (iblk V c 0 t) (iblk V c 1 t)).2 Set.univ _)
        isplitl [H0]; · iexact H0
        isplitl [H1]; · iexact H1
        isplitl [HS]; · iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scoverFirst c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · rw [PhiS_castSucc V c t, PhiS_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩, H6⟩
        iapply ((runFirst c (grid1.coords t) _ _ _ _ _ _ _ _ _ _ _ _ _ _ _ _ ((hcondFirst t).mpr h0) (fun h => h1 ((hcondLast t).mp h)) (iblk V c 0 t) (iblk V c 1 t)).2 Set.univ _)
        isplitl [H0]; · iexact H0
        isplitl [H1]; · iexact H1
        isplitl [HS]; · iexists _; iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scoverFirst c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · have hz : t.val ≠ 0 := fun e => h0 (by rw [e])
    by_cases h1 : t.val % 8 = 7
    · rw [show (dat V c).leavesExact 6 t = owns (c : Thread nD τ) (ms6 t) fullShare ((dat V c).after 6 t) from by
        unfold Dat.leavesExact; rw [liveAt6 t ((hcondLast t).mpr h1)], after6]
      rw [outsAt_last V c t h0 h1]
      unfold outLast soutLast; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((hcondFirst t).mp h)) ((hcondLast t).mpr h1) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hr Hg]
      · isplitl [HS Hr]
        · isplitl [HS]
          · unfold owns; iexists _; isplitr
            swap; · iexact HS
            ipureintro; exact View.read_writes_of_cover _ _ _ _ _ (scoverLast c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast6 c _ _ _ _ _ _ _ _ _ _ _ _ _ _ _ _ _ _ _ _ _ _ _ _ _ _)
    · rw [Dat.leavesExact_idle (dat V c) 6 t (idleAt6 t (fun h => h1 ((hcondLast t).mp h))) (noFlush6 t (fun h => h1 ((hcondLast t).mp h)))]
      rw [outsAt_mid V c t h0 h1]
      unfold soutMid; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, H6⟩
      iapply ((runMid c (grid1.coords t) _ _ _ _ _ _ _ _ _ _ _ _ _ _ _ _ (fun h => h0 ((hcondFirst t).mp h)) (fun h => h1 ((hcondLast t).mp h)) (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverMid c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- What the launch hands the call is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives it back: the scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.Kernel.R1

end
-- ==== Proof.K.Halves.lean ====
/-
  The two kernel regions' records, from their pipelines' proof data: the arrays are the entry contents, every share is
  full, the body signals no one (nothing owed, no recorded pair constrained), the body obligation holds at every grid
  point, and the invariant — the class's scoped rest before the first point, the carried accumulators at their running
  sums afterwards — is entered from and gives back the scoped rest.
-/
import proofs.«181743_j4071628997276_2_alg».proof.Proof.K.Whole
import proofs.«181743_j4071628997276_2_alg».proof.Proof.K.R0Body
import proofs.«181743_j4071628997276_2_alg».proof.Proof.K.R1Body

noncomputable section

namespace Cert.Kernel.Whole

open Cert.Kernel Cert.Kernel.Gen Idealize.ShloMosaic Idealize.SL.Sem

variable {F : FTy → Type} [FloatOps F]

/-- The first region (the interaction and the first layer). -/
def half0 : Half0 F where
  dat := Cert.Kernel.R0.dat
  arrays := Cert.Kernel.R0.A_eq
  shares := fun _ _ _ => rfl
  owes_nothing := fun _ _ _ => rfl
  records_all := fun _ _ _ => rfl
  body := Cert.Kernel.R0.body_obligation
  enter := Cert.Kernel.R0.hin
  leave := Cert.Kernel.R0.hout

/-- The second region (the linear branch, the second layer, the biases). -/
def half1 : Half1 F where
  dat := Cert.Kernel.R1.dat
  arrays := Cert.Kernel.R1.A_eq
  shares := fun _ _ _ => rfl
  owes_nothing := fun _ _ _ => rfl
  records_all := fun _ _ _ => rfl
  body := Cert.Kernel.R1.body_obligation
  enter := Cert.Kernel.R1.hin
  leave := Cert.Kernel.R1.hout

end Cert.Kernel.Whole

end
-- ==== Proof.KI.Whole.lean ====
/-
  The run of the whole program from its two kernel regions.

  @main is: two host conversions (the two small weight matrices rounded to bf16), then the first kernel region (the
  factorization-machine interaction and the first layer, result `main_v2`), then the second (the linear branch, the
  second layer and the biases, result `main_v3`).  Each region is described by a record of five facts about its
  pipeline, stated at the buffer contents `V` the region is entered from: the proof data (what every staging buffer
  holds after the body at every grid point, and the invariant carrying the accumulators between points), that its
  arrays are `V`'s, the body obligation, and how the scoped rest becomes the invariant before the first point and is
  given back after the last.  From two such records this module builds the two region segments, chains them behind the
  host stretch, and proves: every weakly fair execution of @main terminates, nothing faulting, with EVERY unscoped
  buffer at a named valuation `Wend` — the launch contents, then the host stretch, then each region's arrays at what its
  write-backs leave.  The arguments read back through that valuation to the launch memory, and the result buffer
  `main_v3` to the second region's final output array, the first region's final output array being what the second
  finds in `main_v2`.
-/
import proofs.«181743_j4071628997276_2_alg».proof.Proof.Gen.KernelIdeal.Launch
import proofs.«181743_j4071628997276_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents a region is entered from, per core, read at the TensorCore's references. -/
abbrev Entry (F : FTy → Type) [FloatOps F] : Type :=
  (c : Dev nD) → (b : Ref sig .tc) → Buf (Elt F) ((c : Thread nD τ).loc b)

/-- What the run needs to know of the first region, at any entry contents. -/
structure Half0 (F : FTy → Type) [FloatOps F] where
  dat : Entry F → (c : Dev nD) → Dat τ (Elt F) Unit ℕ (UR sig nD τ) ℕ cfg0 c
  arrays : ∀ V c (w : Fin cfg0.W), (dat V c).A w = V c (Pipeline.arrRef spec0 w)
  shares : ∀ V c (w : Fin cfg0.W), (dat V c).q w = fullShare
  owes_nothing : ∀ V c t, (dat V c).owed t = 0
  records_all : ∀ V c t, (dat V c).recorded t = Set.univ
  body : ∀ V c, BodyObligation (dat V c) (defs₀ (F := F)) Variants.none () Set.univ
  enter : ∀ V c, Pipeline.ΦA spec0 c ⊢ (dat V c).Φ 0
  leave : ∀ V c, (dat V c).Φ (Fin.last cfg0.N) ⊢ Pipeline.ΦA spec0 c

/-- The same of the second region. -/
structure Half1 (F : FTy → Type) [FloatOps F] where
  dat : Entry F → (c : Dev nD) → Dat τ (Elt F) Unit ℕ (UR sig nD τ) ℕ cfg1 c
  arrays : ∀ V c (w : Fin cfg1.W), (dat V c).A w = V c (Pipeline.arrRef spec1 w)
  shares : ∀ V c (w : Fin cfg1.W), (dat V c).q w = fullShare
  owes_nothing : ∀ V c t, (dat V c).owed t = 0
  records_all : ∀ V c t, (dat V c).recorded t = Set.univ
  body : ∀ V c, BodyObligation (dat V c) (defs₀ (F := F)) Variants.none () Set.univ
  enter : ∀ V c, Pipeline.ΦA spec1 c ⊢ (dat V c).Φ 0
  leave : ∀ V c, (dat V c).Φ (Fin.last cfg1.N) ⊢ Pipeline.ΦA spec1 c

variable (m : (ℓ : Loc nD τ sig) → Buf (Elt F) ℓ) (ρ : Dev nD → PrngReg) (h0 : Half0 F) (h1 : Half1 F)

/-! ## The buffer contents at each boundary -/

/-- At launch. -/
abbrev Wlaunch : Dev nD → Valuation τ sig (Elt F) := fun c b => m (c, b)
/-- After the two host conversions: what the first region is entered from. -/
abbrev Whost : Dev nD → Valuation τ sig (Elt F) := fun c => StableHlo.after hostOps0 (Wlaunch m c)
abbrev Vhost : Entry F := fun c b => Whost m c b
/-- After the first region: its arrays at what its write-backs leave, everything else as entered. -/
def Wmid (c : Dev nD) : Valuation τ sig (Elt F) :=
  Pipeline.withArrays spec0 c (Whost m c) fun w => (h0.dat (Vhost m) c).arrAt w cfg0.N
abbrev Vmid : Entry F := fun c b => Wmid m h0 c b
/-- After the second region. -/
def Wend (c : Dev nD) : Valuation τ sig (Elt F) :=
  Pipeline.withArrays spec1 c (Wmid m h0 c) fun w => (h1.dat (Vmid m h0) c).arrAt w cfg1.N
abbrev Vend : Entry F := fun c b => Wend m h0 h1 c b

theorem Wmid_arr (c : Dev nD) (w : Fin cfg0.W) :
    Wmid m h0 c (Proc.devRef .tc (Pipeline.arrRef spec0 w)) = (h0.dat (Vhost m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid m h0 c (Proc.devRef .tc b) = Whost m c (Proc.devRef .tc b) := by
  unfold Wmid; exact Pipeline.withArrays_of_ne spec0 c _ _ b hb
theorem Wend_arr (c : Dev nD) (w : Fin cfg1.W) :
    Wend m h0 h1 c (Proc.devRef .tc (Pipeline.arrRef spec1 w)) = (h1.dat (Vmid m h0) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m h0 h1 c (Proc.devRef .tc b) = Wmid m h0 c (Proc.devRef .tc b) := by
  unfold Wend; exact Pipeline.withArrays_of_ne spec1 c _ _ b hb

theorem mid_arrays (c : Dev nD) (w : Fin cfg0.W) : (h0.dat (Vhost m) c).arrAt w cfg0.N = Vmid m h0 c (Pipeline.arrRef spec0 w) :=
  (Wmid_arr m h0 c w).symm
theorem mid_rest (c : Dev nD) : ∀ b, b ∉ Finset.univ.image (Pipeline.arrRef spec0) → Vmid m h0 c b = Vhost m c b :=
  fun b hb => Wmid_of_ne m h0 c b fun w e => hb (Finset.mem_image.mpr ⟨w, Finset.mem_univ _, e⟩)
theorem end_arrays (c : Dev nD) (w : Fin cfg1.W) : (h1.dat (Vmid m h0) c).arrAt w cfg1.N = Vend m h0 h1 c (Pipeline.arrRef spec1 w) :=
  (Wend_arr m h0 h1 c w).symm
theorem end_rest (c : Dev nD) : ∀ b, b ∉ Finset.univ.image (Pipeline.arrRef spec1) → Vend m h0 h1 c b = Vmid m h0 c b :=
  fun b hb => Wend_of_ne m h0 h1 c b fun w e => hb (Finset.mem_image.mpr ⟨w, Finset.mem_univ _, e⟩)

/-! ## The proof data family and the thread state -/

abbrev adm : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => h0.dat (Vhost m) c
  | ⟨1, _⟩ => fun c => h1.dat (Vmid m h0) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Wlaunch m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (Wend m h0 h1 c) ∗ ∃ r, prngReg c r)

/-! ## The regions as segments -/

set_option backward.isDefEq.respectTransparency.types false in
/-- The first region: entered from every unscoped buffer at `Whost`, left at `Wmid`. -/
def reg0 : Pipeline.RegionSeg (pcfgs (F := F)) adm (pdats m h0 h1) () defs₀ 𝒱₀ L lv 0 where
  win := launch0.win.to₀
  block_pos := launch0.block_pos
  stage_whole := launch0.stage_whole
  K := PEmpty
  osem k := k.elim
  ho := Pipeline.OwnSemFacts.none _
  hbody c := (h0.body (Vhost m) c).loose
  hwaits := Pipeline.hwaits_of_owed_zero _ _ _ _ L lv 0 fun c t => h0.owes_nothing (Vhost m) c t
  pre c := iprop(StableHlo.held (c : Thread nD τ) (Pipeline.ucRefs τ sig) (Whost m c) ∗ R c)
  post c := iprop(StableHlo.held (c : Thread nD τ) (Pipeline.ucRefs τ sig) (Wmid m h0 c) ∗ R c)
  X c := iprop(∃ r, prngReg c r)
  Y c := iprop(∃ r, prngReg c r)
  Z c := Pipeline.unscopedRest (Ix := Unit) (Name := ℕ) (U := UR sig nD τ) (Lvl := ℕ) spec0 c (Vhost m c)
  hentry c := by
    rw [Pipeline.ownSems0_none]
    have hsplit := Pipeline.arrays_of_unscopedBufs (p := 0) (pcfgs (F := F)) adm (pdats m h0 h1) launch0.win launch0.arr_whole c
      ((pdats m h0 h1 0 c).share_full (h0.shares (Vhost m) c)) (Vhost m c) (h0.arrays (Vhost m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hr : (pdats m h0 h1 0 c).recorded 0 = Set.univ := h0.records_all (Vhost m) c 0
      have ho : (pdats m h0 h1 0 c).owed 0 = 0 := h0.owes_nothing (Vhost m) c 0
      unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ (h0.enter (Vhost m) c)
    unfold Pipeline.ΦA
    iintro ⟨Hp, -, Hr⟩
    isplitl [Hr]; · iexact Hr
    iexact Hp
  hout c := by
    rw [Pipeline.ownSems0_none]
    refine BIBase.Entails.trans (h0.leave (Vhost m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m h0 h1) ((pdats m h0 h1 0 c).share_full (h0.shares (Vhost m) c))
      (Vhost m c) (Vmid m h0 c) ((pdats m h0 h1 0 c).arrAt · cfg0.N) (mid_arrays m h0 c) (mid_rest m h0 c)
    rw [Pipeline.unscopedBufs_held] at hjoin
    iintro ⟨Ha, HO, HY, Hrest⟩
    imodintro
    isplitl [Ha Hrest]
    · iapply hjoin; isplitl [Ha] <;> iassumption
    isplitl [HY]; · iexact HY
    have ho : (pdats m h0 h1 0 c).owed (Fin.last (Pipeline.pin (pcfgs (F := F)) adm 0).N) = 0 := h0.owes_nothing (Vhost m) c _
    unfold Pipeline.Dat.owesAt Pipeline.owesWithin
    rw [ho]
    icases HO with ⟨%W, -, HO⟩; iexists W; iexact HO

set_option backward.isDefEq.respectTransparency.types false in
/-- The second region: entered from every unscoped buffer at `Wmid`, left at `Wend`. -/
def reg1 : Pipeline.RegionSeg (pcfgs (F := F)) adm (pdats m h0 h1) () defs₀ 𝒱₀ L lv 1 where
  win := launch1.win.to₀
  block_pos := launch1.block_pos
  stage_whole := launch1.stage_whole
  K := PEmpty
  osem k := k.elim
  ho := Pipeline.OwnSemFacts.none _
  hbody c := (h1.body (Vmid m h0) c).loose
  hwaits := Pipeline.hwaits_of_owed_zero _ _ _ _ L lv 1 fun c t => h1.owes_nothing (Vmid m h0) c t
  pre c := iprop(StableHlo.held (c : Thread nD τ) (Pipeline.ucRefs τ sig) (Wmid m h0 c) ∗ R c)
  post c := iprop(Tend m h0 h1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m h0 c)
  hentry c := by
    rw [Pipeline.ownSems0_none]
    have hsplit := Pipeline.arrays_of_unscopedBufs (p := 1) (pcfgs (F := F)) adm (pdats m h0 h1) launch1.win launch1.arr_whole c
      ((pdats m h0 h1 1 c).share_full (h1.shares (Vmid m h0) c)) (Vmid m h0 c) (h1.arrays (Vmid m h0) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · have hr : (pdats m h0 h1 1 c).recorded 0 = Set.univ := h1.records_all (Vmid m h0) c 0
      have ho : (pdats m h0 h1 1 c).owed 0 = 0 := h1.owes_nothing (Vmid m h0) c 0
      unfold Pipeline.Dat.owesAt Pipeline.owesWithin
      rw [ho]
      icases HO with ⟨%W, HO⟩; iexists W; isplitr; · ipureintro; exact fun _ _ => Or.inl (hr ▸ Set.mem_univ _)
      iexact HO
    isplitl [Hp]; · iexact Hp
    iexact Hrest
  hin c := by
    refine BIBase.Entails.trans ?_ (h1.enter (Vmid m h0) c)
    unfold Pipeline.ΦA
    iintro ⟨Hp, -, Hr⟩
    isplitl [Hr]; · iexact Hr
    iexact Hp
  hout c := by
    rw [Pipeline.ownSems0_none]
    refine BIBase.Entails.trans (h1.leave (Vmid m h0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m h0 h1) ((pdats m h0 h1 1 c).share_full (h1.shares (Vmid m h0) c))
      (Vmid m h0 c) (Vend m h0 h1 c) ((pdats m h0 h1 1 c).arrAt · cfg1.N) (end_arrays m h0 h1 c) (end_rest m h0 h1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    have ho : (pdats m h0 h1 1 c).owed (Fin.last (Pipeline.pin (pcfgs (F := F)) adm 1).N) = 0 := h1.owes_nothing (Vmid m h0) c _
    unfold Pipeline.Dat.owesAt Pipeline.owesWithin
    rw [ho]
    icases HO with ⟨%W, -, HO⟩; iexists W; iexact HO

/-! ## @main as segments, and the run -/

abbrev segs : List (Pipeline.Seg (pcfgs (F := F)) adm (pdats m h0 h1) () defs₀ 𝒱₀ L lv) :=
  [ .host (hostSeg m), .region (reg0 m h0 h1), .region (reg1 m h0 h1) ]

theorem main_run (c : Dev nD) : main (F := F) c = Pipeline.Seg.run (segs m h0 h1) := (main_chain c).trans (by chain_rfl)

set_option backward.isDefEq.respectTransparency.types false in
/-- THE RUN: from any memory with zero counters every weakly fair execution of @main terminates, nothing faulting, and
    the final memory holds every unscoped buffer at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m h0 h1 c b) :=
  Pipeline.θ_run_regions_kit (pcfgs (F := F)) adm (pdats m h0 h1) () cellOf_inj emb₁ defs₀ 𝒱₀ L lv m ρ main (segs m h0 h1)
    (fun c Q => by rw [main_run m h0 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m c) ∗ R c)) (Tₙ := Tend m h0 h1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m c)
        from Pipeline.unscopedBufs_held c (Wlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m h0 h1 c b)
    (hfin := fun c s' => by
      iintro ⟨⟨Hh, -⟩, HSI⟩
      unfold StableHlo.held
      imodintro
      iapply (pointsTo_read_all (Pipeline.ucRefs τ sig) (fun b => (((c : Thread nD τ)).1, b)) (Wend m h0 h1 c) s')
      isplitl [Hh] <;> iassumption)
    (hQ := fun s h c => h c)

end Cert.KernelIdeal.Whole

end
-- ==== Proof.KI.Ends.lean ====
/-
  The final valuation read back.

  `Wend` is the launch memory pushed through the host stretch and the two regions.  No host operation and no region
  writes an argument: a region either reads it through an input window (whose array the write-backs leave as entered) or
  does not touch it; so every argument reads back to the launch memory at every boundary.  The two converted weight
  matrices `main_v0`, `main_v1` hold the host conversion of their arguments from the host stretch on; `main_v2` holds
  the first region's output array from the first region on; `main_v3` ends at the second region's output array.
-/
import proofs.«181743_j4071628997276_2_alg».proof.Proof.KI.Whole
import Idealize.ShloMosaic.Lib.StableHlo.Run

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (h0 : Half0 F) (h1 : Half1 F)

/-! ## After the host stretch -/

theorem Whost_of (c : Dev nD) (r : Ref sig .tc) (h : r ∉ hostOps0_W) : Whost m c (Proc.devRef .tc r) = m ((c : Thread nD τ).loc r) :=
  Gen.V1_of m c r h

/-- The first small weight matrix, converted. -/
theorem Whost_main_v0 (c : Dev nD) :
    Whost m c (Proc.devRef .tc main_v0) = truncf .bf16 (m ((c : Thread nD τ).loc main_arg4)) bitsLt_bf16_f32 := by
  dsimp only [Whost, Wlaunch, hostOps0]; after_results <;> rfl

/-- The second small weight matrix, converted. -/
theorem Whost_main_v1 (c : Dev nD) :
    Whost m c (Proc.devRef .tc main_v1) = truncf .bf16 (m ((c : Thread nD τ).loc main_arg6)) bitsLt_bf16_f32 := by
  dsimp only [Whost, Wlaunch, hostOps0]; after_results <;> rfl

/-! ## After the first region -/

/-- An input window's array is left as entered. -/
theorem Wmid_in (c : Dev nD) (w : Fin cfg0.W) (hw : (cfg0.win w).isOut = false) :
    Wmid m h0 c (Proc.devRef .tc (Pipeline.arrRef spec0 w)) = Whost m c (Proc.devRef .tc (Pipeline.arrRef spec0 w)) :=
  (Wmid_arr m h0 c w).trans (((h0.dat (Vhost m) c).arrAt_in w hw _).trans (h0.arrays (Vhost m) c w))

theorem Wmid_main_arg0 (c : Dev nD) : Wmid m h0 c (Proc.devRef .tc main_arg0) = m ((c : Thread nD τ).loc main_arg0) :=
  (Wmid_in m h0 c 0 rfl).trans (Whost_of m c main_arg0 (by decide))
theorem Wmid_main_arg1 (c : Dev nD) : Wmid m h0 c (Proc.devRef .tc main_arg1) = m ((c : Thread nD τ).loc main_arg1) :=
  (Wmid_in m h0 c 1 rfl).trans (Whost_of m c main_arg1 (by decide))
theorem Wmid_main_arg2 (c : Dev nD) : Wmid m h0 c (Proc.devRef .tc main_arg2) = m ((c : Thread nD τ).loc main_arg2) :=
  (Wmid_of_ne m h0 c main_arg2 (by decide)).trans (Whost_of m c main_arg2 (by decide))
theorem Wmid_main_arg3 (c : Dev nD) : Wmid m h0 c (Proc.devRef .tc main_arg3) = m ((c : Thread nD τ).loc main_arg3) :=
  (Wmid_of_ne m h0 c main_arg3 (by decide)).trans (Whost_of m c main_arg3 (by decide))
theorem Wmid_main_arg4 (c : Dev nD) : Wmid m h0 c (Proc.devRef .tc main_arg4) = m ((c : Thread nD τ).loc main_arg4) :=
  (Wmid_of_ne m h0 c main_arg4 (by decide)).trans (Whost_of m c main_arg4 (by decide))
theorem Wmid_main_arg5 (c : Dev nD) : Wmid m h0 c (Proc.devRef .tc main_arg5) = m ((c : Thread nD τ).loc main_arg5) :=
  (Wmid_in m h0 c 3 rfl).trans (Whost_of m c main_arg5 (by decide))
theorem Wmid_main_arg6 (c : Dev nD) : Wmid m h0 c (Proc.devRef .tc main_arg6) = m ((c : Thread nD τ).loc main_arg6) :=
  (Wmid_of_ne m h0 c main_arg6 (by decide)).trans (Whost_of m c main_arg6 (by decide))
theorem Wmid_main_arg7 (c : Dev nD) : Wmid m h0 c (Proc.devRef .tc main_arg7) = m ((c : Thread nD τ).loc main_arg7) :=
  (Wmid_of_ne m h0 c main_arg7 (by decide)).trans (Whost_of m c main_arg7 (by decide))
theorem Wmid_main_v1 (c : Dev nD) :
    Wmid m h0 c (Proc.devRef .tc main_v1) = truncf .bf16 (m ((c : Thread nD τ).loc main_arg6)) bitsLt_bf16_f32 :=
  (Wmid_of_ne m h0 c main_v1 (by decide)).trans (Whost_main_v1 m c)
/-- The hidden layer's buffer holds the first region's output array. -/
theorem Wmid_main_v2 (c : Dev nD) : Wmid m h0 c (Proc.devRef .tc main_v2) = (h0.dat (Vhost m) c).arrAt 4 cfg0.N :=
  Wmid_arr m h0 c 4

/-! ## After the second region -/

theorem Wend_in (c : Dev nD) (w : Fin cfg1.W) (hw : (cfg1.win w).isOut = false) :
    Wend m h0 h1 c (Proc.devRef .tc (Pipeline.arrRef spec1 w)) = Wmid m h0 c (Proc.devRef .tc (Pipeline.arrRef spec1 w)) :=
  (Wend_arr m h0 h1 c w).trans (((h1.dat (Vmid m h0) c).arrAt_in w hw _).trans (h1.arrays (Vmid m h0) c w))

theorem Wend_main_arg0 (c : Dev nD) : Wend m h0 h1 c (Proc.devRef .tc main_arg0) = m ((c : Thread nD τ).loc main_arg0) :=
  (Wend_in m h0 h1 c 0 rfl).trans (Wmid_main_arg0 m h0 c)
theorem Wend_main_arg1 (c : Dev nD) : Wend m h0 h1 c (Proc.devRef .tc main_arg1) = m ((c : Thread nD τ).loc main_arg1) :=
  (Wend_of_ne m h0 h1 c main_arg1 (by decide)).trans (Wmid_main_arg1 m h0 c)
theorem Wend_main_arg2 (c : Dev nD) : Wend m h0 h1 c (Proc.devRef .tc main_arg2) = m ((c : Thread nD τ).loc main_arg2) :=
  (Wend_in m h0 h1 c 1 rfl).trans (Wmid_main_arg2 m h0 c)
theorem Wend_main_arg3 (c : Dev nD) : Wend m h0 h1 c (Proc.devRef .tc main_arg3) = m ((c : Thread nD τ).loc main_arg3) :=
  (Wend_in m h0 h1 c 2 rfl).trans (Wmid_main_arg3 m h0 c)
theorem Wend_main_arg4 (c : Dev nD) : Wend m h0 h1 c (Proc.devRef .tc main_arg4) = m ((c : Thread nD τ).loc main_arg4) :=
  (Wend_of_ne m h0 h1 c main_arg4 (by decide)).trans (Wmid_main_arg4 m h0 c)
theorem Wend_main_arg5 (c : Dev nD) : Wend m h0 h1 c (Proc.devRef .tc main_arg5) = m ((c : Thread nD τ).loc main_arg5) :=
  (Wend_of_ne m h0 h1 c main_arg5 (by decide)).trans (Wmid_main_arg5 m h0 c)
theorem Wend_main_arg6 (c : Dev nD) : Wend m h0 h1 c (Proc.devRef .tc main_arg6) = m ((c : Thread nD τ).loc main_arg6) :=
  (Wend_of_ne m h0 h1 c main_arg6 (by decide)).trans (Wmid_main_arg6 m h0 c)
theorem Wend_main_arg7 (c : Dev nD) : Wend m h0 h1 c (Proc.devRef .tc main_arg7) = m ((c : Thread nD τ).loc main_arg7) :=
  (Wend_in m h0 h1 c 5 rfl).trans (Wmid_main_arg7 m h0 c)
/-- The result buffer ends at the second region's output array. -/
theorem Wend_main_v3 (c : Dev nD) : Wend m h0 h1 c (Proc.devRef .tc main_v3) = (h1.dat (Vmid m h0) c).arrAt 6 cfg1.N :=
  Wend_arr m h0 h1 c 6

/-! ## The run, with the result named and the arguments read back -/

/-- Every weakly fair execution of @main terminates, nothing faulting; the result buffer ends at the second region's
    output array (entered from the first region's), and every argument array as launched. -/
theorem run_named (ρ : Dev nD → PrngReg) :
    θ_run defs (onTc (τ := τ) (main (F := F))) ⟨m, fun _ => 0, ρ⟩ (fun r => ∀ c : Dev nD,
      r.2.mem ((c.tc : Thread nD τ).loc main_v3) = (h1.dat (Vmid m h0) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v3 (by decide))).trans (Wend_main_v3 m h0 h1 c),
     (h c _ (mem_uc main_arg0 (by decide))).trans (Wend_main_arg0 m h0 h1 c),
     (h c _ (mem_uc main_arg1 (by decide))).trans (Wend_main_arg1 m h0 h1 c),
     (h c _ (mem_uc main_arg2 (by decide))).trans (Wend_main_arg2 m h0 h1 c),
     (h c _ (mem_uc main_arg3 (by decide))).trans (Wend_main_arg3 m h0 h1 c),
     (h c _ (mem_uc main_arg4 (by decide))).trans (Wend_main_arg4 m h0 h1 c),
     (h c _ (mem_uc main_arg5 (by decide))).trans (Wend_main_arg5 m h0 h1 c),
     (h c _ (mem_uc main_arg6 (by decide))).trans (Wend_main_arg6 m h0 h1 c),
     (h c _ (mem_uc main_arg7 (by decide))).trans (Wend_main_arg7 m h0 h1 c)⟩)
    (run_all m ρ h0 h1)

include h0 h1 in
/-- The frame claim's post: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_named m h0 h1 ρ)

end Cert.KernelIdeal.Whole

end
-- ==== Proof.KI.R0Runs.lean ====
/- The first region (the factorization-machine sums and the first dense layer), what its three control cases share:
   the blocks the windows read, the two branch conditions in closed form over the grid, where the output window is
   idle, the staging and scratch memrefs at a point, and the region's invariant with the two running sums named. -/
import proofs.«181743_j4071628997276_2_alg».proof.Proof.Gen.KernelIdeal.Launch
import proofs.«181743_j4071628997276_2_alg».proof.Proof.Gen.KernelIdeal.Skeleton
import proofs.«181743_j4071628997276_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of the first factor (512 rows, 1024 columns of the contracted axis)) is found in its current staging buffer at every point, fetched there
    or not: unfetched, the block index has not moved. For any proof data whose array is `V`'s and whose body leaves
    the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the block of the second factor (1024 rows of the contracted axis, 512 columns)) is found in its current staging buffer at every point, fetched there
    or not: unfetched, the block index has not moved. For any proof data whose array is `V`'s and whose body leaves
    the block in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the whole weight matrix) is found in its current staging buffer at every point, fetched there
    or not: unfetched, the block index has not moved. For any proof data whose array is `V`'s and whose body leaves
    the block in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the whole bias vector) is found in its current staging buffer at every point, fetched there
    or not: unfetched, the block index has not moved. For any proof data whose array is `V`'s and whose body leaves
    the block in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions

The grid is 2 × 16: point `t` is row block `t / 16`, step `t % 16` along the contracted axis. -/

/-- The first branch: the step along the contracted axis is 0 (the running sums are reset). -/
abbrev atFirst (i : grid0.Coords) : Prop := (Scalar.cmpi .ne (Scalar.extui (Scalar.cmpi .eq (BitVec.ofNat 32 (i 1).val) 0#32)) 0#32) = 1#1
/-- It holds at the points ≡ 0 (mod 16). -/
theorem atFirst_iff : ∀ t : Fin cfg0.N, atFirst (grid0.coords t) ↔ t.val % 16 = 0 :=
  (by decide +kernel : ∀ t : Fin grid0.N, atFirst (grid0.coords t) ↔ t.val % 16 = 0)

/-- The second branch: the step along the contracted axis is 15, the last (the output block is stored). -/
abbrev atLast (i : grid0.Coords) : Prop := k0_cond2 i = 1#1
/-- It holds at the points ≡ 15 (mod 16). -/
theorem atLast_iff : ∀ t : Fin cfg0.N, atLast (grid0.coords t) ↔ t.val % 16 = 15 :=
  (by decide +kernel : ∀ t : Fin grid0.N, atLast (grid0.coords t) ↔ t.val % 16 = 15)

/-! ## Where the windows are idle -/

/-- The inputs are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- At a first step the output window is idle (nothing is stored into it) -/
theorem idle4_first : ∀ t : Fin cfg0.N, atFirst (grid0.coords t) → ¬atLast (grid0.coords t) → cfg0.idle 4 (grid0.coords t) = true := by decide +kernel
/-- and not written back. -/
theorem noFlush4_first : ∀ t : Fin cfg0.N, atFirst (grid0.coords t) → ¬atLast (grid0.coords t) → (cfg0.win 4).flush t = false := by decide +kernel
/-- At a middle step likewise: idle -/
theorem idle4_mid : ∀ t : Fin cfg0.N, ¬atFirst (grid0.coords t) → ¬atLast (grid0.coords t) → cfg0.idle 4 (grid0.coords t) = true := by decide +kernel
/-- and not written back. -/
theorem noFlush4_mid : ∀ t : Fin cfg0.N, ¬atFirst (grid0.coords t) → ¬atLast (grid0.coords t) → (cfg0.win 4).flush t = false := by decide +kernel
/-- At a last step the output window is live: its block is stored whole. -/
theorem live4_last : ∀ t : Fin cfg0.N, ¬atFirst (grid0.coords t) → atLast (grid0.coords t) → cfg0.idle 4 (grid0.coords t) = false := by decide +kernel

/-! ## The memrefs at a point -/

/-- One staging buffer of the output window, through which its contents are stated (the choice does not matter). -/
abbrev VO : View sig .tc .vmem S512x512 .f32 := (Memref.whole cc0_stg4_0 : Memref sig .tc .vmem S512x512 .f32).view
/-- Each window's current staging memref at point `t`, spelled as the pipeline passes it, and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
/-- The two scratch operands, carried between points: the running sum of the products -/
abbrev scS : Memref sig .tc .vmem S512x512 .f32 := Memref.whole cc0_scratch0
/-- and the running sum of the products of the squares. -/
abbrev scQ : Memref sig .tc .vmem S512x512 .f32 := Memref.whole cc0_scratch1
/-- The same as views: what they hold is stated through these. -/
abbrev VS : View sig .tc .vmem S512x512 .f32 := scS.view
abbrev VQ : View sig .tc .vmem S512x512 .f32 := scQ.view

/-! ## The region's invariant -/

/-- The scoped buffers of the OTHER region, each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The invariant the launch hands the region, with the two running sums as memrefs owned at some contents:
    what the body obligation hands a run and takes back. -/
theorem PhiA_eq (c : Dev nD) :
    (Pipeline.ΦA spec0 c : sProp 𝕄)
      = iprop(iprop((∃ d, owns (c : Thread nD τ) scS fullShare d) ∗ (∃ d, owns (c : Thread nD τ) scQ fullShare d) ∗ otherScoped (F := F) c) ∗ (∃ r, prngReg c r)) := by
  unfold Pipeline.ΦA otherScoped; rw [scopedRest0_eq]; simp only [scS, scQ, owns_whole]; try rfl

end Cert.KernelIdeal.R0

end
-- ==== Proof.KI.R0RunFirst.lean ====
/- The body's run at a FIRST step along the contracted axis: both running sums are stored whole with zeros and then
   added to; nothing is stored into the output block. The pieces each running sum ends with are found by the run. -/
import proofs.«181743_j4071628997276_2_alg».proof.Proof.KI.R0Runs

-- membership in a rectangle of full extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a first step: on whole memrefs — the four inputs at their contents, the output's buffer at contents `xi4`
    handed back untouched, the two running sums at anything — the body runs to the continuation holding the inputs as
    they were, the output's buffer as it was, and each running sum with its pieces (`LS`, `LQ`, last first) written. -/
noncomputable def runFirst (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) :
    Σ' (L4 : List (View.Piece (Elt F) S512x512 .f32)) (LS : List (View.Piece (Elt F) S512x512 .f32)), { LQ : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc0__fm_mlp_kernel i arg2 harg2 arg3 harg3 arg4 harg4 arg5 harg5 arg6 harg6 arg7 harg7 arg8 harg8) K } := by
  refine ⟨[], ?_, ?_, fun xi4 E K => ?run⟩
  case run =>
    simp only [cc0__fm_mlp_kernel_eq_skeleton]; unfold cc0__fm_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, ⟨%dq, %fq, -, HQ⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]; · iexists _; iexact HS
    iexists _; iexact HQ

end Cert.KernelIdeal.R0

end
-- ==== Proof.KI.R0RunMid.lean ====
/- The body's run at a MIDDLE step along the contracted axis: both running sums are added to; nothing is stored into
   the output block. The pieces each running sum ends with are found by the run. -/
import proofs.«181743_j4071628997276_2_alg».proof.Proof.KI.R0Runs

-- membership in a rectangle of full extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a middle step: on whole memrefs — the four inputs at their contents, the output's buffer at contents `xi4`
    handed back untouched, the two running sums at what the step before left (`xs`, `xq`) — the body runs to the
    continuation holding the inputs and the output's buffer as they were and each running sum with its pieces written. -/
noncomputable def runMid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) :
    Σ' (L4 : List (View.Piece (Elt F) S512x512 .f32)) (LS : List (View.Piece (Elt F) S512x512 .f32)), { LQ : List (View.Piece (Elt F) S512x512 .f32) //
      ∀ (xi4 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs ∗ owns (c : Thread nD τ) arg8 fullShare xq
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc0__fm_mlp_kernel i arg2 harg2 arg3 harg3 arg4 harg4 arg5 harg5 arg6 harg6 arg7 harg7 arg8 harg8) K } := by
  refine ⟨[], ?_, ?_, fun xi4 E K => ?run⟩
  case run =>
    simp only [cc0__fm_mlp_kernel_eq_skeleton]; unfold cc0__fm_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, ⟨%fq, %hfq, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs; obtain rfl := harg8.eq_unread hfq
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS]; · iexists _; iexact HS
    iexists _; iexact HQ

end Cert.KernelIdeal.R0

end
-- ==== Proof.KI.R0RunLast.lean ====
/- The body's run at a LAST step along the contracted axis: both running sums are added to, then the output block is
   computed from them, the weights and the bias, and stored whole. The pieces each buffer ends with are found by the run. -/
import proofs.«181743_j4071628997276_2_alg».proof.Proof.KI.R0Runs

-- membership in a rectangle of full extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- At a last step: on whole memrefs — the four inputs at their contents, the output's buffer at anything, the two
    running sums at what the step before left (`xs`, `xq`) — the body runs to the continuation holding the inputs as
    they were and the output's buffer and each running sum with their pieces (`L4`, `LS`, `LQ`) written. -/
noncomputable def runLast (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) :
    Σ' (L4 : List (View.Piece (Elt F) S512x512 .f32)) (LS : List (View.Piece (Elt F) S512x512 .f32)), { LQ : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs ∗ owns (c : Thread nD τ) arg8 fullShare xq
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LQ)) -∗ K ⟨⟩))
          ⊢ wp frame (wpE (defs₀ (F := F)) Variants.none c none) E (cc0__fm_mlp_kernel i arg2 harg2 arg3 harg3 arg4 harg4 arg5 harg5 arg6 harg6 arg7 harg7 arg8 harg8) K } := by
  refine ⟨?_, ?_, ?_, fun E K => ?run⟩
  case run =>
    simp only [cc0__fm_mlp_kernel_eq_skeleton]; unfold cc0__fm_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, ⟨%fq, %hfq, HQ⟩, Hk⟩
    obtain rfl := harg2.eq_unread hf0; obtain rfl := harg3.eq_unread hf1; obtain rfl := harg4.eq_unread hf2; obtain rfl := harg5.eq_unread hf3; obtain rfl := harg7.eq_unread hfs; obtain rfl := harg8.eq_unread hfq
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS]; · iexists _; iexact HS
    iexists _; iexact HQ

end Cert.KernelIdeal.R0

end
-- ==== Proof.KI.R0Body.lean ====
/- The first region's body at every grid point: what each control case leaves in the output's staging buffer and in
   the two running sums, those contents point by point (a recursion on the point), the proof data of the pipeline with
   the running sums carried in the invariant, and the body obligation — the case a point is in decided by the closed
   forms of the two branch conditions. -/
import proofs.«181743_j4071628997276_2_alg».proof.Proof.KI.R0RunFirst
import proofs.«181743_j4071628997276_2_alg».proof.Proof.KI.R0RunMid
import proofs.«181743_j4071628997276_2_alg».proof.Proof.KI.R0RunLast

-- membership in a rectangle of full extents recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At a first step nothing is stored into the output's buffer: no pieces — a placeholder nothing consults, the window being
    neither written back there nor read at the next point. -/
def out4_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) : Vec F S512x512 .f32 :=
  VO.read (Elt F) (VO.writes (Elt F) VO.junk (runFirst c i arg2 harg2 arg3 harg3 arg4 harg4 arg5 harg5 arg6 harg6 arg7 harg7 arg8 harg8 hc0 hc1 x0 x1 x2 x3).1)

/-- At a first step the stores into the running sum of the products tile it, so its pieces cover it. -/
theorem scoverS_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) (y : S512x512.Idx) :
    ∃ pc ∈ (runFirst c i arg2 harg2 arg3 harg3 arg4 harg4 arg5 harg5 arg6 harg6 arg7 harg7 arg8 harg8 hc0 hc1 x0 x1 x2 x3).2.1, y ∈ pc.1.set :=
  View.cover_of_tiledL (runFirst c i arg2 harg2 arg3 harg3 arg4 harg4 arg5 harg5 arg6 harg6 arg7 harg7 arg8 harg8 hc0 hc1 x0 x1 x2 x3).2.1 S512x512.size (by sl_kernel_rfl) y

/-- What a first step leaves in the running sum of the products: its pieces read back. -/
def soutS_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) : Vec F S512x512 .f32 :=
  VS.read (Elt F) (VS.writes (Elt F) VS.junk (runFirst c i arg2 harg2 arg3 harg3 arg4 harg4 arg5 harg5 arg6 harg6 arg7 harg7 arg8 harg8 hc0 hc1 x0 x1 x2 x3).2.1)

/-- At a first step the stores into the running sum of the products of the squares tile it, so its pieces cover it. -/
theorem scoverQ_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) (y : S512x512.Idx) :
    ∃ pc ∈ (runFirst c i arg2 harg2 arg3 harg3 arg4 harg4 arg5 harg5 arg6 harg6 arg7 harg7 arg8 harg8 hc0 hc1 x0 x1 x2 x3).2.2.1, y ∈ pc.1.set :=
  View.cover_of_tiledL (runFirst c i arg2 harg2 arg3 harg3 arg4 harg4 arg5 harg5 arg6 harg6 arg7 harg7 arg8 harg8 hc0 hc1 x0 x1 x2 x3).2.2.1 S512x512.size (by sl_kernel_rfl) y

/-- What a first step leaves in the running sum of the products of the squares: its pieces read back. -/
def soutQ_First (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) : Vec F S512x512 .f32 :=
  VQ.read (Elt F) (VQ.writes (Elt F) VQ.junk (runFirst c i arg2 harg2 arg3 harg3 arg4 harg4 arg5 harg5 arg6 harg6 arg7 harg7 arg8 harg8 hc0 hc1 x0 x1 x2 x3).2.2.1)

/-- At a middle step nothing is stored into the output's buffer: no pieces — a placeholder nothing consults, the window being
    neither written back there nor read at the next point. -/
def out4_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VO.read (Elt F) (VO.writes (Elt F) VO.junk (runMid c i arg2 harg2 arg3 harg3 arg4 harg4 arg5 harg5 arg6 harg6 arg7 harg7 arg8 harg8 hc0 hc1 x0 x1 x2 x3 xs xq).1)

/-- At a middle step the stores into the running sum of the products tile it, so its pieces cover it. -/
theorem scoverS_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runMid c i arg2 harg2 arg3 harg3 arg4 harg4 arg5 harg5 arg6 harg6 arg7 harg7 arg8 harg8 hc0 hc1 x0 x1 x2 x3 xs xq).2.1, y ∈ pc.1.set :=
  View.cover_of_tiledL (runMid c i arg2 harg2 arg3 harg3 arg4 harg4 arg5 harg5 arg6 harg6 arg7 harg7 arg8 harg8 hc0 hc1 x0 x1 x2 x3 xs xq).2.1 S512x512.size (by sl_kernel_rfl) y

/-- What a middle step leaves in the running sum of the products: its pieces read back. -/
def soutS_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VS.read (Elt F) (VS.writes (Elt F) VS.junk (runMid c i arg2 harg2 arg3 harg3 arg4 harg4 arg5 harg5 arg6 harg6 arg7 harg7 arg8 harg8 hc0 hc1 x0 x1 x2 x3 xs xq).2.1)

/-- At a middle step the stores into the running sum of the products of the squares tile it, so its pieces cover it. -/
theorem scoverQ_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runMid c i arg2 harg2 arg3 harg3 arg4 harg4 arg5 harg5 arg6 harg6 arg7 harg7 arg8 harg8 hc0 hc1 x0 x1 x2 x3 xs xq).2.2.1, y ∈ pc.1.set :=
  View.cover_of_tiledL (runMid c i arg2 harg2 arg3 harg3 arg4 harg4 arg5 harg5 arg6 harg6 arg7 harg7 arg8 harg8 hc0 hc1 x0 x1 x2 x3 xs xq).2.2.1 S512x512.size (by sl_kernel_rfl) y

/-- What a middle step leaves in the running sum of the products of the squares: its pieces read back. -/
def soutQ_Mid (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VQ.read (Elt F) (VQ.writes (Elt F) VQ.junk (runMid c i arg2 harg2 arg3 harg3 arg4 harg4 arg5 harg5 arg6 harg6 arg7 harg7 arg8 harg8 hc0 hc1 x0 x1 x2 x3 xs xq).2.2.1)

/-- At a last step the one store into the output's buffer tiles its block, so its pieces cover it. -/
theorem cover4_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runLast c i arg2 harg2 arg3 harg3 arg4 harg4 arg5 harg5 arg6 harg6 arg7 harg7 arg8 harg8 hc0 hc1 x0 x1 x2 x3 xs xq).1, y ∈ pc.1.set :=
  View.cover_of_tiledL (runLast c i arg2 harg2 arg3 harg3 arg4 harg4 arg5 harg5 arg6 harg6 arg7 harg7 arg8 harg8 hc0 hc1 x0 x1 x2 x3 xs xq).1 S512x512.size (by sl_kernel_rfl) y

/-- What a last step leaves in the output's staging buffer: its pieces read back. -/
def out4_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VO.read (Elt F) (VO.writes (Elt F) VO.junk (runLast c i arg2 harg2 arg3 harg3 arg4 harg4 arg5 harg5 arg6 harg6 arg7 harg7 arg8 harg8 hc0 hc1 x0 x1 x2 x3 xs xq).1)

/-- At a last step the stores into the running sum of the products tile it, so its pieces cover it. -/
theorem scoverS_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runLast c i arg2 harg2 arg3 harg3 arg4 harg4 arg5 harg5 arg6 harg6 arg7 harg7 arg8 harg8 hc0 hc1 x0 x1 x2 x3 xs xq).2.1, y ∈ pc.1.set :=
  View.cover_of_tiledL (runLast c i arg2 harg2 arg3 harg3 arg4 harg4 arg5 harg5 arg6 harg6 arg7 harg7 arg8 harg8 hc0 hc1 x0 x1 x2 x3 xs xq).2.1 S512x512.size (by sl_kernel_rfl) y

/-- What a last step leaves in the running sum of the products: its pieces read back. -/
def soutS_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VS.read (Elt F) (VS.writes (Elt F) VS.junk (runLast c i arg2 harg2 arg3 harg3 arg4 harg4 arg5 harg5 arg6 harg6 arg7 harg7 arg8 harg8 hc0 hc1 x0 x1 x2 x3 xs xq).2.1)

/-- At a last step the stores into the running sum of the products of the squares tile it, so its pieces cover it. -/
theorem scoverQ_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) (y : S512x512.Idx) :
    ∃ pc ∈ (runLast c i arg2 harg2 arg3 harg3 arg4 harg4 arg5 harg5 arg6 harg6 arg7 harg7 arg8 harg8 hc0 hc1 x0 x1 x2 x3 xs xq).2.2.1, y ∈ pc.1.set :=
  View.cover_of_tiledL (runLast c i arg2 harg2 arg3 harg3 arg4 harg4 arg5 harg5 arg6 harg6 arg7 harg7 arg8 harg8 hc0 hc1 x0 x1 x2 x3 xs xq).2.2.1 S512x512.size (by sl_kernel_rfl) y

/-- What a last step leaves in the running sum of the products of the squares: its pieces read back. -/
def soutQ_Last (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) : Vec F S512x512 .f32 :=
  VQ.read (Elt F) (VQ.writes (Elt F) VQ.junk (runLast c i arg2 harg2 arg3 harg3 arg4 harg4 arg5 harg5 arg6 harg6 arg7 harg7 arg8 harg8 hc0 hc1 x0 x1 x2 x3 xs xq).2.2.1)

/-! ## What the buffers hold after each point -/

/-- THE ACCUMULATION. What the output's staging buffer and the two running sums hold after the body at position `n`
    (the output first, then the sum of the products, then the sum of the products of the squares): the case the closed
    forms select at `n`, run at the point's memrefs and input blocks, the running sums at what this leaves at `n - 1`.
    A step cannot be first and last at once. -/
def outsAt (c : Dev nD) : (n : ℕ) → n < cfg0.N → Vec F S512x512 .f32 × Vec F S512x512 .f32 × Vec F S512x512 .f32
  | 0, hn => (out4_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scS (Memref.isWhole_whole _) scQ (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩) (iblk V c 3 ⟨0, hn⟩), soutS_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scS (Memref.isWhole_whole _) scQ (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩) (iblk V c 3 ⟨0, hn⟩), soutQ_First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scS (Memref.isWhole_whole _) scQ (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 16 = 0 then
      if h1 : (n + 1) % 16 = 15 then
        False.elim (by omega)
      else
        (out4_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩), soutS_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩), soutQ_First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 16 = 15 then
        (out4_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutS_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutQ_Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)
      else
        (out4_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutS_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2, soutQ_Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scS (Memref.isWhole_whole _) scQ (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)

/-- `outsAt` at a first step: that case's contents. -/
theorem outsAt_First (c : Dev nD) (t : Fin cfg0.N) (h0 : t.val % 16 = 0) (h1 : ¬t.val % 16 = 15) :
    outsAt V c t.val t.isLt = (out4_First c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t), soutS_First c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t), soutQ_First c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

/-- `outsAt` at a middle step: that case's contents, over what the point before left. -/
theorem outsAt_Mid (c : Dev nD) (t : Fin cfg0.N) (h0 : ¬t.val % 16 = 0) (h1 : ¬t.val % 16 = 15) :
    outsAt V c t.val t.isLt = (out4_Mid c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutS_Mid c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutQ_Mid c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a last step: that case's contents, over what the point before left. -/
theorem outsAt_Last (c : Dev nD) (t : Fin cfg0.N) (h0 : ¬t.val % 16 = 0) (h1 : t.val % 16 = 15) :
    outsAt V c t.val t.isLt = (out4_Last c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutS_Last c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2, soutQ_Last c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the running sums carried between points -/

/-- The region invariant before position `n`: before the first point what the launch hands over (every scoped buffer
    at anything); afterwards the two running sums at what the point before left in them, the other region's scoped
    buffers at anything, and the generator register at some state. -/
def PhiS (c : Dev nD) : (n : ℕ) → n ≤ cfg0.N → sProp 𝕄
  | 0, _ => Pipeline.ΦA spec0 c
  | n + 1, hn => iprop(iprop(owns (c : Thread nD τ) scS fullShare ((outsAt V c n hn).2.1) ∗ owns (c : Thread nD τ) scQ fullShare ((outsAt V c n hn).2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the running sums at that point's contents. -/
theorem PhiS_succ (c : Dev nD) (n : ℕ) (hn : n < cfg0.N) :
    PhiS V c (n + 1) hn = iprop(iprop(owns (c : Thread nD τ) scS fullShare ((outsAt V c n hn).2.1) ∗ owns (c : Thread nD τ) scQ fullShare ((outsAt V c n hn).2.2) ∗ otherScoped (F := F) c) ∗ (∃ r, prngReg c r)) := rfl

/-- Before a point that is not the first: the running sums at what the point before left. -/
theorem PhiS_pos (c : Dev nD) (n : ℕ) (h : n ≤ cfg0.N) (hz : n ≠ 0) :
    PhiS V c n h = iprop(iprop(owns (c : Thread nD τ) scS fullShare ((outsAt V c (n - 1) (by omega)).2.1) ∗ owns (c : Thread nD τ) scQ fullShare ((outsAt V c (n - 1) (by omega)).2.2) ∗ otherScoped (F := F) c) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = (outsAt V c t.val t.isLt).1 := by dsimp only [dat]

/-- Each input's current staging buffer holds its block at every point, fetched there or not. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d

/-! ## The body obligation, at a generic point -/

/-- What the body is called with at point `t`: the invariant, nothing owed, and each window's current staging buffer
    at what the pipeline left in it, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the closed forms say which case the point is in; the
    invariant hands the body the two running sums at what the point before left (at anything at the very first point)
    and takes them back at this point's contents, each covered by the case's stores; at a first or middle step the
    output's buffer is handed back as found, at a last step it is covered by the one store. Nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4_first t ((atFirst_iff t).mpr h0) (fun h => h1 ((atLast_iff t).mp h))) (noFlush4_first t ((atFirst_iff t).mpr h0) (fun h => h1 ((atLast_iff t).mp h)))]
      rw [outsAt_First V c t h0 h1]
      unfold soutS_First soutQ_First; (try dsimp only)
      by_cases hz : t.val = 0
      · rw [PhiS_castSucc V c t, PhiS_zero V c _ _ hz, PhiA_eq]
        iintro ⟨⟨⟨HS, HQ, HR⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ ((atFirst_iff t).mpr h0) (fun h => h1 ((atLast_iff t).mp h)) (iblk V c 0 t) (iblk V c 1 t) (iblk V c 2 t) (iblk V c 3 t)).2.2.2 _ Set.univ _)
        isplitl [H0]; · iexact H0
        isplitl [H1]; · iexact H1
        isplitl [H2]; · iexact H2
        isplitl [H3]; · iexact H3
        isplitl [H4]; · iexact H4
        isplitl [HS]; · iexact HS
        isplitl [HQ]; · iexact HQ
        iintro ⟨H0, H1, H2, H3, H4, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_First c _ _ _ _ _ _ _ _ _ _ _ _ _ _ _ _ _ _ _ _ _)
            isplitl [HQ]
            · unfold owns; iexists _; isplitr
              swap; · iexact HQ
              ipureintro; exact View.read_writes_of_cover _ _ _ _ _ (scoverQ_First c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS, HQ, HR⟩, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ _ _ ((atFirst_iff t).mpr h0) (fun h => h1 ((atLast_iff t).mp h)) (iblk V c 0 t) (iblk V c 1 t) (iblk V c 2 t) (iblk V c 3 t)).2.2.2 _ Set.univ _)
        isplitl [H0]; · iexact H0
        isplitl [H1]; · iexact H1
        isplitl [H2]; · iexact H2
        isplitl [H3]; · iexact H3
        isplitl [H4]; · iexact H4
        isplitl [HS]; · iexists _; iexact HS
        isplitl [HQ]; · iexists _; iexact HQ
        iintro ⟨H0, H1, H2, H3, H4, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_First c _ _ _ _ _ _ _ _ _ _ _ _ _ _ _ _ _ _ _ _ _)
            isplitl [HQ]
            · unfold owns; iexists _; isplitr
              swap; · iexact HQ
              ipureintro; exact View.read_writes_of_cover _ _ _ _ _ (scoverQ_First c _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4_last t (fun h => h0 ((atFirst_iff t).mp h)) ((atLast_iff t).mpr h1)], after4]
      rw [outsAt_Last V c t h0 h1]
      unfold out4_Last soutS_Last soutQ_Last; (try dsimp only)
      by_cases hz : t.val = 0
      · exfalso; omega
      · rw [PhiS_castSucc V c t, PhiS_pos V c _ _ hz]
        iintro ⟨⟨⟨HS, HQ, HR⟩, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ _ _ (fun h => h0 ((atFirst_iff t).mp h)) ((atLast_iff t).mpr h1) (iblk V c 0 t) (iblk V c 1 t) (iblk V c 2 t) (iblk V c 3 t) _ _).2.2.2 Set.univ _)
        isplitl [H0]; · iexact H0
        isplitl [H1]; · iexact H1
        isplitl [H2]; · iexact H2
        isplitl [H3]; · iexact H3
        isplitl [H4]; · iexists _; iexact H4
        isplitl [HS]; · iexact HS
        isplitl [HQ]; · iexact HQ
        iintro ⟨H0, H1, H2, H3, ⟨%e4, H4⟩, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_Last c _ _ _ _ _ _ _ _ _ _ _ _ _ _ _ _ _ _ _ _ _ _ _)
            isplitl [HQ]
            · unfold owns; iexists _; isplitr
              swap; · iexact HQ
              ipureintro; exact View.read_writes_of_cover _ _ _ _ _ (scoverQ_Last c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_Last c _ _ _ _ _ _ _ _ _ _ _ _ _ _ _ _ _ _ _ _ _ _ _)
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [Dat.leavesExact_idle (dat V c) 4 t (idle4_mid t (fun h => h0 ((atFirst_iff t).mp h)) (fun h => h1 ((atLast_iff t).mp h))) (noFlush4_mid t (fun h => h0 ((atFirst_iff t).mp h)) (fun h => h1 ((atLast_iff t).mp h)))]
      rw [outsAt_Mid V c t h0 h1]
      unfold soutS_Mid soutQ_Mid; (try dsimp only)
      by_cases hz : t.val = 0
      · exfalso; omega
      · rw [PhiS_castSucc V c t, PhiS_pos V c _ _ hz]
        iintro ⟨⟨⟨HS, HQ, HR⟩, Hg⟩, Ho, ⟨%d0, H0⟩, ⟨%d1, H1⟩, ⟨%d2, H2⟩, ⟨%d3, H3⟩, ⟨%d4, H4⟩⟩
        iapply ((runMid c (grid0.coords t) _ _ _ _ _ _ _ _ _ _ _ _ _ _ (fun h => h0 ((atFirst_iff t).mp h)) (fun h => h1 ((atLast_iff t).mp h)) (iblk V c 0 t) (iblk V c 1 t) (iblk V c 2 t) (iblk V c 3 t) _ _).2.2.2 _ Set.univ _)
        isplitl [H0]; · iexact H0
        isplitl [H1]; · iexact H1
        isplitl [H2]; · iexact H2
        isplitl [H3]; · iexact H3
        isplitl [H4]; · iexact H4
        isplitl [HS]; · iexact HS
        isplitl [HQ]; · iexact HQ
        iintro ⟨H0, H1, H2, H3, H4, ⟨%es, HS⟩, ⟨%eq, HQ⟩⟩
        isplitl [HS HQ HR Hg]
        · isplitl [HS HQ HR]
          · isplitl [HS]
            · unfold owns; iexists _; isplitr
              swap; · iexact HS
              ipureintro; exact View.read_writes_of_cover _ _ _ _ _ (scoverS_Mid c _ _ _ _ _ _ _ _ _ _ _ _ _ _ _ _ _ _ _ _ _ _ _)
            isplitl [HQ]
            · unfold owns; iexists _; isplitr
              swap; · iexact HQ
              ipureintro; exact View.read_writes_of_cover _ _ _ _ _ (scoverQ_Mid c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives it back: the running sums' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HQ, HR⟩, Hg⟩
  isplitl [HS HQ HR]
  · isplitl [HS]; · iexists _; iexact HS
    isplitl [HQ]; · iexists _; iexact HQ
    iexact HR
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.KernelIdeal.R0

end
-- ==== Proof.KI.R1Runs.lean ====
/-
  The second pallas_call (grid 4 × 4 × 8: row block i, column block j, contraction block k; point t has
  i = t / 32, j = (t / 8) % 4, k = t % 8), what its three control cases share.

  The body keeps a running sum in a scratch buffer it carries from point to point: at k = 0 it stores zeros into
  the scratch; at every point it adds the product of the point's blocks of sae and linear_w to it; at k = 7 it
  stores the output block, the finished sum plus the bias, the second product and the second bias.  Everything
  here is stated over V, the TensorCore's buffer contents when the call is entered.
-/
import proofs.«181743_j4071628997276_2_alg».proof.Proof.Gen.KernelIdeal.Launch
import proofs.«181743_j4071628997276_2_alg».proof.Proof.Gen.KernelIdeal.Skeleton
import proofs.«181743_j4071628997276_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the block of sae at every point, fetched there or not (unfetched, the block
    index has not moved), for any proof data whose array is `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the block of linear_w at every point, fetched there or not (unfetched, the block
    index has not moved), for any proof data whose array is `V`'s and whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the block of linear_b at every point, fetched there or not (unfetched, the block
    index has not moved), for any proof data whose array is `V`'s and whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the block of h at every point, fetched there or not (unfetched, the block
    index has not moved), for any proof data whose array is `V`'s and whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the block of mlp2_w at every point, fetched there or not (unfetched, the block
    index has not moved), for any proof data whose array is `V`'s and whose body leaves the block in place. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the block of mlp2_b at every point, fetched there or not (unfetched, the block
    index has not moved), for any proof data whose array is `V`'s and whose body leaves the block in place. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- The point is the first of its run of eight: k = 0 (the condition of the branch that zeroes the scratch, as the
    body computes it from the third grid coordinate). -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 8 = 0 :=
  (by decide +kernel : ∀ t : Fin grid1.N, condFirst (grid1.coords t) ↔ t.val % 8 = 0)

/-- The point is the last of its run of eight: k = 7 (the condition of the branch that stores the output). -/
abbrev condLast (i : grid1.Coords) : Prop := k1_cond2 i = 1#1
theorem hcondLast : ∀ t : Fin cfg1.N, condLast (grid1.coords t) ↔ t.val % 8 = 7 :=
  (by decide +kernel : ∀ t : Fin grid1.N, condLast (grid1.coords t) ↔ t.val % 8 = 7)

/-! ## Where the windows are idle -/
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl
theorem liveAt4 : ∀ t : Fin cfg1.N, cfg1.idle 4 (grid1.coords t) = false := fun _ => rfl
theorem liveAt5 : ∀ t : Fin cfg1.N, cfg1.idle 5 (grid1.coords t) = false := fun _ => rfl
/-- Before the last point of a run the body stores nothing into the output's buffer: the window is idle there, -/
theorem idleAt6 : ∀ t : Fin cfg1.N, ¬condLast (grid1.coords t) → cfg1.idle 6 (grid1.coords t) = true := by decide +kernel
/-- and the block is not written back there. -/
theorem noFlush6 : ∀ t : Fin cfg1.N, ¬condLast (grid1.coords t) → (cfg1.win 6).flush t = false := by decide +kernel
/-- At the last point of a run the output is live. -/
theorem liveAt6 : ∀ t : Fin cfg1.N, condLast (grid1.coords t) → cfg1.idle 6 (grid1.coords t) = false := by decide +kernel

/-! ## The memrefs the body is called with -/

/-- One staging buffer of the output window, through which its contents are stated (the choice does not matter). -/
abbrev VO6 : View sig .tc .vmem S256x1024 .f32 := (Memref.whole cc1_stg6_0 : Memref sig .tc .vmem S256x1024 .f32).view
abbrev ms0 (t : Fin cfg1.N) : Memref sig .tc .vmem S256x2048 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x512 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S256x1024 .f32 := win1_6.stage (cfg1.slots t 6)
abbrev hs6 (t : Fin cfg1.N) : (ms6 t).IsWhole := hstage1_6 ((cfg1.slots t 6).cast nbuf1_6)
/-- The scratch holding the running sum: a whole scoped buffer of the call's own, passed beside the windows. -/
abbrev scM : Memref sig .tc .vmem S256x1024 .f32 := Memref.whole cc1_scratch0
/-- The same as a view: what the scratch holds is stated through it. -/
abbrev VS : View sig .tc .vmem S256x1024 .f32 := scM.view

/-- Every other scoped buffer of the core that is no staging buffer of this call (the first call's staging buffers
    and scratch), at some contents each: carried through every point unopened. -/
abbrev others (c : Dev nD) : sProp 𝕄 :=
  Pipeline.scopedRestBut (Ix := Unit) (Name := ℕ) (U := UR sig nD τ) (Lvl := ℕ) (Val := Elt F) spec1 c [cc1_scratch0]

/-- What the launch hands the call: the scratch at some contents, the other scoped buffers, the generator
    register at some state. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA
  rw [Pipeline.scopedRest_split_of_list spec1 c [cc1_scratch0] (by decide) (by decide)]
  simp only [scM, owns_whole, bigSepL_singleton]; try rfl

end Cert.KernelIdeal.R1

end
-- ==== Proof.KI.R1RunA.lean ====
/-
  The body at the FIRST point of a run of eight (k = 0): it stores zeros into the scratch, reads them back, adds the
  product of the point's blocks of sae and linear_w, and stores the sum into the scratch; it stores nothing into the
  output.  The pieces the scratch ends with are found by running the body.
-/
import proofs.«181743_j4071628997276_2_alg».proof.Proof.KI.R1Runs

-- membership in a rectangle of these extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two operand blocks at their contents, the scratch at anything — the body runs to the
    continuation holding the operand blocks as they were and the scratch with its pieces `LS` written. The other
    windows' buffers are not touched and stay with the caller. -/
noncomputable def runFirst (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : condFirst i) (hc1 : ¬condLast i)
    (x0 : Vec F S256x2048 .f32) (x1 : Vec F S1024x2048 .f32) :
    { LS : List (View.Piece (Elt F) S256x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg10 fullShare d)
            ∗ (iprop(owns (c : Thread nD τ) arg3 fullShare x0 ∗ owns (c : Thread nD τ) arg4 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc1__linear_kernel i arg3 harg3 arg4 harg4 arg5 harg5 arg6 harg6 arg7 harg7 arg8 harg8 arg9 harg9 arg10 harg10) K } := by
  refine ⟨?_, fun E K => ?run⟩
  case run =>
    simp only [cc1__linear_kernel_eq_skeleton]; unfold cc1__linear_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.R1

end
-- ==== Proof.KI.R1RunB.lean ====
/-
  The body at a MIDDLE point of a run of eight (0 < k < 7): it adds the product of the point's blocks of sae and
  linear_w to the scratch, which holds what the point before left; it stores nothing into the output.
-/
import proofs.«181743_j4071628997276_2_alg».proof.Proof.KI.R1Runs

-- membership in a rectangle of these extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two operand blocks at their contents, the scratch at the contents `xs` the point before
    left — the body runs to the continuation holding the operand blocks as they were and the scratch with its pieces
    `LS` written. -/
noncomputable def runMid (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : ¬condLast i)
    (x0 : Vec F S256x2048 .f32) (x1 : Vec F S1024x2048 .f32) (xs : Vec F S256x1024 .f32) :
    { LS : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg10 fullShare xs
            ∗ (iprop(owns (c : Thread nD τ) arg3 fullShare x0 ∗ owns (c : Thread nD τ) arg4 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc1__linear_kernel i arg3 harg3 arg4 harg4 arg5 harg5 arg6 harg6 arg7 harg7 arg8 harg8 arg9 harg9 arg10 harg10) K } := by
  refine ⟨?_, fun E K => ?run⟩
  case run =>
    simp only [cc1__linear_kernel_eq_skeleton]; unfold cc1__linear_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS

end Cert.KernelIdeal.R1

end
-- ==== Proof.KI.R1RunC.lean ====
/-
  The body at the LAST point of a run of eight (k = 7): it adds the product of the point's blocks of sae and linear_w to
  the scratch, then stores the output block whole: the finished sum plus linear_b, plus the product of the blocks of h
  and mlp2_w, plus mlp2_b.
-/
import proofs.«181743_j4071628997276_2_alg».proof.Proof.KI.R1Runs

-- membership in a rectangle of these extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the six input blocks at their contents, the output's buffer at anything, the scratch at the
    contents `xs` the point before left — the body runs to the continuation holding the input blocks as they were, the
    output's buffer with its pieces `L6` written and the scratch with its pieces `LS` written. -/
noncomputable def runLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) :
    Σ' (L6 : List (View.Piece (Elt F) S256x1024 .f32)), { LS : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS)) -∗ K ⟨⟩))
          ⊢ wp frame (wpE (defs₀ (F := F)) Variants.none c none) E (cc1__linear_kernel i arg3 harg3 arg4 harg4 arg5 harg5 arg6 harg6 arg7 harg7 arg8 harg8 arg9 harg9 arg10 harg10) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg10.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.KernelIdeal.R1

end
-- ==== Proof.KI.R1Body.lean ====
/-
  The second pallas_call's body obligation.  What each control case leaves in the scratch (and, at the last point of a
  run of eight, in the output's buffer) is read back from the pieces its run found; what the scratch and the output
  hold after each point follows by recursion on the point; the invariant between points says that the scratch holds
  what the point before left; and the body at any point is the run of the case its position in the run of eight
  selects.
-/
import proofs.«181743_j4071628997276_2_alg».proof.Proof.KI.R1RunA
import proofs.«181743_j4071628997276_2_alg».proof.Proof.KI.R1RunB
import proofs.«181743_j4071628997276_2_alg».proof.Proof.KI.R1RunC

-- membership in a rectangle of these extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first point's pieces for the scratch tile it, so they cover it. -/
theorem scoverFirst (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : condFirst i) (hc1 : ¬condLast i)
    (x0 : Vec F S256x2048 .f32) (x1 : Vec F S1024x2048 .f32) (y : S256x1024.Idx) :
    ∃ pc ∈ (runFirst c i arg3 harg3 arg4 harg4 arg5 harg5 arg6 harg6 arg7 harg7 arg8 harg8 arg9 harg9 arg10 harg10 hc0 hc1 x0 x1).1, y ∈ pc.1.set :=
  View.cover_of_tiledL (runFirst c i arg3 harg3 arg4 harg4 arg5 harg5 arg6 harg6 arg7 harg7 arg8 harg8 arg9 harg9 arg10 harg10 hc0 hc1 x0 x1).1 S256x1024.size (by sl_kernel_rfl) y

/-- What the first point of a run leaves in the scratch: its pieces read back. -/
def soutFirst (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : condFirst i) (hc1 : ¬condLast i)
    (x0 : Vec F S256x2048 .f32) (x1 : Vec F S1024x2048 .f32) : Vec F S256x1024 .f32 :=
  VS.read (Elt F) (VS.writes (Elt F) VS.junk (runFirst c i arg3 harg3 arg4 harg4 arg5 harg5 arg6 harg6 arg7 harg7 arg8 harg8 arg9 harg9 arg10 harg10 hc0 hc1 x0 x1).1)

/-- A middle point's pieces for the scratch tile it, so they cover it. -/
theorem scoverMid (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : ¬condLast i)
    (x0 : Vec F S256x2048 .f32) (x1 : Vec F S1024x2048 .f32) (xs : Vec F S256x1024 .f32) (y : S256x1024.Idx) :
    ∃ pc ∈ (runMid c i arg3 harg3 arg4 harg4 arg5 harg5 arg6 harg6 arg7 harg7 arg8 harg8 arg9 harg9 arg10 harg10 hc0 hc1 x0 x1 xs).1, y ∈ pc.1.set :=
  View.cover_of_tiledL (runMid c i arg3 harg3 arg4 harg4 arg5 harg5 arg6 harg6 arg7 harg7 arg8 harg8 arg9 harg9 arg10 harg10 hc0 hc1 x0 x1 xs).1 S256x1024.size (by sl_kernel_rfl) y

/-- What a middle point of a run leaves in the scratch, over what the point before left. -/
def soutMid (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : ¬condLast i)
    (x0 : Vec F S256x2048 .f32) (x1 : Vec F S1024x2048 .f32) (xs : Vec F S256x1024 .f32) : Vec F S256x1024 .f32 :=
  VS.read (Elt F) (VS.writes (Elt F) VS.junk (runMid c i arg3 harg3 arg4 harg4 arg5 harg5 arg6 harg6 arg7 harg7 arg8 harg8 arg9 harg9 arg10 harg10 hc0 hc1 x0 x1 xs).1)

/-- The last point's pieces for the output's buffer tile it, so they cover it. -/
theorem coverLast6 (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) (y : S256x1024.Idx) :
    ∃ pc ∈ (runLast c i arg3 harg3 arg4 harg4 arg5 harg5 arg6 harg6 arg7 harg7 arg8 harg8 arg9 harg9 arg10 harg10 hc0 hc1 x0 x1 x2 x3 x4 x5 xs).1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs).1 S256x1024.size (by sl_kernel_rfl) y

/-- What the last point of a run leaves in the output's staging buffer: its pieces read back. -/
def outLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) : Vec F S256x1024 .f32 :=
  VO6.read (Elt F) (VO6.writes (Elt F) VO6.junk (runLast c i arg3 harg3 arg4 harg4 arg5 harg5 arg6 harg6 arg7 harg7 arg8 harg8 arg9 harg9 arg10 harg10 hc0 hc1 x0 x1 x2 x3 x4 x5 xs).1)

/-- The last point's pieces for the scratch tile it, so they cover it. -/
theorem scoverLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) (y : S256x1024.Idx) :
    ∃ pc ∈ (runLast c i arg3 harg3 arg4 harg4 arg5 harg5 arg6 harg6 arg7 harg7 arg8 harg8 arg9 harg9 arg10 harg10 hc0 hc1 x0 x1 x2 x3 x4 x5 xs).2.1, y ∈ pc.1.set :=
  View.cover_of_tiledL (runLast c i arg3 harg3 arg4 harg4 arg5 harg5 arg6 harg6 arg7 harg7 arg8 harg8 arg9 harg9 arg10 harg10 hc0 hc1 x0 x1 x2 x3 x4 x5 xs).2.1 S256x1024.size (by sl_kernel_rfl) y

/-- What the last point of a run leaves in the scratch, over what the point before left. -/
def soutLast (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) : Vec F S256x1024 .f32 :=
  VS.read (Elt F) (VS.writes (Elt F) VS.junk (runLast c i arg3 harg3 arg4 harg4 arg5 harg5 arg6 harg6 arg7 harg7 arg8 harg8 arg9 harg9 arg10 harg10 hc0 hc1 x0 x1 x2 x3 x4 x5 xs).2.1)

/-- A placeholder for the output's buffer at the points that store nothing into it: nothing consults it, since there
    the window is neither written back nor read at the next point. -/
def idleOut : Vec F S256x1024 .f32 := VO6.read (Elt F) VO6.junk

/-! ## What the output's buffer and the scratch hold after each point -/

/-- One point: the case its place in the run of eight selects, run at the point's memrefs and input blocks, the scratch
    at `prev`, what the point before left (not read at the first point of a run, which zeroes it). The pair is the
    output's buffer, then the scratch. The two conditions cannot hold together; that branch is never met. -/
def step (c : Dev nD) (t : Fin cfg1.N) (prev : Vec F S256x1024 .f32) : Vec F S256x1024 .f32 × Vec F S256x1024 .f32 :=
  if h0 : t.val % 8 = 0 then
    if h1 : t.val % 8 = 7 then (idleOut, prev)
    else (idleOut, soutFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk V c 0 t) (iblk V c 1 t))
  else
    if h1 : t.val % 8 = 7 then
      (outLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) prev,
        soutLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) prev)
    else (idleOut, soutMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk V c 0 t) (iblk V c 1 t) prev)

/-- THE ACCUMULATION: after the body at position `n`, by recursion on the position. -/
def outsAt (c : Dev nD) : (n : ℕ) → n < cfg1.N → Vec F S256x1024 .f32 × Vec F S256x1024 .f32
  | 0, hn => step V c ⟨0, hn⟩ idleOut
  | n + 1, hn => step V c ⟨n + 1, hn⟩ (outsAt c n (Nat.lt_of_succ_lt hn)).2

theorem outsAt_zero (c : Dev nD) (t : Fin cfg1.N) (hz : t.val = 0) : outsAt V c t.val t.isLt = step V c t idleOut := by
  obtain ⟨n, hn⟩ := t
  cases n with
  | zero => rfl
  | succ n => exact absurd hz (Nat.succ_ne_zero n)

theorem outsAt_pos (c : Dev nD) (t : Fin cfg1.N) (hz : t.val ≠ 0) :
    outsAt V c t.val t.isLt = step V c t (outsAt V c (t.val - 1) (Nat.lt_of_le_of_lt (Nat.sub_le _ _) t.isLt)).2 := by
  obtain ⟨n, hn⟩ := t
  cases n with
  | zero => exact absurd rfl hz
  | succ n => rfl

/-- At the first point of a run: that case's contents, whatever the point before left. -/
theorem outsAt_first (c : Dev nD) (t : Fin cfg1.N) (h0 : t.val % 8 = 0) (h1 : ¬t.val % 8 = 7) :
    outsAt V c t.val t.isLt = (idleOut, soutFirst c (grid1.coords t) (ms0 t) (hs0 t) (ms1 t) (hs1 t) (ms2 t) (hs2 t) (ms3 t) (hs3 t) (ms4 t) (hs4 t) (ms5 t) (hs5 t) (ms6 t) (hs6 t) scM (Memref.isWhole_whole _) ((hcondFirst t).mpr h0) (fun h => h1 ((hcondLast t).mp h)) (iblk V c 0 t) (iblk V c 1 t)) := by
  by_cases hz : t.val = 0
  · rw [outsAt_zero V c t hz]; exact (dif_pos h0).trans (dif_neg h1)
  · rw [outsAt_pos V c t hz]; exact (dif_pos h0).trans (dif_neg h1)

/-- At a middle point of a run: that case's contents, over what the point before left. -/
theorem outsAt_mid (c : Dev nD) (t : Fin cfg1.N) (h0 : ¬t.val % 8 = 0) (h1 : ¬t.val % 8 = 7) :
    outsAt V c t.val t.isLt = (idleOut, soutMid c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) (fun h => h1 ((hcondLast t).mp h)) (iblk V c 0 t) (iblk V c 1 t) (outsAt V c (t.val - 1) (Nat.lt_of_le_of_lt (Nat.sub_le _ _) t.isLt)).2) := by
  have hz : t.val ≠ 0 := fun e => h0 (by rw [e])
  rw [outsAt_pos V c t hz]; exact (dif_neg h0).trans (dif_neg h1)

/-- At the last point of a run: that case's contents, over what the point before left. -/
theorem outsAt_last (c : Dev nD) (t : Fin cfg1.N) (h0 : ¬t.val % 8 = 0) (h1 : t.val % 8 = 7) :
    outsAt V c t.val t.isLt = (outLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2,
      soutLast c (grid1.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcondFirst t).mp h)) ((hcondLast t).mpr h1) (iblk V c 0 t) (iblk V c 1 t) (iblk V c 2 t) (iblk V c 3 t) (iblk V c 4 t) (iblk V c 5 t) (outsAt V c (t.val - 1) (Nat.lt_of_le_of_lt (Nat.sub_le _ _) t.isLt)).2) := by
  have hz : t.val ≠ 0 := fun e => h0 (by rw [e])
  rw [outsAt_pos V c t hz]; exact (dif_neg h0).trans (dif_pos h1)

/-! ## The invariant between points -/

/-- Before the first point what the launch hands the call; afterwards the scratch at what the point before left, the
    other scoped buffers unopened, the generator register at some state. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The proof data -/

/-- The proof data of the call on core `c`: the arrays as the call finds them; after the body at point `t` each input's
    buffer at its block and the output's at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = (outsAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d

/-- Input window 0 is live at every point: the body hands its buffer back at its block. -/
theorem leaves0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t], after0]

/-- Input window 1 is live at every point: the body hands its buffer back at its block. -/
theorem leaves1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t], after1]

/-- Input window 2 is live at every point: the body hands its buffer back at its block. -/
theorem leaves2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t], after2]

/-- Input window 3 is live at every point: the body hands its buffer back at its block. -/
theorem leaves3 (c : Dev nD) (t : Fin cfg1.N) :
    (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [liveAt3 t], after3]

/-- Input window 4 is live at every point: the body hands its buffer back at its block. -/
theorem leaves4 (c : Dev nD) (t : Fin cfg1.N) :
    (dat V c).leavesExact 4 t = owns (c : Thread nD τ) (ms4 t) fullShare (iblk V c 4 t) := by
  rw [show (dat V c).leavesExact 4 t = owns (c : Thread nD τ) (ms4 t) fullShare ((dat V c).after 4 t) from by
    unfold Dat.leavesExact; rw [liveAt4 t], after4]

/-- Input window 5 is live at every point: the body hands its buffer back at its block. -/
theorem leaves5 (c : Dev nD) (t : Fin cfg1.N) :
    (dat V c).leavesExact 5 t = owns (c : Thread nD τ) (ms5 t) fullShare (iblk V c 5 t) := by
  rw [show (dat V c).leavesExact 5 t = owns (c : Thread nD τ) (ms5 t) fullShare ((dat V c).after 5 t) from by
    unfold Dat.leavesExact; rw [liveAt5 t], after5]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 4800000 in
/-- The body at any point. The inputs' memrefs hold their blocks; the point's place in its run of eight says which case
    it is in; the invariant hands the body the scratch at what the point before left (at anything before the first
    point of all) and takes it back at this point's contents, the pieces covering it; before the last point of a run
    the output's buffer goes back as it came, at the last point it comes back with its pieces written, which cover
    it; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0 V c, before1 V c, before2 V c, before3 V c, before4 V c, before5 V c]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5]
  have hN : t.val < 128 := lt_of_lt_of_eq t.isLt (show cfg1.N = 128 from N_1)
  by_cases h0 : t.val % 8 = 0
  · by_cases h1 : t.val % 8 = 7
    · exfalso; omega
    · rw [Dat.leavesExact_idle (dat V c) 6 t (idleAt6 t (fun h => h1 ((hcondLast t).mp h))) (noFlush6 t (fun h => h1 ((hcondLast t).mp h)))]
      rw [outsAt_first V c t h0 h1]
      unfold soutFirst; (try dsimp only)
      by_cases hz : t.val = 0
      · rw [PhiS_castSucc V c t, PhiS_zero V c _ _ hz, PhiA_eq]
        iintro ⟨⟨⟨HS, Hr⟩, Hg⟩, Ho, ⟨%d0, H0⟩, ⟨%d1, H1⟩, ⟨%d2, H2⟩, ⟨%d3, H3⟩, ⟨%d4, H4⟩, ⟨%d5, H5⟩, H6⟩
        iapply ((runFirst c (grid1.coords t) _ _ _ _ _ _ _ _ _ _ _ _ _ _ _ _ ((hcondFirst t).mpr h0) (fun h => h1 ((hcondLast t).mp h)) (iblk V c 0 t) (iblk V c 1 t)).2 Set.univ _)
        isplitl [H0]; · iexact H0
        isplitl [H1]; · iexact H1
        isplitl [HS]; · iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scoverFirst c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · rw [PhiS_castSucc V c t, PhiS_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩, H6⟩
        iapply ((runFirst c (grid1.coords t) _ _ _ _ _ _ _ _ _ _ _ _ _ _ _ _ ((hcondFirst t).mpr h0) (fun h => h1 ((hcondLast t).mp h)) (iblk V c 0 t) (iblk V c 1 t)).2 Set.univ _)
        isplitl [H0]; · iexact H0
        isplitl [H1]; · iexact H1
        isplitl [HS]; · iexists _; iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (scoverFirst c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · have hz : t.val ≠ 0 := fun e => h0 (by rw [e])
    by_cases h1 : t.val % 8 = 7
    · rw [show (dat V c).leavesExact 6 t = owns (c : Thread nD τ) (ms6 t) fullShare ((dat V c).after 6 t) from by
        unfold Dat.leavesExact; rw [liveAt6 t ((hcondLast t).mpr h1)], after6]
      rw [outsAt_last V c t h0 h1]
      unfold outLast soutLast; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((hcondFirst t).mp h)) ((hcondLast t).mpr h1) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hr Hg]
      · isplitl [HS Hr]
        · isplitl [HS]
          · unfold owns; iexists _; isplitr
            swap; · iexact HS
            ipureintro; exact View.read_writes_of_cover _ _ _ _ _ (scoverLast c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLast6 c _ _ _ _ _ _ _ _ _ _ _ _ _ _ _ _ _ _ _ _ _ _ _ _ _ _)
    · rw [Dat.leavesExact_idle (dat V c) 6 t (idleAt6 t (fun h => h1 ((hcondLast t).mp h))) (noFlush6 t (fun h => h1 ((hcondLast t).mp h)))]
      rw [outsAt_mid V c t h0 h1]
      unfold soutMid; (try dsimp only)
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, H6⟩
      iapply ((runMid c (grid1.coords t) _ _ _ _ _ _ _ _ _ _ _ _ _ _ _ _ (fun h => h0 ((hcondFirst t).mp h)) (fun h => h1 ((hcondLast t).mp h)) (iblk V c 0 t) (iblk V c 1 t) _).2 Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (scoverMid c _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : Pipeline.BodyObligation (dat (F := F) V c) (defs₀ (F := F)) Variants.none () Set.univ := fun t => by
  rw [bigSep_W1, bigSep_W1]
  exact sound_body V c t

/-- What the launch hands the call is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives it back: the scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.KernelIdeal.R1

end
-- ==== Proof.KI.Halves.lean ====
/-
  The two kernel regions' records, from their pipelines' proof data: the arrays are the entry contents, every share is
  full, the body signals no one (nothing owed, no recorded pair constrained), the body obligation holds at every grid
  point, and the invariant — the class's scoped rest before the first point, the carried accumulators at their running
  sums afterwards — is entered from and gives back the scoped rest.
-/
import proofs.«181743_j4071628997276_2_alg».proof.Proof.KI.Whole
import proofs.«181743_j4071628997276_2_alg».proof.Proof.KI.R0Body
import proofs.«181743_j4071628997276_2_alg».proof.Proof.KI.R1Body

noncomputable section

namespace Cert.KernelIdeal.Whole

open Cert.KernelIdeal Cert.KernelIdeal.Gen Idealize.ShloMosaic Idealize.SL.Sem

variable {F : FTy → Type} [FloatOps F]

/-- The first region (the interaction and the first layer). -/
def half0 : Half0 F where
  dat := Cert.KernelIdeal.R0.dat
  arrays := Cert.KernelIdeal.R0.A_eq
  shares := fun _ _ _ => rfl
  owes_nothing := fun _ _ _ => rfl
  records_all := fun _ _ _ => rfl
  body := Cert.KernelIdeal.R0.body_obligation
  enter := Cert.KernelIdeal.R0.hin
  leave := Cert.KernelIdeal.R0.hout

/-- The second region (the linear branch, the second layer, the biases). -/
def half1 : Half1 F where
  dat := Cert.KernelIdeal.R1.dat
  arrays := Cert.KernelIdeal.R1.A_eq
  shares := fun _ _ _ => rfl
  owes_nothing := fun _ _ _ => rfl
  records_all := fun _ _ _ => rfl
  body := Cert.KernelIdeal.R1.body_obligation
  enter := Cert.KernelIdeal.R1.hin
  leave := Cert.KernelIdeal.R1.hout

end Cert.KernelIdeal.Whole

end
-- ==== Proof.KI.R0Spec.lean ====
/- The value of the first region, as a function of its four input arrays: the two running sums over the contracted
   axis (the sum of the products, and the sum of the products of the squares), the pairwise interaction they give,
   and the first dense layer applied to it. Every float is an extended real, every operation the exact one; the sums
   over the contracted axis of extent 16384 are written as the 16 blocks of 1024 they are accumulated in. -/
import Idealize.ShloMosaic.PureOps.Ideal
import Idealize.ShloMosaic.PureOps.Ideal.Laws
import Idealize.ShloMosaic.Lib.ValueIdx

noncomputable section

namespace Cert.KI.R0Spec

open Idealize.ShloMosaic Idealize.ShloMosaic.ValueIdx

/-- Position `j` of block `s` of the contracted axis: `1024 * s + j`. -/
def at16 (s : Fin 16) (j : Fin 1024) : Fin 16384 := ⟨1024 * s.val + j.val, by omega⟩

/-- The sum over the contracted axis of the products of the two factors, at row `r` and column `q`, block by block. -/
def sumProd (x : (⟨2, ![1024, 16384]⟩ : Shape).Idx → EReal) (e : (⟨2, ![16384, 512]⟩ : Shape).Idx → EReal)
    (r : Fin 1024) (q : Fin 512) : EReal :=
  ∑ s : Fin 16, ∑ j : Fin 1024, x (ix2 r (at16 s j)) * e (ix2 (at16 s j) q)

/-- The same sum of the products of the factors' squares. -/
def sumSq (x : (⟨2, ![1024, 16384]⟩ : Shape).Idx → EReal) (e : (⟨2, ![16384, 512]⟩ : Shape).Idx → EReal)
    (r : Fin 1024) (q : Fin 512) : EReal :=
  ∑ s : Fin 16, ∑ j : Fin 1024, (x (ix2 r (at16 s j)) * x (ix2 r (at16 s j))) * (e (ix2 (at16 s j) q) * e (ix2 (at16 s j) q))

/-- The pairwise interaction: half of the square of the sum less the sum of the squares. -/
def inter (x : (⟨2, ![1024, 16384]⟩ : Shape).Idx → EReal) (e : (⟨2, ![16384, 512]⟩ : Shape).Idx → EReal)
    (r : Fin 1024) (k : Fin 512) : EReal :=
  Ideal.ofBits .f32 0x3F000000#32 * (sumProd x e r k * sumProd x e r k - sumSq x e r k)

/-- The region's output at row `r`, column `q`: the interaction's row `r` against row `q` of the weights, plus the
    bias at `q`, clamped below at zero. -/
def Hat (x : (⟨2, ![1024, 16384]⟩ : Shape).Idx → EReal) (e : (⟨2, ![16384, 512]⟩ : Shape).Idx → EReal)
    (w : (⟨2, ![512, 512]⟩ : Shape).Idx → EReal) (b : (⟨1, ![512]⟩ : Shape).Idx → EReal)
    (r : Fin 1024) (q : Fin 512) : EReal :=
  max ((∑ k : Fin 512, inter x e r k * w (ix2 q k)) + b (ix1 q)) (Ideal.ofBits .f32 0x00000000#32)

/-- The region's output array. -/
def H (x : (⟨2, ![1024, 16384]⟩ : Shape).Idx → EReal) (e : (⟨2, ![16384, 512]⟩ : Shape).Idx → EReal)
    (w : (⟨2, ![512, 512]⟩ : Shape).Idx → EReal) (b : (⟨1, ![512]⟩ : Shape).Idx → EReal) :
    (⟨2, ![1024, 512]⟩ : Shape).Idx → EReal :=
  fun i => Hat x e w b (i 0) (i 1)

theorem H_ix2 (x : (⟨2, ![1024, 16384]⟩ : Shape).Idx → EReal) (e : (⟨2, ![16384, 512]⟩ : Shape).Idx → EReal)
    (w : (⟨2, ![512, 512]⟩ : Shape).Idx → EReal) (b : (⟨1, ![512]⟩ : Shape).Idx → EReal) (r : Fin 1024) (q : Fin 512) :
    H x e w b (ix2 r q) = Hat x e w b r q := rfl

end Cert.KI.R0Spec

end
-- ==== Proof.KI.R0Value.lean ====
/- The value of the first region at the exact (extended real) floats: what each control case leaves in the two running
   sums and in the output block as the skeleton's payloads of the loads; each payload read at an index; the running
   sums after every point as sums over the blocks seen so far; the output block at a last step; and the region's
   result array. -/
import proofs.«181743_j4071628997276_2_alg».proof.Proof.KI.R0Body
import proofs.«181743_j4071628997276_2_alg».proof.Proof.KI.R0Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Pieces

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A first step leaves in the running sum of the products the block's product added onto the zeros it has just stored. -/
theorem soutS_First_eq (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) :
    soutS_First c i arg2 harg2 arg3 harg3 arg4 harg4 arg5 harg5 arg6 harg6 arg7 harg7 arg8 harg8 hc0 hc1 x0 x1 x2 x3 = k0_pay3 x0 x1 (k0_pay1 (F := F)) := by
  unfold soutS_First
  rw [View.read_writes_eq_canon _ _ _ (scoverS_First c i arg2 harg2 arg3 harg3 arg4 harg4 arg5 harg5 arg6 harg6 arg7 harg7 arg8 harg8 hc0 hc1 x0 x1 x2 x3)]
  unfold runFirst
  dsimp only
  try sl_unfold_words
  rw [View.canon_cons_unit_zero (S := S512x512) hz2, View.readCov_unit_zero (S := S512x512) _ hz2]
  simp only [View.readAt_eq_ld, harg2.read_unread, harg3.read_unread, View.ld_unit_zero (S := S512x1024) hz2, View.ld_unit_zero (S := S1024x512) hz2, View.ld_unit_zero (S := S512x512) hz2]

/-- And in the running sum of the products of the squares likewise. -/
theorem soutQ_First_eq (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : atFirst i) (hc1 : ¬atLast i)
    (x0 : Vec F S512x1024 .f32) (x1 : Vec F S1024x512 .f32) (x2 : Vec F S512x512 .bf16) (x3 : Vec F S512 .f32) :
    soutQ_First c i arg2 harg2 arg3 harg3 arg4 harg4 arg5 harg5 arg6 harg6 arg7 harg7 arg8 harg8 hc0 hc1 x0 x1 x2 x3 = k0_pay4 x0 x1 (k0_pay2 (F := F)) := by
  unfold soutQ_First
  rw [View.read_writes_eq_canon _ _ _ (scoverQ_First c i arg2 harg2 arg3 harg3 arg4 harg4 arg5 harg5 arg6 harg6 arg7 harg7 arg8 harg8 hc0 hc1 x0 x1 x2 x3)]
  unfold runFirst
  dsimp only
  try sl_unfold_words
  rw [View.canon_cons_unit_zero (S := S512x512) hz2, View.readCov_unit_zero (S := S512x512) _ hz2]
  simp only [View.readAt_eq_ld, harg2.read_unread, harg3.read_unread, View.ld_unit_zero (S := S512x1024) hz2, View.ld_unit_zero (S := S1024x512) hz2, View.ld_unit_zero (S := S512x512) hz2]

/-- A middle step leaves in the running sum of the products the block's product added onto what the sum held. -/
theorem soutS_Mid_eq (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) :
    soutS_Mid c i arg2 harg2 arg3 harg3 arg4 harg4 arg5 harg5 arg6 harg6 arg7 harg7 arg8 harg8 hc0 hc1 x0 x1 x2 x3 xs xq = k0_pay3 x0 x1 xs := by
  unfold soutS_Mid
  rw [View.read_writes_eq_canon _ _ _ (scoverS_Mid c i arg2 harg2 arg3 harg3 arg4 harg4 arg5 harg5 arg6 harg6 arg7 harg7 arg8 harg8 hc0 hc1 x0 x1 x2 x3 xs xq)]
  unfold runMid
  dsimp only
  try sl_unfold_words
  rw [View.canon_unit_zero hz2]
  simp only [View.readAt_eq_ld, harg2.read_unread, harg3.read_unread, harg7.read_unread, View.ld_unit_zero (S := S512x1024) hz2, View.ld_unit_zero (S := S1024x512) hz2, View.ld_unit_zero (S := S512x512) hz2]

/-- And in the running sum of the products of the squares likewise. -/
theorem soutQ_Mid_eq (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : ¬atLast i)
    (x0 : Vec F S512x1024 .f32) (x1 : Vec F S1024x512 .f32) (x2 : Vec F S512x512 .bf16) (x3 : Vec F S512 .f32) (xs : Vec F S512x512 .f32) (xq : Vec F S512x512 .f32) :
    soutQ_Mid c i arg2 harg2 arg3 harg3 arg4 harg4 arg5 harg5 arg6 harg6 arg7 harg7 arg8 harg8 hc0 hc1 x0 x1 x2 x3 xs xq = k0_pay4 x0 x1 xq := by
  unfold soutQ_Mid
  rw [View.read_writes_eq_canon _ _ _ (scoverQ_Mid c i arg2 harg2 arg3 harg3 arg4 harg4 arg5 harg5 arg6 harg6 arg7 harg7 arg8 harg8 hc0 hc1 x0 x1 x2 x3 xs xq)]
  unfold runMid
  dsimp only
  try sl_unfold_words
  rw [View.canon_unit_zero hz2]
  simp only [View.readAt_eq_ld, harg2.read_unread, harg3.read_unread, harg8.read_unread, View.ld_unit_zero (S := S512x1024) hz2, View.ld_unit_zero (S := S1024x512) hz2, View.ld_unit_zero (S := S512x512) hz2]

/-- A last step adds onto the running sum of the products as a middle step does, -/
theorem soutS_Last_eq (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) :
    soutS_Last c i arg2 harg2 arg3 harg3 arg4 harg4 arg5 harg5 arg6 harg6 arg7 harg7 arg8 harg8 hc0 hc1 x0 x1 x2 x3 xs xq = k0_pay3 x0 x1 xs := by
  unfold soutS_Last
  rw [View.read_writes_eq_canon _ _ _ (scoverS_Last c i arg2 harg2 arg3 harg3 arg4 harg4 arg5 harg5 arg6 harg6 arg7 harg7 arg8 harg8 hc0 hc1 x0 x1 x2 x3 xs xq)]
  unfold runLast
  dsimp only
  try sl_unfold_words
  rw [View.canon_unit_zero hz2]
  simp only [View.readAt_eq_ld, harg2.read_unread, harg3.read_unread, harg7.read_unread, View.ld_unit_zero (S := S512x1024) hz2, View.ld_unit_zero (S := S1024x512) hz2, View.ld_unit_zero (S := S512x512) hz2]

/-- and onto the running sum of the products of the squares, -/
theorem soutQ_Last_eq (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) :
    soutQ_Last c i arg2 harg2 arg3 harg3 arg4 harg4 arg5 harg5 arg6 harg6 arg7 harg7 arg8 harg8 hc0 hc1 x0 x1 x2 x3 xs xq = k0_pay4 x0 x1 xq := by
  unfold soutQ_Last
  rw [View.read_writes_eq_canon _ _ _ (scoverQ_Last c i arg2 harg2 arg3 harg3 arg4 harg4 arg5 harg5 arg6 harg6 arg7 harg7 arg8 harg8 hc0 hc1 x0 x1 x2 x3 xs xq)]
  unfold runLast
  dsimp only
  try sl_unfold_words
  rw [View.canon_unit_zero hz2]
  simp only [View.readAt_eq_ld, harg2.read_unread, harg3.read_unread, harg8.read_unread, View.ld_unit_zero (S := S512x1024) hz2, View.ld_unit_zero (S := S1024x512) hz2, View.ld_unit_zero (S := S512x512) hz2]

/-- and then stores the output block: the dense layer's payload of the two sums it has just completed, the weights and the bias. -/
theorem out4_Last_eq (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (hc0 : ¬atFirst i) (hc1 : atLast i)
    (x0 : Vec F S512x1024 .f32) (x1 : Vec F S1024x512 .f32) (x2 : Vec F S512x512 .bf16) (x3 : Vec F S512 .f32) (xs : Vec F S512x512 .f32) (xq : Vec F S512x512 .f32) :
    out4_Last c i arg2 harg2 arg3 harg3 arg4 harg4 arg5 harg5 arg6 harg6 arg7 harg7 arg8 harg8 hc0 hc1 x0 x1 x2 x3 xs xq = k0_pay5 (k0_pay3 x0 x1 xs) (k0_pay4 x0 x1 xq) x2 x3 := by
  unfold out4_Last
  rw [View.read_writes_eq_canon _ _ _ (cover4_Last c i arg2 harg2 arg3 harg3 arg4 harg4 arg5 harg5 arg6 harg6 arg7 harg7 arg8 harg8 hc0 hc1 x0 x1 x2 x3 xs xq)]
  unfold runLast
  dsimp only
  try sl_unfold_words
  rw [View.canon_unit_zero hz2, View.readCov_unit_zero (S := S512x512) _ hz2, View.readCov_unit_zero (S := S512x512) _ hz2]
  simp only [View.readAt_eq_ld, harg2.read_unread, harg3.read_unread, harg4.read_unread, harg5.read_unread, harg7.read_unread, harg8.read_unread, View.ld_unit_zero (S := S512x1024) hz2, View.ld_unit_zero (S := S1024x512) hz2, View.ld_unit_zero (S := S512x512) hz2, View.ld_unit_zero (S := S512) hz1]

/-! ## The running sums at a point, as payloads of the point's blocks -/

variable (V : (c : Dev nD) → (b : Ref sig .tc) → Buf (Elt F) ((c : Thread nD τ).loc b))

set_option maxHeartbeats 4000000 in
/-- After a first step the two running sums are the block's products added onto zeros. -/
theorem sums_First (c : Dev nD) (t : Fin cfg0.N) (h0 : t.val % 16 = 0) (h1 : ¬t.val % 16 = 15) :
    (outsAt V c t.val t.isLt).2.1 = k0_pay3 (iblk V c 0 t) (iblk V c 1 t) (k0_pay1 (F := F))
    ∧ (outsAt V c t.val t.isLt).2.2 = k0_pay4 (iblk V c 0 t) (iblk V c 1 t) (k0_pay2 (F := F)) := by
  have e := outsAt_First V c t h0 h1
  have eS := soutS_First_eq c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t)
  have eQ := soutQ_First_eq c (grid0.coords t) (ms0 t) (hs0 t) (ms1 t) (hs1 t) (ms2 t) (hs2 t) (ms3 t) (hs3 t) (ms4 t) (hs4 t) scS (Memref.isWhole_whole _) scQ (Memref.isWhole_whole _) ((atFirst_iff t).mpr h0) (fun h => h1 ((atLast_iff t).mp h)) (iblk V c 0 t) (iblk V c 1 t) (iblk V c 2 t) (iblk V c 3 t)
  exact ⟨(congrArg (fun p : Vec F S512x512 .f32 × Vec F S512x512 .f32 × Vec F S512x512 .f32 => p.2.1) e).trans eS, (congrArg (fun p : Vec F S512x512 .f32 × Vec F S512x512 .f32 × Vec F S512x512 .f32 => p.2.2) e).trans eQ⟩

set_option maxHeartbeats 4000000 in
/-- After a middle step they are the block's products added onto what the step before left. -/
theorem sums_Mid (c : Dev nD) (t : Fin cfg0.N) (h0 : ¬t.val % 16 = 0) (h1 : ¬t.val % 16 = 15) :
    (outsAt V c t.val t.isLt).2.1 = k0_pay3 (iblk V c 0 t) (iblk V c 1 t) (outsAt V c (t.val - 1) (Nat.lt_of_le_of_lt (Nat.sub_le _ _) t.isLt)).2.1
    ∧ (outsAt V c t.val t.isLt).2.2 = k0_pay4 (iblk V c 0 t) (iblk V c 1 t) (outsAt V c (t.val - 1) (Nat.lt_of_le_of_lt (Nat.sub_le _ _) t.isLt)).2.2 := by
  have e := outsAt_Mid V c t h0 h1
  have eS := soutS_Mid_eq c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2
  have eQ := soutQ_Mid_eq c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) (fun h => h1 ((atLast_iff t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2
  exact ⟨(congrArg (fun p : Vec F S512x512 .f32 × Vec F S512x512 .f32 × Vec F S512x512 .f32 => p.2.1) e).trans eS, (congrArg (fun p : Vec F S512x512 .f32 × Vec F S512x512 .f32 × Vec F S512x512 .f32 => p.2.2) e).trans eQ⟩

set_option maxHeartbeats 4000000 in
/-- After a last step likewise, and the output block is the dense layer's payload of the two completed sums. -/
theorem sums_Last (c : Dev nD) (t : Fin cfg0.N) (h0 : ¬t.val % 16 = 0) (h1 : t.val % 16 = 15) :
    (outsAt V c t.val t.isLt).2.1 = k0_pay3 (iblk V c 0 t) (iblk V c 1 t) (outsAt V c (t.val - 1) (Nat.lt_of_le_of_lt (Nat.sub_le _ _) t.isLt)).2.1
    ∧ (outsAt V c t.val t.isLt).2.2 = k0_pay4 (iblk V c 0 t) (iblk V c 1 t) (outsAt V c (t.val - 1) (Nat.lt_of_le_of_lt (Nat.sub_le _ _) t.isLt)).2.2
    ∧ (outsAt V c t.val t.isLt).1 = k0_pay5 (outsAt V c t.val t.isLt).2.1 (outsAt V c t.val t.isLt).2.2 (iblk V c 2 t) (iblk V c 3 t) := by
  have e := outsAt_Last V c t h0 h1
  have eS' := soutS_Last_eq c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2
  have eQ' := soutQ_Last_eq c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2
  have eO' := out4_Last_eq c (grid0.coords t) (ms0 t) (hs0 t) (ms1 t) (hs1 t) (ms2 t) (hs2 t) (ms3 t) (hs3 t) (ms4 t) (hs4 t) scS (Memref.isWhole_whole _) scQ (Memref.isWhole_whole _) (fun h => h0 ((atFirst_iff t).mp h)) ((atLast_iff t).mpr h1) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2
  have eS := (congrArg (fun p : Vec F S512x512 .f32 × Vec F S512x512 .f32 × Vec F S512x512 .f32 => p.2.1) e).trans eS'
  have eQ := (congrArg (fun p : Vec F S512x512 .f32 × Vec F S512x512 .f32 × Vec F S512x512 .f32 => p.2.2) e).trans eQ'
  have eO := (congrArg (fun p : Vec F S512x512 .f32 × Vec F S512x512 .f32 × Vec F S512x512 .f32 => p.1) e).trans eO'
  exact ⟨eS, eQ, eO.trans (congrArg₂ (fun a b => k0_pay5 a b (iblk V c 2 t) (iblk V c 3 t)) eS.symm eQ.symm)⟩

/-- At any step but a first one: the block's products added onto what the step before left. -/
theorem sums_step (c : Dev nD) (t : Fin cfg0.N) (h0 : ¬t.val % 16 = 0) :
    (outsAt V c t.val t.isLt).2.1 = k0_pay3 (iblk V c 0 t) (iblk V c 1 t) (outsAt V c (t.val - 1) (Nat.lt_of_le_of_lt (Nat.sub_le _ _) t.isLt)).2.1
    ∧ (outsAt V c t.val t.isLt).2.2 = k0_pay4 (iblk V c 0 t) (iblk V c 1 t) (outsAt V c (t.val - 1) (Nat.lt_of_le_of_lt (Nat.sub_le _ _) t.isLt)).2.2 := by
  by_cases h1 : t.val % 16 = 15
  · exact ⟨(sums_Last V c t h0 h1).1, (sums_Last V c t h0 h1).2.1⟩
  · exact sums_Mid V c t h0 h1

/-! ## Where the windows' blocks sit in their arrays

Point `t` is row block `t / 16`, step `t % 16` along the contracted axis; each index map decided over the grid once. -/

theorem idx0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 :=
  (by decide +kernel : ∀ t : Fin grid0.N, win0_3.index t 0 = 0)
theorem idx4 : ∀ t : Fin cfg0.N, win0_4.index t 0 = t.val / 16 ∧ win0_4.index t 1 = 0 :=
  (by decide +kernel : ∀ t : Fin grid0.N, win0_4.index t 0 = t.val / 16 ∧ win0_4.index t 1 = 0)
theorem xsize4 : ∀ t : Fin cfg0.N, win0_4.xsize (grid0.coords t) 0 = 512 ∧ win0_4.xsize (grid0.coords t) 1 = 512 :=
  (by decide +kernel : ∀ t : Fin grid0.N, win0_4.xsize (grid0.coords t) 0 = 512 ∧ win0_4.xsize (grid0.coords t) 1 = 512)

/-- Entry `(r, j)` of the first factor's block at `t` is entry `(512 (t / 16) + r, 1024 (t % 16) + j)` of the array. -/
theorem iblk0_apply (c : Dev nD) (t : Fin cfg0.N) (r : Fin 512) (j : Fin 1024) (R : Fin 1024) (J : Fin 16384)
    (hR : R.val = 512 * (t.val / 16) + r.val) (hJ : J.val = 1024 * (t.val % 16) + j.val) :
    (iblk V c 0 t : Vec F S512x1024 .f32) (ix2 r j) = (V c main_arg0 : S1024x16384.Idx → Elt F .f32) (ix2 R J) := by
  unfold iblk
  rw [View.read_apply]
  show V c main_arg0 _ = V c main_arg0 _
  congr 1
  funext a
  apply Fin.ext
  match a with
  | ⟨0, _⟩ => show win0_0.index t 0 * 512 + 1 * r.val = R.val; rw [(idx0 t).1, hR]; omega
  | ⟨1, _⟩ => show win0_0.index t 1 * 1024 + 1 * j.val = J.val; rw [(idx0 t).2, hJ]; omega

/-- Entry `(j, q)` of the second factor's block at `t` is entry `(1024 (t % 16) + j, q)` of the array. -/
theorem iblk1_apply (c : Dev nD) (t : Fin cfg0.N) (j : Fin 1024) (q : Fin 512) (J : Fin 16384)
    (hJ : J.val = 1024 * (t.val % 16) + j.val) :
    (iblk V c 1 t : Vec F S1024x512 .f32) (ix2 j q) = (V c main_arg1 : S16384x512.Idx → Elt F .f32) (ix2 J q) := by
  unfold iblk
  rw [View.read_apply]
  show V c main_arg1 _ = V c main_arg1 _
  congr 1
  funext a
  apply Fin.ext
  match a with
  | ⟨0, _⟩ => show win0_1.index t 0 * 1024 + 1 * j.val = J.val; rw [(idx1 t).1, hJ]; omega
  | ⟨1, _⟩ => show win0_1.index t 1 * 512 + 1 * q.val = q.val; rw [(idx1 t).2]; omega

/-- The weights' block is the whole array at every point. -/
theorem iblk2_apply (c : Dev nD) (t : Fin cfg0.N) (q k : Fin 512) :
    (iblk V c 2 t : Vec F S512x512 .bf16) (ix2 q k) = (V c main_v0 : S512x512.Idx → Elt F .bf16) (ix2 q k) := by
  unfold iblk
  rw [View.read_apply]
  show V c main_v0 _ = V c main_v0 _
  congr 1
  funext a
  apply Fin.ext
  match a with
  | ⟨0, _⟩ => show win0_2.index t 0 * 512 + 1 * q.val = q.val; rw [(idx2 t).1]; omega
  | ⟨1, _⟩ => show win0_2.index t 1 * 512 + 1 * k.val = k.val; rw [(idx2 t).2]; omega

/-- The bias' block is the whole array at every point. -/
theorem iblk3_apply (c : Dev nD) (t : Fin cfg0.N) (q : Fin 512) :
    (iblk V c 3 t : Vec F S512 .f32) (ix1 q) = (V c main_arg5 : S512.Idx → Elt F .f32) (ix1 q) := by
  unfold iblk
  rw [View.read_apply]
  show V c main_arg5 _ = V c main_arg5 _
  congr 1
  funext a
  apply Fin.ext
  match a with
  | ⟨0, _⟩ => show win0_3.index t 0 * 512 + 1 * q.val = q.val; rw [idx3 t]; omega

/-- Entry `(r, q)` of the output's block at `t`, read off an array `G`, is entry `(512 (t / 16) + r, q)` of `G`. -/
theorem blk4_apply (c : Dev nD) (G : S1024x512.Idx → Elt F .f32) (t : Fin cfg0.N) (r q : Fin 512) (R : Fin 1024)
    (hR : R.val = 512 * (t.val / 16) + r.val) :
    (((cfg0.win 4).blk t).view.read (Elt F) (G : Buf (Elt F) ((c : Thread nD τ).loc main_v2)) : Vec F S512x512 .f32) (ix2 r q) = G (ix2 R q) := by
  rw [View.read_apply]
  show G _ = G _
  congr 1
  funext a
  apply Fin.ext
  match a with
  | ⟨0, _⟩ => show win0_4.index t 0 * 512 + 1 * r.val = R.val; rw [(idx4 t).1, hR]; omega
  | ⟨1, _⟩ => show win0_4.index t 1 * 512 + 1 * q.val = q.val; rw [(idx4 t).2]; omega

end Pieces

/-! ## The payloads read at an index, at the exact floats

A change of float format is the identity, `+`, `*`, `-`, `max` are the extended reals', and a product into a zero
accumulator is the sum over the contracted coordinate. -/

section Payloads

/-- The product of a [512,1024] by a [1024,512] matrix (the left's columns against the right's rows) at `(r, q)`. -/
theorem mm10_apply (A : FVec Ideal S512x1024 .bf16) (B : FVec Ideal S1024x512 .bf16) (r q : Fin 512) :
    matmul dot_S512x1024_S1024x512_S512x512_1_0_0_1_n_n none A B (constant S512x512 .f32 0x00000000#32) (ix2 r q)
      = ∑ j : Fin 1024, A (ix2 r j) * B (ix2 j q) := by
  refine (Ideal.matmul_constant_zero_apply dot_S512x1024_S1024x512_S512x512_1_0_0_1_n_n none A B (ix2 r q)).trans ?_
  rw [← Equiv.sum_comp (contrEquiv1 dot_S512x1024_S1024x512_S512x512_1_0_0_1_n_n 1024 rfl rfl).symm]
  refine Finset.sum_congr rfl fun k _ => ?_
  have c2 := contrEquiv1_symm_val dot_S512x1024_S1024x512_S512x512_1_0_0_1_n_n 1024 rfl rfl k
  have hl : dot_S512x1024_S1024x512_S512x512_1_0_0_1_n_n.lhsIdx (ix2 r q) ((contrEquiv1 _ 1024 rfl rfl).symm k) = ix2 r k := by
    funext ax; apply Fin.ext
    match ax with
    | ⟨0, _⟩ => simp [DotDims.lhsIdx, dot_S512x1024_S1024x512_S512x512_1_0_0_1_n_n]; rfl
    | ⟨1, _⟩ => exact (DotDims.lhsIdx_val_of_single _ rfl _ _).trans c2
  have hr : dot_S512x1024_S1024x512_S512x512_1_0_0_1_n_n.rhsIdx (ix2 r q) ((contrEquiv1 _ 1024 rfl rfl).symm k) = ix2 k q := by
    funext ax; apply Fin.ext
    match ax with
    | ⟨0, _⟩ => exact (DotDims.rhsIdx_val_of_single _ rfl _ _).trans c2
    | ⟨1, _⟩ => simp [DotDims.rhsIdx, dot_S512x1024_S1024x512_S512x512_1_0_0_1_n_n]; rfl
  rw [hl, hr]

/-- The product of two [512,512] matrices contracting the LAST axis of both (the left's columns against the right's
    columns) at `(r, q)`. -/
theorem mm11_apply (A : FVec Ideal S512x512 .bf16) (B : FVec Ideal S512x512 .bf16) (r q : Fin 512) :
    matmul dot_S512x512_S512x512_S512x512_1_1_0_0_n_n none A B (constant S512x512 .f32 0x00000000#32) (ix2 r q)
      = ∑ k : Fin 512, A (ix2 r k) * B (ix2 q k) := by
  refine (Ideal.matmul_constant_zero_apply dot_S512x512_S512x512_S512x512_1_1_0_0_n_n none A B (ix2 r q)).trans ?_
  rw [← Equiv.sum_comp (contrEquiv1 dot_S512x512_S512x512_S512x512_1_1_0_0_n_n 512 rfl rfl).symm]
  refine Finset.sum_congr rfl fun k _ => ?_
  have c2 := contrEquiv1_symm_val dot_S512x512_S512x512_S512x512_1_1_0_0_n_n 512 rfl rfl k
  have hl : dot_S512x512_S512x512_S512x512_1_1_0_0_n_n.lhsIdx (ix2 r q) ((contrEquiv1 _ 512 rfl rfl).symm k) = ix2 r k := by
    funext ax; apply Fin.ext
    match ax with
    | ⟨0, _⟩ => simp [DotDims.lhsIdx, dot_S512x512_S512x512_S512x512_1_1_0_0_n_n]; rfl
    | ⟨1, _⟩ => exact (DotDims.lhsIdx_val_of_single _ rfl _ _).trans c2
  have hr : dot_S512x512_S512x512_S512x512_1_1_0_0_n_n.rhsIdx (ix2 r q) ((contrEquiv1 _ 512 rfl rfl).symm k) = ix2 q k := by
    funext ax; apply Fin.ext
    match ax with
    | ⟨0, _⟩ => simp [DotDims.rhsIdx, dot_S512x512_S512x512_S512x512_1_1_0_0_n_n]; rfl
    | ⟨1, _⟩ => exact (DotDims.rhsIdx_val_of_single _ rfl _ _).trans c2
  rw [hl, hr]

/-- The zeros a first step stores: the extended real `0` everywhere. -/
theorem pay1_apply (r q : Fin 512) : k0_pay1 (F := Ideal) (ix2 r q) = 0 := by
  unfold k0_pay1
  refine (congrFun (shapeCast_self _ _) (ix2 r q)).trans ?_
  exact Ideal.ofBits_zero_f32
theorem pay2_apply (r q : Fin 512) : k0_pay2 (F := Ideal) (ix2 r q) = 0 := by
  unfold k0_pay2
  refine (congrFun (shapeCast_self _ _) (ix2 r q)).trans ?_
  exact Ideal.ofBits_zero_f32

/-- The running sum of the products after a step: what it held plus the block's product at `(r, q)`. -/
theorem pay3_apply (v3 : Vec Ideal S512x1024 .f32) (v4 : Vec Ideal S1024x512 .f32) (v7 : Vec Ideal S512x512 .f32) (r q : Fin 512) :
    k0_pay3 v3 v4 v7 (ix2 r q) = v7 (ix2 r q) + ∑ j : Fin 1024, v3 (ix2 r j) * v4 (ix2 j q) := by
  unfold k0_pay3
  refine (congrFun (shapeCast_self _ _) (ix2 r q)).trans ?_
  refine congrArg (v7 (ix2 r q) + ·) ?_
  exact (mm10_apply _ _ r q).trans (Finset.sum_congr rfl fun j _ => rfl)

/-- The running sum of the products of the squares after a step. -/
theorem pay4_apply (v3 : Vec Ideal S512x1024 .f32) (v4 : Vec Ideal S1024x512 .f32) (v17 : Vec Ideal S512x512 .f32) (r q : Fin 512) :
    k0_pay4 v3 v4 v17 (ix2 r q) = v17 (ix2 r q) + ∑ j : Fin 1024, (v3 (ix2 r j) * v3 (ix2 r j)) * (v4 (ix2 j q) * v4 (ix2 j q)) := by
  unfold k0_pay4
  refine (congrFun (shapeCast_self _ _) (ix2 r q)).trans ?_
  refine congrArg (v17 (ix2 r q) + ·) ?_
  exact (mm10_apply _ _ r q).trans (Finset.sum_congr rfl fun j _ => rfl)

/-- The output block at `(r, q)`: the interaction's row `r` against row `q` of the weights, plus the bias at `q`,
    clamped below at zero. -/
theorem pay5_apply (v26 v27 : Vec Ideal S512x512 .f32) (v33 : Vec Ideal S512x512 .bf16) (v36 : Vec Ideal S512 .f32) (r q : Fin 512) :
    k0_pay5 v26 v27 v33 v36 (ix2 r q)
      = max ((∑ k : Fin 512, (Ideal.ofBits .f32 0x3F000000#32 * (v26 (ix2 r k) * v26 (ix2 r k) - v27 (ix2 r k))) * v33 (ix2 q k)) + v36 (ix1 q))
          (Ideal.ofBits .f32 0x00000000#32) := by
  unfold k0_pay5
  refine congrArg (max · (Ideal.ofBits .f32 0x00000000#32)) ?_
  refine congrArg₂ (· + ·) ?_ ?_
  · refine (mm11_apply _ _ r q).trans (Finset.sum_congr rfl fun k _ => ?_)
    exact congrArg (HMul.hMul (Ideal.ofBits .f32 0x3F000000#32 * (v26 (ix2 r k) * v26 (ix2 r k) - v27 (ix2 r k)))) (congrFun (shapeCast_self v33 _) (ix2 q k))
  · refine (broadcastTo_1b_ab_apply _ _ r q).trans ?_
    exact shapeCast_a_1a_apply v36 _ 0 q

/-! ## The running sums as sums over the blocks seen so far -/

open Cert.KI.R0Spec (at16 sumProd sumSq inter Hat H)

/-- The sum of the products over block `s` of the contracted axis (`0` past the 16 blocks). -/
def blockS (x : S1024x16384.Idx → EReal) (e : S16384x512.Idx → EReal) (R : Fin 1024) (q : Fin 512) (s : ℕ) : EReal :=
  if h : s < 16 then ∑ j : Fin 1024, x (ix2 R (at16 ⟨s, h⟩ j)) * e (ix2 (at16 ⟨s, h⟩ j) q) else 0
/-- The sum of the products of the squares over block `s`. -/
def blockQ (x : S1024x16384.Idx → EReal) (e : S16384x512.Idx → EReal) (R : Fin 1024) (q : Fin 512) (s : ℕ) : EReal :=
  if h : s < 16 then ∑ j : Fin 1024, (x (ix2 R (at16 ⟨s, h⟩ j)) * x (ix2 R (at16 ⟨s, h⟩ j))) * (e (ix2 (at16 ⟨s, h⟩ j) q) * e (ix2 (at16 ⟨s, h⟩ j) q)) else 0

/-- All 16 blocks: the whole sum over the contracted axis. -/
theorem sum_blockS (x : S1024x16384.Idx → EReal) (e : S16384x512.Idx → EReal) (R : Fin 1024) (q : Fin 512) :
    ∑ s ∈ Finset.range 16, blockS x e R q s = sumProd x e R q := by
  unfold sumProd
  rw [← Fin.sum_univ_eq_sum_range (fun s => blockS x e R q s) 16]
  exact Finset.sum_congr rfl fun s _ => by unfold blockS; rw [dif_pos s.isLt]
theorem sum_blockQ (x : S1024x16384.Idx → EReal) (e : S16384x512.Idx → EReal) (R : Fin 1024) (q : Fin 512) :
    ∑ s ∈ Finset.range 16, blockQ x e R q s = sumSq x e R q := by
  unfold sumSq
  rw [← Fin.sum_univ_eq_sum_range (fun s => blockQ x e R q s) 16]
  exact Finset.sum_congr rfl fun s _ => by unfold blockQ; rw [dif_pos s.isLt]

variable (V : (c : Dev nD) → (b : Ref sig .tc) → Buf (Elt Ideal) ((c : Thread nD τ).loc b))

/-- The row of the whole arrays that row `r` of the row block of point `n` is: `512 (n / 16) + r`. -/
def rowAt (n : ℕ) (hn : n < cfg0.N) (r : Fin 512) : Fin 1024 :=
  ⟨512 * (n / 16) + r.val, by have h : cfg0.N = 32 := N_0; omega⟩

/-- One step of the running sum of the products at point `n`: what it held plus block `n % 16`'s sum. -/
theorem stepS (c : Dev nD) (n : ℕ) (hn : n < cfg0.N) (P : Vec Ideal S512x512 .f32) (r q : Fin 512) :
    k0_pay3 (iblk V c 0 ⟨n, hn⟩) (iblk V c 1 ⟨n, hn⟩) P (ix2 r q)
      = P (ix2 r q) + blockS (V c main_arg0) (V c main_arg1) (rowAt n hn r) q (n % 16) := by
  refine (pay3_apply (iblk V c 0 ⟨n, hn⟩) (iblk V c 1 ⟨n, hn⟩) P r q).trans ?_
  refine congrArg (fun z : EReal => P (ix2 r q) + z) ?_
  unfold blockS
  rw [dif_pos (Nat.mod_lt n (by decide))]
  refine Finset.sum_congr rfl fun j _ => ?_
  exact congrArg₂ (fun a b : EReal => a * b)
    (iblk0_apply V c ⟨n, hn⟩ r j (rowAt n hn r) (at16 ⟨n % 16, Nat.mod_lt n (by decide)⟩ j) rfl rfl)
    (iblk1_apply V c ⟨n, hn⟩ j q (at16 ⟨n % 16, Nat.mod_lt n (by decide)⟩ j) rfl)

/-- One step of the running sum of the products of the squares. -/
theorem stepQ (c : Dev nD) (n : ℕ) (hn : n < cfg0.N) (P : Vec Ideal S512x512 .f32) (r q : Fin 512) :
    k0_pay4 (iblk V c 0 ⟨n, hn⟩) (iblk V c 1 ⟨n, hn⟩) P (ix2 r q)
      = P (ix2 r q) + blockQ (V c main_arg0) (V c main_arg1) (rowAt n hn r) q (n % 16) := by
  refine (pay4_apply (iblk V c 0 ⟨n, hn⟩) (iblk V c 1 ⟨n, hn⟩) P r q).trans ?_
  refine congrArg (fun z : EReal => P (ix2 r q) + z) ?_
  unfold blockQ
  rw [dif_pos (Nat.mod_lt n (by decide))]
  refine Finset.sum_congr rfl fun j _ => ?_
  have e0 := iblk0_apply V c ⟨n, hn⟩ r j (rowAt n hn r) (at16 ⟨n % 16, Nat.mod_lt n (by decide)⟩ j) rfl rfl
  have e1 := iblk1_apply V c ⟨n, hn⟩ j q (at16 ⟨n % 16, Nat.mod_lt n (by decide)⟩ j) rfl
  exact congrArg₂ (fun a b : EReal => a * b) (congrArg₂ (fun a b : EReal => a * b) e0 e0) (congrArg₂ (fun a b : EReal => a * b) e1 e1)

/-- THE INVARIANT. After point `n` (row block `n / 16`, step `n % 16`) each running sum holds, at `(r, q)`, the sum
    over blocks `0 … n % 16` of the contracted axis — by induction on the point: a first step starts from the zeros
    it stores (`0 + x = x`), any other step adds its block onto what the step before left, in the same row block. -/
theorem sums_at (c : Dev nD) : ∀ (n : ℕ) (hn : n < cfg0.N) (r q : Fin 512),
    (outsAt V c n hn).2.1 (ix2 r q) = ∑ s ∈ Finset.range (n % 16 + 1), blockS (V c main_arg0) (V c main_arg1) (rowAt n hn r) q s
    ∧ (outsAt V c n hn).2.2 (ix2 r q) = ∑ s ∈ Finset.range (n % 16 + 1), blockQ (V c main_arg0) (V c main_arg1) (rowAt n hn r) q s := by
  have hN : cfg0.N = 32 := N_0
  have first : ∀ (n : ℕ) (hn : n < cfg0.N), n % 16 = 0 → ∀ (r q : Fin 512),
      (outsAt V c n hn).2.1 (ix2 r q) = ∑ s ∈ Finset.range (n % 16 + 1), blockS (V c main_arg0) (V c main_arg1) (rowAt n hn r) q s
      ∧ (outsAt V c n hn).2.2 (ix2 r q) = ∑ s ∈ Finset.range (n % 16 + 1), blockQ (V c main_arg0) (V c main_arg1) (rowAt n hn r) q s := by
    intro n hn h0 r q
    obtain ⟨eS, eQ⟩ := sums_First V c ⟨n, hn⟩ h0 (by show ¬n % 16 = 15; omega)
    constructor
    · refine (congrFun eS (ix2 r q)).trans ?_
      refine (stepS V c n hn _ r q).trans ?_
      rw [pay1_apply, zero_add, h0]
      exact (Finset.sum_range_one _).symm
    · refine (congrFun eQ (ix2 r q)).trans ?_
      refine (stepQ V c n hn _ r q).trans ?_
      rw [pay2_apply, zero_add, h0]
      exact (Finset.sum_range_one _).symm
  intro n
  induction n with
  | zero => exact fun hn => first 0 hn rfl
  | succ n ih =>
    intro hn r q
    by_cases h0 : (n + 1) % 16 = 0
    · exact first (n + 1) hn h0 r q
    · obtain ⟨eS, eQ⟩ := sums_step V c ⟨n + 1, hn⟩ h0
      have hrow : rowAt n (Nat.lt_of_succ_lt hn) r = rowAt (n + 1) hn r :=
        Fin.ext (by show 512 * (n / 16) + r.val = 512 * ((n + 1) / 16) + r.val; omega)
      have hk : n % 16 + 1 = (n + 1) % 16 := by omega
      constructor
      · refine (congrFun eS (ix2 r q)).trans ?_
        refine (stepS V c (n + 1) hn _ r q).trans ?_
        show (outsAt V c n _).2.1 (ix2 r q) + _ = _
        rw [(ih (Nat.lt_of_succ_lt hn) r q).1, hrow, hk]
        exact (Finset.sum_range_succ _ _).symm
      · refine (congrFun eQ (ix2 r q)).trans ?_
        refine (stepQ V c (n + 1) hn _ r q).trans ?_
        show (outsAt V c n _).2.2 (ix2 r q) + _ = _
        rw [(ih (Nat.lt_of_succ_lt hn) r q).2, hrow, hk]
        exact (Finset.sum_range_succ _ _).symm

/-! ## The output block at a last step, and the region's result array -/

/-- At a last step the output block holds, at `(r, q)`, the region's value at row `512 (t / 16) + r`, column `q`: the
    two running sums are complete (all 16 blocks), and the dense layer reads the whole weights and bias. -/
theorem out_last (c : Dev nD) (t : Fin cfg0.N) (h1 : t.val % 16 = 15) (r q : Fin 512) :
    (outsAt V c t.val t.isLt).1 (ix2 r q)
      = Hat (V c main_arg0) (V c main_arg1) (V c main_v0) (V c main_arg5) (rowAt t.val t.isLt r) q := by
  have h0 : ¬t.val % 16 = 0 := by omega
  have h16 : t.val % 16 + 1 = 16 := by omega
  refine (congrFun (sums_Last V c t h0 h1).2.2 (ix2 r q)).trans ?_
  refine (pay5_apply (outsAt V c t.val t.isLt).2.1 (outsAt V c t.val t.isLt).2.2 (iblk V c 2 t) (iblk V c 3 t) r q).trans ?_
  unfold Hat
  refine congrArg (fun z : EReal => max z (Ideal.ofBits .f32 0x00000000#32)) ?_
  refine congrArg₂ (fun a b : EReal => a + b) (Finset.sum_congr rfl fun k _ => ?_) (iblk3_apply V c t q)
  have hS := (sums_at V c t.val t.isLt r k).1
  have hQ := (sums_at V c t.val t.isLt r k).2
  rw [h16, sum_blockS] at hS
  rw [h16, sum_blockQ] at hQ
  rw [hS, hQ, iblk2_apply V c t q k]
  rfl

/-- What a write-back writes: the region's value array read through the block's rectangle. -/
theorem flushed_eq (c : Dev nD) (t : Fin cfg0.N) (hf : (cfg0.win 4).flush t = true) :
    (dat V c).flushed 4 t = ((cfg0.win 4).blk t).view.read (Elt Ideal)
      (H (V c main_arg0) (V c main_arg1) (V c main_v0) (V c main_arg5) : Buf (Elt Ideal) ((c : Thread nD τ).loc main_v2)) := by
  have h1 : t.val % 16 = 15 := (flush0_4 t).mp hf
  show (cfg0.win 4).cut (grid0.coords t) ((dat V c).after 4 t) = _
  rw [after4]
  funext y
  obtain ⟨r, q, rfl⟩ : ∃ (r q : Fin 512), (y : S512x512.Idx) = ix2 r q := ⟨y 0, y 1, eq_ix2 y⟩
  refine (out_last V c t h1 r q).trans ?_
  exact (blk4_apply (F := Ideal) c (H (V c main_arg0) (V c main_arg1) (V c main_v0) (V c main_arg5)) t r q (rowAt t.val t.isLt r) rfl).symm

/-- THE VALUE OF THE REGION. Every row of the result lies in the block written back at the last step of its row
    block, so the result array ends holding the region's value. -/
theorem final (c : Dev nD) :
    (dat (F := Ideal) V c).arrAt 4 cfg0.N = H (V c main_arg0) (V c main_arg1) (V c main_v0) (V c main_arg5) :=
  (dat V c).arrAt_eq_of_cover 4 (H (V c main_arg0) (V c main_arg1) (V c main_v0) (V c main_arg5)) (flushed_eq V c) fun i => by
    have hN : cfg0.N = 32 := N_0
    have h0 : (i 0 : Nat) < 1024 := (i 0).isLt
    have h1 : (i 1 : Nat) < 512 := (i 1).isLt
    obtain ⟨t, ht⟩ : ∃ t : Fin cfg0.N, t.val = 16 * ((i 0 : Nat) / 512) + 15 := ⟨⟨16 * ((i 0 : Nat) / 512) + 15, by omega⟩, rfl⟩
    refine ⟨t, (flush0_4 t).mpr (by omega), ?_⟩
    show i ∈ ((View.whole main_v2).slice (win0_4.rect t)).set
    rw [View.set_slice_whole, Rect.mem_set_unit]
    intro a
    match a with
    | ⟨0, _⟩ =>
      show win0_4.index t 0 * win0_4.size 0 ≤ (i 0 : Nat) ∧ (i 0 : Nat) < win0_4.index t 0 * win0_4.size 0 + win0_4.xsize (grid0.coords t) 0
      rw [(idx4 t).1, (xsize4 t).1, show win0_4.size 0 = 512 from rfl]; omega
    | ⟨1, _⟩ =>
      show win0_4.index t 1 * win0_4.size 1 ≤ (i 1 : Nat) ∧ (i 1 : Nat) < win0_4.index t 1 * win0_4.size 1 + win0_4.xsize (grid0.coords t) 1
      rw [(idx4 t).2, (xsize4 t).2, show win0_4.size 1 = 512 from rfl]; omega

end Payloads

end Cert.KernelIdeal.R0

end
-- ==== Proof.KI.R1Spec.lean ====
/-
  The value of the second pallas_call, as a function of its six input arrays, index by index.

  The call computes, for a row r of 1024 and a column q of 4096,

      out[r, q] = ((Σ_k sae[r, k] · linear_w[q, k]  +  linear_b[q])  +  Σ_d h[r, d] · mlp2_w[q, d])  +  mlp2_b[q].

  The first contraction runs over 16384 columns and is computed in eight blocks of 2048, the partial
  products of the blocks added in block order; the sum is written here in that blocked form, column
  2048·s + j being place j of block s.  The second contraction, over 512 columns, is one block.
-/
import Idealize.ShloMosaic.PureOps.Ideal
import Idealize.ShloMosaic.PureOps.Ideal.Laws
import Idealize.ShloMosaic.Lib.ValueIdx

noncomputable section

open scoped BigOperators

namespace Cert.KI.R1Spec

open Idealize.ShloMosaic Idealize.ShloMosaic.ValueIdx

/-- Column 2048·s + j of a row of 16384: place j of block s of the first contraction. -/
abbrev col (s : Fin 8) (j : Fin 2048) : Fin 16384 := ⟨2048 * s.val + j.val, by omega⟩

/-- The output at row r, column q. -/
def Hat (sae : (⟨2, ![1024, 16384]⟩ : Shape).Idx → Ideal .f32) (lw : (⟨2, ![4096, 16384]⟩ : Shape).Idx → Ideal .f32)
    (lb : (⟨1, ![4096]⟩ : Shape).Idx → Ideal .f32) (h : (⟨2, ![1024, 512]⟩ : Shape).Idx → Ideal .f32)
    (w2 : (⟨2, ![4096, 512]⟩ : Shape).Idx → Ideal .bf16) (b2 : (⟨1, ![4096]⟩ : Shape).Idx → Ideal .f32)
    (r : Fin 1024) (q : Fin 4096) : Ideal .f32 :=
  (((∑ s : Fin 8, ∑ j : Fin 2048, sae (ix2 r (col s j)) * lw (ix2 q (col s j))) + lb (ix1 q))
      + ∑ d : Fin 512, h (ix2 r d) * w2 (ix2 q d))
    + b2 (ix1 q)

/-- The output array. -/
def H (sae : (⟨2, ![1024, 16384]⟩ : Shape).Idx → Ideal .f32) (lw : (⟨2, ![4096, 16384]⟩ : Shape).Idx → Ideal .f32)
    (lb : (⟨1, ![4096]⟩ : Shape).Idx → Ideal .f32) (h : (⟨2, ![1024, 512]⟩ : Shape).Idx → Ideal .f32)
    (w2 : (⟨2, ![4096, 512]⟩ : Shape).Idx → Ideal .bf16) (b2 : (⟨1, ![4096]⟩ : Shape).Idx → Ideal .f32) :
    (⟨2, ![1024, 4096]⟩ : Shape).Idx → Ideal .f32 :=
  fun y => Hat sae lw lb h w2 b2 (y 0) (y 1)

end Cert.KI.R1Spec

end
-- ==== Proof.KI.R1Value.lean ====
/-
  The VALUE of the second pallas_call at the ideal instance: its output array ends holding, at row r and column q,

      ((Σ_k sae[r, k] · linear_w[q, k]  +  linear_b[q])  +  Σ_d h[r, d] · mlp2_w[q, d])  +  mlp2_b[q]

  (`Cert.KI.R1Spec.H`), the first sum in eight blocks of 2048 columns.  Each control case's found pieces are read back
  as the body's payloads; a payload read at an index is a sum of products over the extended reals (a change of
  float format is the identity there, a matmul into zeros is the plain sum over the contraction index); the scratch
  after the point at place k of its run of eight holds the sum of the blocks 0..k, by induction on the point (the
  stored zeros vanish: 0 + x = x); and the output block written back at the last point of a run is the block of H
  whose rows and columns the point's coordinates select.  Only the associativity and commutativity of + and
  0 + x = x are used: nothing about finiteness.
-/
import proofs.«181743_j4071628997276_2_alg».proof.Proof.KI.R1Body
import proofs.«181743_j4071628997276_2_alg».proof.Proof.KI.R1Spec
import Idealize.ShloMosaic.Lib.Pipeline.Value
import Idealize.ShloMosaic.Lib.ValueIdx
import Idealize.ShloMosaic.Lib.ValueLayout
import Idealize.ShloMosaic.PureOps.Ideal.Laws

-- membership in a rectangle of these extents recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a; rfl

/-! ## The found pieces, read back as payloads (any float instance) -/

/-- A middle point leaves in the scratch the accumulation step over what it found there. -/
theorem soutMid_eq (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : ¬condLast i)
    (x0 : Vec F S256x2048 .f32) (x1 : Vec F S1024x2048 .f32) (xs : Vec F S256x1024 .f32) :
    soutMid c i arg3 harg3 arg4 harg4 arg5 harg5 arg6 harg6 arg7 harg7 arg8 harg8 arg9 harg9 arg10 harg10 hc0 hc1 x0 x1 xs = k1_pay2 x0 x1 xs := by
  unfold soutMid
  rw [View.read_writes_eq_canon _ _ _ (scoverMid c i arg3 harg3 arg4 harg4 arg5 harg5 arg6 harg6 arg7 harg7 arg8 harg8 arg9 harg9 arg10 harg10 hc0 hc1 x0 x1 xs)]
  unfold runMid
  dsimp only
  rw [View.canon_unit_zero hz2]
  simp only [View.readAt_eq_ld, harg3.read_unread, harg4.read_unread, harg5.read_unread, harg6.read_unread, harg7.read_unread, harg8.read_unread, harg10.read_unread,
    View.ld_unit_zero (S := S256x2048) hz2, View.ld_unit_zero (S := S1024x2048) hz2, View.ld_unit_zero (S := S256x1024) hz2,
    View.ld_unit_zero (S := S256x512) hz2, View.ld_unit_zero (S := S1024x512) hz2, View.ld_unit_zero (S := S1024) hz1]

/-- So does the last point of a run. -/
theorem soutLast_eq (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) :
    soutLast c i arg3 harg3 arg4 harg4 arg5 harg5 arg6 harg6 arg7 harg7 arg8 harg8 arg9 harg9 arg10 harg10 hc0 hc1 x0 x1 x2 x3 x4 x5 xs = k1_pay2 x0 x1 xs := by
  unfold soutLast
  rw [View.read_writes_eq_canon _ _ _ (scoverLast c i arg3 harg3 arg4 harg4 arg5 harg5 arg6 harg6 arg7 harg7 arg8 harg8 arg9 harg9 arg10 harg10 hc0 hc1 x0 x1 x2 x3 x4 x5 xs)]
  unfold runLast
  dsimp only
  sl_unfold_words
  rw [View.canon_unit_zero hz2]
  simp only [View.readAt_eq_ld, harg3.read_unread, harg4.read_unread, harg5.read_unread, harg6.read_unread, harg7.read_unread, harg8.read_unread, harg10.read_unread,
    View.ld_unit_zero (S := S256x2048) hz2, View.ld_unit_zero (S := S1024x2048) hz2, View.ld_unit_zero (S := S256x1024) hz2,
    View.ld_unit_zero (S := S256x512) hz2, View.ld_unit_zero (S := S1024x512) hz2, View.ld_unit_zero (S := S1024) hz1]

/-- The first point of a run stores the zeros, reads them back and leaves the accumulation step over them. -/
theorem soutFirst_eq (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : condFirst i) (hc1 : ¬condLast i)
    (x0 : Vec F S256x2048 .f32) (x1 : Vec F S1024x2048 .f32) :
    soutFirst c i arg3 harg3 arg4 harg4 arg5 harg5 arg6 harg6 arg7 harg7 arg8 harg8 arg9 harg9 arg10 harg10 hc0 hc1 x0 x1 = k1_pay2 x0 x1 (k1_pay1 (F := F)) := by
  unfold soutFirst
  rw [View.read_writes_eq_canon _ _ _ (scoverFirst c i arg3 harg3 arg4 harg4 arg5 harg5 arg6 harg6 arg7 harg7 arg8 harg8 arg9 harg9 arg10 harg10 hc0 hc1 x0 x1)]
  unfold runFirst
  dsimp only
  sl_unfold_words
  rw [View.canon_cons_unit_zero (S := S256x1024) hz2, View.readCov_unit_zero (S := S256x1024) _ hz2]
  simp only [View.readAt_eq_ld, harg3.read_unread, harg4.read_unread, harg5.read_unread, harg6.read_unread, harg7.read_unread, harg8.read_unread, harg10.read_unread,
    View.ld_unit_zero (S := S256x2048) hz2, View.ld_unit_zero (S := S1024x2048) hz2, View.ld_unit_zero (S := S256x1024) hz2,
    View.ld_unit_zero (S := S256x512) hz2, View.ld_unit_zero (S := S1024x512) hz2, View.ld_unit_zero (S := S1024) hz1]

/-- The last point of a run leaves in the output's buffer the epilogue over the scratch it has just stored. -/
theorem outLast_eq (c : Dev nD) (i : grid1.Coords) (arg3 : Memref sig .tc .vmem S256x2048 .f32) (harg3 : arg3.IsWhole) (arg4 : Memref sig .tc .vmem S1024x2048 .f32) (harg4 : arg4.IsWhole) (arg5 : Memref sig .tc .vmem S1024 .f32) (harg5 : arg5.IsWhole) (arg6 : Memref sig .tc .vmem S256x512 .f32) (harg6 : arg6.IsWhole) (arg7 : Memref sig .tc .vmem S1024x512 .bf16) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬condFirst i) (hc1 : condLast i)
    (x0 : Vec F S256x2048 .f32) (x1 : Vec F S1024x2048 .f32) (x2 : Vec F S1024 .f32) (x3 : Vec F S256x512 .f32) (x4 : Vec F S1024x512 .bf16) (x5 : Vec F S1024 .f32) (xs : Vec F S256x1024 .f32) :
    outLast c i arg3 harg3 arg4 harg4 arg5 harg5 arg6 harg6 arg7 harg7 arg8 harg8 arg9 harg9 arg10 harg10 hc0 hc1 x0 x1 x2 x3 x4 x5 xs = k1_pay3 x3 x4 (k1_pay2 x0 x1 xs) x2 x5 := by
  unfold outLast
  rw [View.read_writes_eq_canon _ _ _ (coverLast6 c i arg3 harg3 arg4 harg4 arg5 harg5 arg6 harg6 arg7 harg7 arg8 harg8 arg9 harg9 arg10 harg10 hc0 hc1 x0 x1 x2 x3 x4 x5 xs)]
  unfold runLast
  dsimp only
  sl_unfold_words
  rw [View.canon_unit_zero hz2, View.readCov_unit_zero (S := S256x1024) _ hz2]
  simp only [View.readAt_eq_ld, harg3.read_unread, harg4.read_unread, harg5.read_unread, harg6.read_unread, harg7.read_unread, harg8.read_unread, harg10.read_unread,
    View.ld_unit_zero (S := S256x2048) hz2, View.ld_unit_zero (S := S1024x2048) hz2, View.ld_unit_zero (S := S256x1024) hz2,
    View.ld_unit_zero (S := S256x512) hz2, View.ld_unit_zero (S := S1024x512) hz2, View.ld_unit_zero (S := S1024) hz1]

/-! ## The payloads at an index, over the extended reals -/

/-- The two products' dimension numbers: both contract the LAST axis of both operands (rows × rows). -/
abbrev D1 : DotDims S256x2048 S1024x2048 S256x1024 := dot_S256x2048_S1024x2048_S256x1024_1_1_0_0_n_n
abbrev D2 : DotDims S256x512 S1024x512 S256x1024 := dot_S256x512_S1024x512_S256x1024_1_1_0_0_n_n

/-- The first product's contraction index is one coordinate below 2048, the second's one below 512. -/
def e1 : D1.contr.Idx ≃ Fin 2048 := contrEquiv1 D1 2048 rfl rfl
def e2 : D2.contr.Idx ≃ Fin 512 := contrEquiv1 D2 512 rfl rfl

/-- At output (a, b) and contraction place j the first product reads its left operand at (a, j) -/
theorem lhs1 (a : Fin 256) (b : Fin 1024) (j : Fin 2048) : D1.lhsIdx (ix2 a b) (e1.symm j) = ix2 a j := by
  funext d
  apply Fin.ext
  match d with
  | ⟨0, _⟩ => rfl
  | ⟨1, _⟩ => exact (D1.lhsIdx_val_of_single (cl := 1) rfl (ix2 a b) (e1.symm j)).trans (contrEquiv1_symm_val D1 2048 rfl rfl j)
/-- and its right operand at (b, j). -/
theorem rhs1 (a : Fin 256) (b : Fin 1024) (j : Fin 2048) : D1.rhsIdx (ix2 a b) (e1.symm j) = ix2 b j := by
  funext d
  apply Fin.ext
  match d with
  | ⟨0, _⟩ => rfl
  | ⟨1, _⟩ => exact (D1.rhsIdx_val_of_single (cr := 1) rfl (ix2 a b) (e1.symm j)).trans (contrEquiv1_symm_val D1 2048 rfl rfl j)
theorem lhs2 (a : Fin 256) (b : Fin 1024) (j : Fin 512) : D2.lhsIdx (ix2 a b) (e2.symm j) = ix2 a j := by
  funext d
  apply Fin.ext
  match d with
  | ⟨0, _⟩ => rfl
  | ⟨1, _⟩ => exact (D2.lhsIdx_val_of_single (cl := 1) rfl (ix2 a b) (e2.symm j)).trans (contrEquiv1_symm_val D2 512 rfl rfl j)
theorem rhs2 (a : Fin 256) (b : Fin 1024) (j : Fin 512) : D2.rhsIdx (ix2 a b) (e2.symm j) = ix2 b j := by
  funext d
  apply Fin.ext
  match d with
  | ⟨0, _⟩ => rfl
  | ⟨1, _⟩ => exact (D2.rhsIdx_val_of_single (cr := 1) rfl (ix2 a b) (e2.symm j)).trans (contrEquiv1_symm_val D2 512 rfl rfl j)

/-- The first product into zeros, at (a, b): the sum over the 2048 places of row a of the left operand times row b of
    the right. -/
theorem mm1 (l : FVec Ideal S256x2048 .bf16) (r : FVec Ideal S1024x2048 .bf16) (a : Fin 256) (b : Fin 1024) :
    matmul D1 none l r (constant S256x1024 .f32 0x00000000#32) (ix2 a b) = ∑ j : Fin 2048, l (ix2 a j) * r (ix2 b j) := by
  refine (Ideal.matmul_constant_zero_apply D1 none l r (ix2 a b)).trans ?_
  refine (Equiv.sum_comp e1.symm _).symm.trans ?_
  refine Finset.sum_congr rfl fun j _ => ?_
  show l (D1.lhsIdx (ix2 a b) (e1.symm j)) * r (D1.rhsIdx (ix2 a b) (e1.symm j)) = _
  rw [lhs1, rhs1]

/-- The second product into zeros, at (a, b), likewise over 512 places. -/
theorem mm2 (l : FVec Ideal S256x512 .bf16) (r : FVec Ideal S1024x512 .bf16) (a : Fin 256) (b : Fin 1024) :
    matmul D2 none l r (constant S256x1024 .f32 0x00000000#32) (ix2 a b) = ∑ j : Fin 512, l (ix2 a j) * r (ix2 b j) := by
  refine (Ideal.matmul_constant_zero_apply D2 none l r (ix2 a b)).trans ?_
  refine (Equiv.sum_comp e2.symm _).symm.trans ?_
  refine Finset.sum_congr rfl fun j _ => ?_
  show l (D2.lhsIdx (ix2 a b) (e2.symm j)) * r (D2.rhsIdx (ix2 a b) (e2.symm j)) = _
  rw [lhs2, rhs2]

/-- The zeros the first point stores. -/
theorem pay1_apply (y : S256x1024.Idx) : k1_pay1 (F := Ideal) y = 0 := by
  unfold k1_pay1
  refine (congrFun (shapeCast_self _ _) y).trans ?_
  exact Ideal.ofBits_zero_f32

/-- The accumulation step at (a, b): what the scratch held there plus the product of the point's blocks. -/
theorem pay2_apply (x0 : Vec Ideal S256x2048 .f32) (x1 : Vec Ideal S1024x2048 .f32) (xs : Vec Ideal S256x1024 .f32)
    (a : Fin 256) (b : Fin 1024) :
    k1_pay2 (F := Ideal) x0 x1 xs (ix2 a b) = xs (ix2 a b) + ∑ j : Fin 2048, x0 (ix2 a j) * x1 (ix2 b j) := by
  unfold k1_pay2
  refine (congrFun (shapeCast_self _ _) (ix2 a b)).trans ?_
  show xs (ix2 a b) + matmul (F := Ideal) D1 none _ _ (constant S256x1024 .f32 0x00000000#32) (ix2 a b) = _
  exact congrArg (xs (ix2 a b) + ·) (mm1 _ _ a b)

/-- The epilogue at (a, b): the finished sum, plus the first bias at b, plus the second product, plus the second bias at b. -/
theorem pay3_apply (x3 : Vec Ideal S256x512 .f32) (x4 : Vec Ideal S1024x512 .bf16) (acc : Vec Ideal S256x1024 .f32)
    (x2 x5 : Vec Ideal S1024 .f32) (a : Fin 256) (b : Fin 1024) :
    k1_pay3 (F := Ideal) x3 x4 acc x2 x5 (ix2 a b)
      = ((acc (ix2 a b) + x2 (ix1 b)) + ∑ d : Fin 512, x3 (ix2 a d) * x4 (ix2 b d)) + x5 (ix1 b) := by
  have hb2 : broadcastTo S256x1024 (shapeCast S1x1024 x2 shapeCasts_S1024_S1x1024) broadcasts_S1x1024_S256x1024 (ix2 a b) = x2 (ix1 b) :=
    (broadcastTo_1b_ab_apply _ _ a b).trans (shapeCast_a_1a_apply x2 _ 0 b)
  have hb5 : broadcastTo S256x1024 (shapeCast S1x1024 x5 shapeCasts_S1024_S1x1024) broadcasts_S1x1024_S256x1024 (ix2 a b) = x5 (ix1 b) :=
    (broadcastTo_1b_ab_apply _ _ a b).trans (shapeCast_a_1a_apply x5 _ 0 b)
  have h3 : shapeCast S256x512 x3 shapeCasts_S256x512_S256x512 = x3 := shapeCast_self _ _
  have h4 : shapeCast S1024x512 x4 shapeCasts_S1024x512_S1024x512 = x4 := shapeCast_self _ _
  have hM : matmul (F := Ideal) D2 none (truncf .bf16 (shapeCast S256x512 x3 shapeCasts_S256x512_S256x512) bitsLt_bf16_f32)
      (shapeCast S1024x512 x4 shapeCasts_S1024x512_S1024x512) (constant S256x1024 .f32 0x00000000#32) (ix2 a b)
        = ∑ d : Fin 512, x3 (ix2 a d) * x4 (ix2 b d) :=
    (mm2 _ _ a b).trans (Finset.sum_congr rfl fun d _ => congrArg₂ (· * ·) (congrFun h3 (ix2 a d)) (congrFun h4 (ix2 b d)))
  unfold k1_pay3
  exact congrArg₂ (· + ·) (congrArg₂ (· + ·) (congrArg (acc (ix2 a b) + ·) hb2) hM) hb5

/-! ## Where the windows' blocks lie: the index maps, decided over the grid

Point t has row block t / 32, column block t / 8 % 4 and contraction block t % 8. -/

theorem idx0 : ∀ t : Fin grid1.N, win1_0.index t 0 = t.val / 32 ∧ win1_0.index t 1 = t.val % 8 := by decide +kernel
theorem idx1 : ∀ t : Fin grid1.N, win1_1.index t 0 = t.val / 8 % 4 ∧ win1_1.index t 1 = t.val % 8 := by decide +kernel
theorem idx2 : ∀ t : Fin grid1.N, win1_2.index t 0 = t.val / 8 % 4 := by decide +kernel
theorem idx3 : ∀ t : Fin grid1.N, win1_3.index t 0 = t.val / 32 ∧ win1_3.index t 1 = 0 := by decide +kernel
theorem idx4 : ∀ t : Fin grid1.N, win1_4.index t 0 = t.val / 8 % 4 ∧ win1_4.index t 1 = 0 := by decide +kernel
theorem idx5 : ∀ t : Fin grid1.N, win1_5.index t 0 = t.val / 8 % 4 := by decide +kernel
theorem idx6 : ∀ t : Fin grid1.N, win1_6.index t 0 = t.val / 32 ∧ win1_6.index t 1 = t.val / 8 % 4 := by decide +kernel

/-! ## Each input block read where the window's rectangle says

A block's coordinate is the block index times the block's extent plus the coordinate inside the block. -/

section Blocks
variable (V : (c : Dev nD) → (b : Ref sig .tc) → Buf (Elt F) ((c : Thread nD τ).loc b))

theorem blk0 (c : Dev nD) (t : Fin cfg1.N) (a : Fin 256) (j : Fin 2048) (r : Fin 1024) (q : Fin 16384)
    (hr : r.val = 256 * (t.val / 32) + a.val) (hq : q.val = 2048 * (t.val % 8) + j.val) :
    (iblk V c 0 t : Vec F S256x2048 .f32) (ix2 a j) = V c main_arg0 (ix2 r q) := by
  unfold iblk
  rw [View.read_apply]
  show V c main_arg0 _ = V c main_arg0 _
  congr 1
  funext d
  apply Fin.ext
  match d with
  | ⟨0, _⟩ => show win1_0.index t 0 * 256 + 1 * a.val = r.val; rw [(idx0 t).1, hr]; omega
  | ⟨1, _⟩ => show win1_0.index t 1 * 2048 + 1 * j.val = q.val; rw [(idx0 t).2, hq]; omega

theorem blk1 (c : Dev nD) (t : Fin cfg1.N) (a : Fin 1024) (j : Fin 2048) (r : Fin 4096) (q : Fin 16384)
    (hr : r.val = 1024 * (t.val / 8 % 4) + a.val) (hq : q.val = 2048 * (t.val % 8) + j.val) :
    (iblk V c 1 t : Vec F S1024x2048 .f32) (ix2 a j) = V c main_arg2 (ix2 r q) := by
  unfold iblk
  rw [View.read_apply]
  show V c main_arg2 _ = V c main_arg2 _
  congr 1
  funext d
  apply Fin.ext
  match d with
  | ⟨0, _⟩ => show win1_1.index t 0 * 1024 + 1 * a.val = r.val; rw [(idx1 t).1, hr]; omega
  | ⟨1, _⟩ => show win1_1.index t 1 * 2048 + 1 * j.val = q.val; rw [(idx1 t).2, hq]; omega

theorem blk2 (c : Dev nD) (t : Fin cfg1.N) (b : Fin 1024) (q : Fin 4096) (hq : q.val = 1024 * (t.val / 8 % 4) + b.val) :
    (iblk V c 2 t : Vec F S1024 .f32) (ix1 b) = V c main_arg3 (ix1 q) := by
  unfold iblk
  rw [View.read_apply]
  show V c main_arg3 _ = V c main_arg3 _
  congr 1
  funext d
  apply Fin.ext
  match d with
  | ⟨0, _⟩ => show win1_2.index t 0 * 1024 + 1 * b.val = q.val; rw [idx2 t, hq]; omega

theorem blk3 (c : Dev nD) (t : Fin cfg1.N) (a : Fin 256) (j : Fin 512) (r : Fin 1024) (q : Fin 512)
    (hr : r.val = 256 * (t.val / 32) + a.val) (hq : q.val = 512 * (0) + j.val) :
    (iblk V c 3 t : Vec F S256x512 .f32) (ix2 a j) = V c main_v2 (ix2 r q) := by
  unfold iblk
  rw [View.read_apply]
  show V c main_v2 _ = V c main_v2 _
  congr 1
  funext d
  apply Fin.ext
  match d with
  | ⟨0, _⟩ => show win1_3.index t 0 * 256 + 1 * a.val = r.val; rw [(idx3 t).1, hr]; omega
  | ⟨1, _⟩ => show win1_3.index t 1 * 512 + 1 * j.val = q.val; rw [(idx3 t).2, hq]; omega

theorem blk4 (c : Dev nD) (t : Fin cfg1.N) (a : Fin 1024) (j : Fin 512) (r : Fin 4096) (q : Fin 512)
    (hr : r.val = 1024 * (t.val / 8 % 4) + a.val) (hq : q.val = 512 * (0) + j.val) :
    (iblk V c 4 t : Vec F S1024x512 .bf16) (ix2 a j) = V c main_v1 (ix2 r q) := by
  unfold iblk
  rw [View.read_apply]
  show V c main_v1 _ = V c main_v1 _
  congr 1
  funext d
  apply Fin.ext
  match d with
  | ⟨0, _⟩ => show win1_4.index t 0 * 1024 + 1 * a.val = r.val; rw [(idx4 t).1, hr]; omega
  | ⟨1, _⟩ => show win1_4.index t 1 * 512 + 1 * j.val = q.val; rw [(idx4 t).2, hq]; omega

theorem blk5 (c : Dev nD) (t : Fin cfg1.N) (b : Fin 1024) (q : Fin 4096) (hq : q.val = 1024 * (t.val / 8 % 4) + b.val) :
    (iblk V c 5 t : Vec F S1024 .f32) (ix1 b) = V c main_arg7 (ix1 q) := by
  unfold iblk
  rw [View.read_apply]
  show V c main_arg7 _ = V c main_arg7 _
  congr 1
  funext d
  apply Fin.ext
  match d with
  | ⟨0, _⟩ => show win1_5.index t 0 * 1024 + 1 * b.val = q.val; rw [idx5 t, hq]; omega

end Blocks

/-! ## The running sum in the scratch -/

section AtIdeal
open Cert.KI.R1Spec (col Hat H)

variable (V : (c : Dev nD) → (b : Ref sig .tc) → Buf (Elt Ideal) ((c : Thread nD τ).loc b))

/-- Block s of the first contraction at row r and column q: the products over the block's 2048 columns, summed
    (zero past the eighth block, which no point meets). -/
def term (sae : (⟨2, ![1024, 16384]⟩ : Shape).Idx → Ideal .f32) (lw : (⟨2, ![4096, 16384]⟩ : Shape).Idx → Ideal .f32)
    (r : Fin 1024) (q : Fin 4096) (s : ℕ) : EReal :=
  if h : s < 8 then ∑ j : Fin 2048, sae (ix2 r (col ⟨s, h⟩ j)) * lw (ix2 q (col ⟨s, h⟩ j)) else 0

/-- The accumulation step at point t over any scratch contents: at (a, b) of the block, which is row r and column q of
    the output, it adds block t % 8 of the first contraction. -/
theorem acc_at (c : Dev nD) (t : Fin cfg1.N) (a : Fin 256) (b : Fin 1024) (r : Fin 1024) (q : Fin 4096)
    (hr : r.val = 256 * (t.val / 32) + a.val) (hq : q.val = 1024 * (t.val / 8 % 4) + b.val) (xs : Vec Ideal S256x1024 .f32) :
    k1_pay2 (F := Ideal) (iblk V c 0 t) (iblk V c 1 t) xs (ix2 a b) = xs (ix2 a b) + term (V c main_arg0) (V c main_arg2) r q (t.val % 8) := by
  refine (pay2_apply _ _ xs a b).trans (congrArg (xs (ix2 a b) + ·) ?_)
  unfold term
  rw [dif_pos (Nat.mod_lt _ (by decide))]
  refine Finset.sum_congr rfl fun j _ => ?_
  rw [blk0 V c t a j r (col ⟨t.val % 8, Nat.mod_lt _ (by decide)⟩ j) hr rfl, blk1 V c t b j q (col ⟨t.val % 8, Nat.mod_lt _ (by decide)⟩ j) hq rfl]

/-- After the first point of a run the scratch holds block 0: the stored zeros vanish. -/
theorem scratch_first (c : Dev nD) (t : Fin cfg1.N) (h0 : t.val % 8 = 0) (a : Fin 256) (b : Fin 1024) (r : Fin 1024) (q : Fin 4096)
    (hr : r.val = 256 * (t.val / 32) + a.val) (hq : q.val = 1024 * (t.val / 8 % 4) + b.val) :
    (outsAt V c t.val t.isLt).2 (ix2 a b) = term (V c main_arg0) (V c main_arg2) r q 0 := by
  have h1 : ¬t.val % 8 = 7 := by omega
  rw [outsAt_first V c t h0 h1]
  dsimp only
  rw [soutFirst_eq]
  refine (acc_at V c t a b r q hr hq _).trans ?_
  rw [pay1_apply, zero_add, h0]

/-- After a later point of a run the scratch holds what the point before left plus the point's block. -/
theorem scratch_next (c : Dev nD) (t : Fin cfg1.N) (h0 : ¬t.val % 8 = 0) (a : Fin 256) (b : Fin 1024) (r : Fin 1024) (q : Fin 4096)
    (hr : r.val = 256 * (t.val / 32) + a.val) (hq : q.val = 1024 * (t.val / 8 % 4) + b.val) :
    (outsAt V c t.val t.isLt).2 (ix2 a b)
      = (outsAt V c (t.val - 1) (Nat.lt_of_le_of_lt (Nat.sub_le _ _) t.isLt)).2 (ix2 a b) + term (V c main_arg0) (V c main_arg2) r q (t.val % 8) := by
  by_cases h1 : t.val % 8 = 7
  · rw [outsAt_last V c t h0 h1]
    dsimp only
    rw [soutLast_eq]
    exact acc_at V c t a b r q hr hq _
  · rw [outsAt_mid V c t h0 h1]
    dsimp only
    rw [soutMid_eq]
    exact acc_at V c t a b r q hr hq _

/-- THE INVARIANT: after the point at place k of its run of eight the scratch holds, at (a, b) of the block, the sum of
    the blocks 0..k of the first contraction at the block's row and column — by induction on the point. -/
theorem scratch_eq (c : Dev nD) : ∀ (n : ℕ) (hn : n < cfg1.N) (a : Fin 256) (b : Fin 1024) (r : Fin 1024) (q : Fin 4096),
    r.val = 256 * (n / 32) + a.val → q.val = 1024 * (n / 8 % 4) + b.val →
    (outsAt V c n hn).2 (ix2 a b) = ∑ s ∈ Finset.range (n % 8 + 1), term (V c main_arg0) (V c main_arg2) r q s := by
  intro n
  induction n with
  | zero =>
    intro hn a b r q hr hq
    refine (scratch_first V c ⟨0, hn⟩ rfl a b r q hr hq).trans ?_
    show _ = ∑ s ∈ Finset.range 1, term (V c main_arg0) (V c main_arg2) r q s
    rw [Finset.sum_range_one]
  | succ n ih =>
    intro hn a b r q hr hq
    by_cases h0 : (n + 1) % 8 = 0
    · refine (scratch_first V c ⟨n + 1, hn⟩ h0 a b r q hr hq).trans ?_
      rw [h0]
      show _ = ∑ s ∈ Finset.range 1, term (V c main_arg0) (V c main_arg2) r q s
      rw [Finset.sum_range_one]
    · have hk : (n + 1) % 8 = n % 8 + 1 := by omega
      have ih' := ih (Nat.lt_of_succ_lt hn) a b r q (by omega) (by omega)
      refine (scratch_next V c ⟨n + 1, hn⟩ h0 a b r q hr hq).trans ?_
      show (outsAt V c n _).2 (ix2 a b) + term (V c main_arg0) (V c main_arg2) r q ((n + 1) % 8) = _
      rw [hk, Finset.sum_range_succ, ih']

/-! ## The output block at the last point of a run, and the whole array -/

/-- At the last point of a run the output's buffer holds, at (a, b) of the block, the output at the block's row r and
    column q: the scratch has just reached the sum of all eight blocks, and the epilogue adds the first bias, the
    second product and the second bias, each read off its block where the window's rectangle says. -/
theorem out_at (c : Dev nD) (t : Fin cfg1.N) (h7 : t.val % 8 = 7) (a : Fin 256) (b : Fin 1024) (r : Fin 1024) (q : Fin 4096)
    (hr : r.val = 256 * (t.val / 32) + a.val) (hq : q.val = 1024 * (t.val / 8 % 4) + b.val) :
    (outsAt V c t.val t.isLt).1 (ix2 a b) = Hat (V c main_arg0) (V c main_arg2) (V c main_arg3) (V c main_v2) (V c main_v1) (V c main_arg7) r q := by
  have h0 : ¬t.val % 8 = 0 := by omega
  have hs := scratch_eq V c t.val t.isLt a b r q hr hq
  rw [outsAt_last V c t h0 h7] at hs ⊢
  dsimp only at hs ⊢
  rw [soutLast_eq] at hs
  rw [outLast_eq]
  refine (pay3_apply _ _ _ _ _ a b).trans ?_
  rw [hs, h7]
  unfold Hat
  refine congrArg₂ (· + ·) (congrArg₂ (· + ·) (congrArg₂ (· + ·) ?_ (blk2 V c t b q hq)) ?_) (blk5 V c t b q hq)
  · show ∑ s ∈ Finset.range 8, term (V c main_arg0) (V c main_arg2) r q s = _
    rw [Finset.sum_range (fun s => term (V c main_arg0) (V c main_arg2) r q s)]
    refine Finset.sum_congr rfl fun s _ => ?_
    unfold term
    rw [dif_pos s.isLt]
  · refine Finset.sum_congr rfl fun d _ => ?_
    rw [blk3 V c t a d r d hr (by omega), blk4 V c t b d q d hq (by omega)]

/-- Block t of an array G, read at (a, b), is G at the block's row and column; so for H. -/
theorem readH_at (c : Dev nD) (t : Fin cfg1.N) (a : Fin 256) (b : Fin 1024) (r : Fin 1024) (q : Fin 4096)
    (hr : r.val = 256 * (t.val / 32) + a.val) (hq : q.val = 1024 * (t.val / 8 % 4) + b.val) :
    (((cfg1.win 6).blk t).view.read (Elt Ideal) (H (V c main_arg0) (V c main_arg2) (V c main_arg3) (V c main_v2) (V c main_v1) (V c main_arg7)) : Vec Ideal S256x1024 .f32) (ix2 a b)
      = Hat (V c main_arg0) (V c main_arg2) (V c main_arg3) (V c main_v2) (V c main_v1) (V c main_arg7) r q := by
  rw [View.read_apply]
  unfold H
  show Hat (V c main_arg0) (V c main_arg2) (V c main_arg3) (V c main_v2) (V c main_v1) (V c main_arg7) _ _ = Hat (V c main_arg0) (V c main_arg2) (V c main_arg3) (V c main_v2) (V c main_v1) (V c main_arg7) r q
  congr 1
  · apply Fin.ext
    show win1_6.index t 0 * 256 + 1 * a.val = r.val
    rw [(idx6 t).1, hr]; omega
  · apply Fin.ext
    show win1_6.index t 1 * 1024 + 1 * b.val = q.val
    rw [(idx6 t).2, hq]; omega

/-- So at the last point of a run the output's buffer holds block t of H, place by place. -/
theorem out_block (c : Dev nD) (t : Fin cfg1.N) (h7 : t.val % 8 = 7) (y : S256x1024.Idx) :
    (outsAt V c t.val t.isLt).1 y
      = (((cfg1.win 6).blk t).view.read (Elt Ideal) (H (V c main_arg0) (V c main_arg2) (V c main_arg3) (V c main_v2) (V c main_v1) (V c main_arg7)) : Vec Ideal S256x1024 .f32) y := by
  obtain ⟨a, b, rfl⟩ : ∃ (a : Fin 256) (b : Fin 1024), y = ix2 a b := ⟨y 0, y 1, eq_ix2 y⟩
  have hN : t.val < 128 := lt_of_lt_of_eq t.isLt (show cfg1.N = 128 from N_1)
  have ha := a.isLt
  have hb := b.isLt
  rw [out_at V c t h7 a b ⟨256 * (t.val / 32) + a.val, by omega⟩ ⟨1024 * (t.val / 8 % 4) + b.val, by omega⟩ rfl rfl,
    readH_at V c t a b ⟨256 * (t.val / 32) + a.val, by omega⟩ ⟨1024 * (t.val / 8 % 4) + b.val, by omega⟩ rfl rfl]

/-- The write-back at the last point of a run writes block t of H. -/
theorem flushed_eq (c : Dev nD) (t : Fin cfg1.N) (hf : (cfg1.win 6).flush t = true) :
    (dat V c).flushed 6 t = ((cfg1.win 6).blk t).view.read (Elt Ideal) (H (V c main_arg0) (V c main_arg2) (V c main_arg3) (V c main_v2) (V c main_v1) (V c main_arg7)) := by
  have h7 : t.val % 8 = 7 := (flush1_6 t).mp hf
  show (cfg1.win 6).cut (grid1.coords t) ((dat V c).after 6 t) = _
  rw [after6]
  funext y
  exact out_block V c t h7 y

/-- THE VALUE: the output array ends holding H of the six input arrays. Row r and column q lie in the block of the
    point with row block r / 256, column block q / 1024 and contraction block 7, which writes its block back. -/
theorem final (c : Dev nD) :
    (dat (F := Ideal) V c).arrAt 6 cfg1.N = H (V c main_arg0) (V c main_arg2) (V c main_arg3) (V c main_v2) (V c main_v1) (V c main_arg7) := by
  refine (dat V c).arrAt_eq_of_cover 6 (H (V c main_arg0) (V c main_arg2) (V c main_arg3) (V c main_v2) (V c main_v1) (V c main_arg7)) (flushed_eq V c) fun i => ?_
  have h0 : (i 0).val < 1024 := (i 0).isLt
  have h1 : (i 1).val < 4096 := (i 1).isLt
  have hN : cfg1.N = 128 := N_1
  have ht : 32 * ((i 0).val / 256) + 8 * ((i 1).val / 1024) + 7 < cfg1.N := by rw [hN]; omega
  refine ⟨⟨32 * ((i 0).val / 256) + 8 * ((i 1).val / 1024) + 7, ht⟩, (flush1_6 _).mpr (by
    show (32 * ((i 0).val / 256) + 8 * ((i 1).val / 1024) + 7) % 8 = 7; omega), ?_⟩
  show i ∈ ((View.whole main_v3).slice (win1_6.rect ⟨32 * ((i 0).val / 256) + 8 * ((i 1).val / 1024) + 7, ht⟩)).set
  rw [View.set_slice_whole, Rect.mem_set_unit]
  intro a
  match a with
  | ⟨0, _⟩ =>
    show win1_6.index ⟨32 * ((i 0).val / 256) + 8 * ((i 1).val / 1024) + 7, ht⟩ 0 * 256 ≤ (i 0).val
      ∧ (i 0).val < win1_6.index ⟨32 * ((i 0).val / 256) + 8 * ((i 1).val / 1024) + 7, ht⟩ 0 * 256 + 256
    rw [(idx6 ⟨32 * ((i 0).val / 256) + 8 * ((i 1).val / 1024) + 7, ht⟩).1]
    show (32 * ((i 0).val / 256) + 8 * ((i 1).val / 1024) + 7) / 32 * 256 ≤ (i 0).val
      ∧ (i 0).val < (32 * ((i 0).val / 256) + 8 * ((i 1).val / 1024) + 7) / 32 * 256 + 256
    omega
  | ⟨1, _⟩ =>
    show win1_6.index ⟨32 * ((i 0).val / 256) + 8 * ((i 1).val / 1024) + 7, ht⟩ 1 * 1024 ≤ (i 1).val
      ∧ (i 1).val < win1_6.index ⟨32 * ((i 0).val / 256) + 8 * ((i 1).val / 1024) + 7, ht⟩ 1 * 1024 + 1024
    rw [(idx6 ⟨32 * ((i 0).val / 256) + 8 * ((i 1).val / 1024) + 7, ht⟩).2]
    show (32 * ((i 0).val / 256) + 8 * ((i 1).val / 1024) + 7) / 8 % 4 * 1024 ≤ (i 1).val
      ∧ (i 1).val < (32 * ((i 0).val / 256) + 8 * ((i 1).val / 1024) + 7) / 8 % 4 * 1024 + 1024
    omega

end AtIdeal

end Cert.KernelIdeal.R1

end
-- ==== Proof.Spec.lean ====
/-
  What both programs compute, as whole-array functions of the eight arguments over the extended reals.

  With x = sae_features [1024,16384], e = emb [16384,512], W1 = mlp1_w [512,512], c1 = mlp1_b [512],
  L = linear_w [4096,16384], l = linear_b [4096], W2 = mlp2_w [4096,512], c2 = mlp2_b [4096]:

    sumEmb b k      = Σ_n x[b,n] · e[n,k]
    sumSq b k       = Σ_n (x[b,n]·x[b,n]) · (e[n,k]·e[n,k])
    interaction b k = ½ · (sumEmb b k · sumEmb b k − sumSq b k)
    hidden[b,o]     = max (Σ_k interaction b k · W1[o,k] + c1[o]) 0
    output[b,o]     = (Σ_n x[b,n] · L[o,n] + l[o]) + (Σ_d hidden[b,d] · W2[o,d] + c2[o])

  The two float literals (½ and 0) are kept as their f32 words: the same word stands on both sides and is never evaluated.
-/
import Idealize.ShloMosaic.PureOps.Ideal
import Idealize.ShloMosaic.Lib.ValueIdx

noncomputable section

namespace Cert.Spec

open Idealize.ShloMosaic Idealize.ShloMosaic.ValueIdx

/-- A matrix of extended reals. -/
abbrev Mat (a b : Nat) : Type := (⟨2, ![a, b]⟩ : Shape).Idx → EReal
/-- A vector of extended reals. -/
abbrev Vect (a : Nat) : Type := (⟨1, ![a]⟩ : Shape).Idx → EReal

/-- Σ_n x[b,n] · e[n,k]. -/
def sumEmb (x : Mat 1024 16384) (e : Mat 16384 512) (b : Fin 1024) (k : Fin 512) : EReal :=
  ∑ n : Fin 16384, x (ix2 b n) * e (ix2 n k)

/-- Σ_n (x[b,n]·x[b,n]) · (e[n,k]·e[n,k]). -/
def sumSq (x : Mat 1024 16384) (e : Mat 16384 512) (b : Fin 1024) (k : Fin 512) : EReal :=
  ∑ n : Fin 16384, (x (ix2 b n) * x (ix2 b n)) * (e (ix2 n k) * e (ix2 n k))

/-- ½ · (sumEmb² − sumSq): the pairwise interaction of the factorization machine. -/
def interaction (x : Mat 1024 16384) (e : Mat 16384 512) (b : Fin 1024) (k : Fin 512) : EReal :=
  Ideal.ofBits .f32 0x3F000000#32 * (sumEmb x e b k * sumEmb x e b k - sumSq x e b k)

/-- The first layer: max (interaction · W1ᵀ + c1) 0. -/
def hidden (x : Mat 1024 16384) (e : Mat 16384 512) (W1 : Mat 512 512) (c1 : Vect 512) : Mat 1024 512 := fun i =>
  max ((∑ k : Fin 512, interaction x e (i 0) k * W1 (ix2 (i 1) k)) + c1 (ix1 (i 1))) (Ideal.ofBits .f32 0x00000000#32)

/-- The linear branch plus the second layer of any hidden array `h`. -/
def output (x : Mat 1024 16384) (L : Mat 4096 16384) (l : Vect 4096) (h : Mat 1024 512) (W2 : Mat 4096 512) (c2 : Vect 4096) :
    Mat 1024 4096 := fun i =>
  ((∑ n : Fin 16384, x (ix2 (i 0) n) * L (ix2 (i 1) n)) + l (ix1 (i 1)))
    + ((∑ d : Fin 512, h (ix2 (i 0) d) * W2 (ix2 (i 1) d)) + c2 (ix1 (i 1)))

/-- The whole function of the eight arguments, in the order of @main's parameters. -/
def whole (x : Mat 1024 16384) (e : Mat 16384 512) (L : Mat 4096 16384) (l : Vect 4096) (W1 : Mat 512 512) (c1 : Vect 512)
    (W2 : Mat 4096 512) (c2 : Vect 4096) : Mat 1024 4096 :=
  output x L l (hidden x e W1 c1) W2 c2

end Cert.Spec

end
-- ==== Proof.LibBlockedSum.lean ====
/-
  Sums cut into consecutive blocks, over any additive commutative monoid (so also over the extended reals, where
  addition is associative and commutative although it is not cancellative).

  * `sum_blocks`: a sum over `Fin n` with `n = a * b` is the sum over the `a` blocks of the sums over the `b`
    positions inside a block; position `j` of block `s` is the index `b * s + j`.
  * `add_sum_pair`: a start value to which each block adds two terms, one after the other, is the start value
    plus the whole first sum plus the whole second sum.
-/
import Mathlib.Algebra.BigOperators.Fin
import Mathlib.Algebra.BigOperators.Group.Finset.Basic
import Mathlib.Logic.Equiv.Fin.Basic

open scoped BigOperators

namespace BlockedSum

variable {M : Type*} [AddCommMonoid M]

/-- A sum over `a * b` consecutive naturals, taken block by block: `a` blocks of `b` positions each, position `j` of
    block `s` being `b * s + j`. The summand is a function of the natural number, so no bound proof travels. -/
theorem sum_blocks (a b n : ℕ) (h : a * b = n) (g : ℕ → M) :
    ∑ s ∈ Finset.range a, ∑ j : Fin b, g (b * s + j.val) = ∑ k : Fin n, g k.val := by
  subst h
  rw [Finset.sum_range (fun s => ∑ j : Fin b, g (b * s + j.val))]
  rw [← Equiv.sum_comp finProdFinEquiv (fun k : Fin (a * b) => g k.val), Fintype.sum_prod_type]
  refine Finset.sum_congr rfl fun s _ => Finset.sum_congr rfl fun j _ => ?_
  show g (b * s.val + j.val) = g (j.val + b * s.val)
  rw [Nat.add_comm]

/-- Adding, block after block, first the block's `A` term and then its `B` term to a start value `z` gives `z` plus
    all the `A` terms plus all the `B` terms: only associativity and commutativity of the addition are used. -/
theorem add_sum_pair (z : M) (A B : ℕ → M) (a : ℕ) :
    z + ∑ s ∈ Finset.range a, (A s + B s) = (z + ∑ s ∈ Finset.range a, A s) + ∑ s ∈ Finset.range a, B s := by
  rw [Finset.sum_add_distrib, add_assoc]

end BlockedSum
-- ==== Proof.LibBlockedSumFin.lean ====
/-
  A sum over `Fin n` taken block by block, through any indexing of the blocks.

  `sum_blocks_fin`: over any additive commutative monoid (so also over the extended reals), if `n = a * b` and
  `idx s j : Fin n` has value `b * s + j` for every block `s : Fin a` and position `j : Fin b`, then the sum over the
  `a` blocks of the sums over the `b` positions of `f (idx s j)` is the sum of `f` over all of `Fin n`.  It is the
  `Fin`-indexed form of `BlockedSum.sum_blocks`: the summand is a function of the bounded index, and the indexing
  function is the caller's own (only its value is asked), so a kernel's per-block index constructor can be used as it is.
  Only associativity and commutativity of the addition are used.
-/
import proofs.«181743_j4071628997276_2_alg».proof.Proof.LibBlockedSum

open scoped BigOperators

namespace BlockedSum

/-- A sum over `Fin n`, `n = a * b`, taken block by block through any indexing `idx s j` of value `b * s + j`. -/
theorem sum_blocks_fin {M : Type*} [AddCommMonoid M] (a b n : ℕ) (h : a * b = n) (f : Fin n → M)
    (idx : Fin a → Fin b → Fin n) (hidx : ∀ s j, (idx s j).val = b * s.val + j.val) :
    ∑ s : Fin a, ∑ j : Fin b, f (idx s j) = ∑ k : Fin n, f k := by
  classical
  let g : ℕ → M := fun v => if hv : v < n then f ⟨v, hv⟩ else 0
  have hg : ∀ k : Fin n, g k.val = f k := fun k => by simp only [g, dif_pos k.isLt, Fin.eta]
  calc ∑ s : Fin a, ∑ j : Fin b, f (idx s j)
      = ∑ s : Fin a, ∑ j : Fin b, g (b * s.val + j.val) := by
          refine Finset.sum_congr rfl fun s _ => Finset.sum_congr rfl fun j _ => ?_
          rw [← hidx s j, hg]
    _ = ∑ s ∈ Finset.range a, ∑ j : Fin b, g (b * s + j.val) :=
          (Finset.sum_range (fun s => ∑ j : Fin b, g (b * s + j.val))).symm
    _ = ∑ k : Fin n, g k.val := BlockedSum.sum_blocks a b n h g
    _ = ∑ k : Fin n, f k := Finset.sum_congr rfl fun k _ => hg k

end BlockedSum
-- ==== Proof.Bridge.lean ====
/-
  The kernels' block-by-block formulas are the specification's whole sums.

  The first kernel accumulates each contraction over the 16384 features in 16 blocks of 1024, the second in 8 blocks of
  2048.  A sum over `a * b` indices taken block by block is the whole sum: only associativity and commutativity of the
  addition are used, so it holds on the extended reals with no finiteness assumption.  The second kernel also groups its
  four summands as ((A + l) + M) + c2 where the specification has (A + l) + (M + c2): associativity again.
-/
import proofs.«181743_j4071628997276_2_alg».proof.Proof.Spec
import proofs.«181743_j4071628997276_2_alg».proof.Proof.LibBlockedSumFin
import proofs.«181743_j4071628997276_2_alg».proof.Proof.KI.R0Spec
import proofs.«181743_j4071628997276_2_alg».proof.Proof.KI.R1Spec

noncomputable section

namespace Cert.Bridge

open Idealize.ShloMosaic Idealize.ShloMosaic.ValueIdx
open scoped BigOperators

variable (x : Cert.Spec.Mat 1024 16384) (e : Cert.Spec.Mat 16384 512) (W1 : Cert.Spec.Mat 512 512) (c1 : Cert.Spec.Vect 512)
  (L : Cert.Spec.Mat 4096 16384) (l : Cert.Spec.Vect 4096) (h : Cert.Spec.Mat 1024 512) (W2 : Cert.Spec.Mat 4096 512)
  (c2 : Cert.Spec.Vect 4096)

/-- The first contraction, 16 blocks of 1024. -/
theorem sumProd_eq (r : Fin 1024) (q : Fin 512) : Cert.KI.R0Spec.sumProd x e r q = Cert.Spec.sumEmb x e r q :=
  BlockedSum.sum_blocks_fin 16 1024 16384 rfl (fun n => x (ix2 r n) * e (ix2 n q)) Cert.KI.R0Spec.at16 (fun _ _ => rfl)

/-- The contraction of the squares, 16 blocks of 1024. -/
theorem sumSq_eq (r : Fin 1024) (q : Fin 512) : Cert.KI.R0Spec.sumSq x e r q = Cert.Spec.sumSq x e r q :=
  BlockedSum.sum_blocks_fin 16 1024 16384 rfl (fun n => (x (ix2 r n) * x (ix2 r n)) * (e (ix2 n q) * e (ix2 n q))) Cert.KI.R0Spec.at16
    (fun _ _ => rfl)

theorem inter_eq (r : Fin 1024) (k : Fin 512) : Cert.KI.R0Spec.inter x e r k = Cert.Spec.interaction x e r k := by
  unfold Cert.KI.R0Spec.inter Cert.Spec.interaction
  rw [sumProd_eq, sumSq_eq]

/-- The first kernel's formula is the specification's hidden layer. -/
theorem hidden_eq : Cert.KI.R0Spec.H x e W1 c1 = Cert.Spec.hidden x e W1 c1 := by
  funext i
  obtain ⟨r, q, rfl⟩ : ∃ (r : Fin 1024) (q : Fin 512), i = ix2 r q := ⟨i 0, i 1, eq_ix2 i⟩
  show Cert.KI.R0Spec.Hat x e W1 c1 r q = _
  unfold Cert.KI.R0Spec.Hat Cert.Spec.hidden
  exact congrArg₂ max (congrArg₂ (· + ·) (Finset.sum_congr rfl fun k _ => congrArg (· * W1 (ix2 q k)) (inter_eq x e r k)) rfl) rfl

/-- The second kernel's formula is the specification's output of any hidden array. -/
theorem output_eq : Cert.KI.R1Spec.H x L l h W2 c2 = Cert.Spec.output x L l h W2 c2 := by
  funext i
  obtain ⟨r, q, rfl⟩ : ∃ (r : Fin 1024) (q : Fin 4096), i = ix2 r q := ⟨i 0, i 1, eq_ix2 i⟩
  show Cert.KI.R1Spec.Hat x L l h W2 c2 r q = _
  have hsum : (∑ s : Fin 8, ∑ j : Fin 2048, x (ix2 r (Cert.KI.R1Spec.col s j)) * L (ix2 q (Cert.KI.R1Spec.col s j)))
      = ∑ n : Fin 16384, x (ix2 r n) * L (ix2 q n) :=
    BlockedSum.sum_blocks_fin 8 2048 16384 rfl (fun n => x (ix2 r n) * L (ix2 q n)) Cert.KI.R1Spec.col (fun _ _ => rfl)
  unfold Cert.KI.R1Spec.Hat Cert.Spec.output
  rw [hsum]
  exact add_assoc _ _ _

end Cert.Bridge

end
-- ==== Proof.KI.Value.lean ====
/-
  The idealized kernel's result, as one function of the eight arguments.

  The second region's output array is its block-by-block formula of the arrays it is entered from: the features, the
  linear weights and bias as launched; the second small weight matrix as converted by the host (the conversion is the
  identity on the extended reals); and, in the hidden layer's buffer, the first region's output array, which is the first
  region's block-by-block formula of the features, the embedding, the first small weight matrix (converted: the identity
  again) and its bias.  Both block-by-block formulas are the specification's whole sums.
-/
import proofs.«181743_j4071628997276_2_alg».proof.Proof.KI.Halves
import proofs.«181743_j4071628997276_2_alg».proof.Proof.KI.Ends
import proofs.«181743_j4071628997276_2_alg».proof.Proof.KI.R0Value
import proofs.«181743_j4071628997276_2_alg».proof.Proof.KI.R1Value
import proofs.«181743_j4071628997276_2_alg».proof.Proof.Bridge

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ)

/-- What the second region finds in the hidden layer's buffer: the specification's hidden layer of the arguments. -/
theorem hidden_value (c : Dev nD) :
    Vmid m (half0 (F := Ideal)) c main_v2
      = Cert.Spec.hidden (m ((c : Thread nD τ).loc main_arg0)) (m ((c : Thread nD τ).loc main_arg1))
          (m ((c : Thread nD τ).loc main_arg4)) (m ((c : Thread nD τ).loc main_arg5)) := by
  refine (Wmid_main_v2 m half0 c).trans ?_
  refine (Cert.KernelIdeal.R0.final (Vhost m) c).trans ?_
  rw [Cert.Bridge.hidden_eq]
  have e0 : Vhost m c main_arg0 = m ((c : Thread nD τ).loc main_arg0) := Whost_of m c main_arg0 (by decide)
  have e1 : Vhost m c main_arg1 = m ((c : Thread nD τ).loc main_arg1) := Whost_of m c main_arg1 (by decide)
  have e5 : Vhost m c main_arg5 = m ((c : Thread nD τ).loc main_arg5) := Whost_of m c main_arg5 (by decide)
  have ev0 : Vhost m c main_v0 = _ := Whost_main_v0 m c
  rw [e0, e1, e5, ev0]
  rfl

/-- The kernel's result array is the specification's whole function of the eight arguments. -/
theorem kernel_value (c : Dev nD) :
    ((half1 (F := Ideal)).dat (Vmid m half0) c).arrAt 6 cfg1.N
      = Cert.Spec.whole (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (Cert.KernelIdeal.R1.final (Vmid m half0) c).trans ?_
  rw [Cert.Bridge.output_eq]
  have e0 : Vmid m half0 c main_arg0 = m ((c : Thread nD τ).loc main_arg0) := Wmid_main_arg0 m half0 c
  have e2 : Vmid m half0 c main_arg2 = m ((c : Thread nD τ).loc main_arg2) := Wmid_main_arg2 m half0 c
  have e3 : Vmid m half0 c main_arg3 = m ((c : Thread nD τ).loc main_arg3) := Wmid_main_arg3 m half0 c
  have e7 : Vmid m half0 c main_arg7 = m ((c : Thread nD τ).loc main_arg7) := Wmid_main_arg7 m half0 c
  have ev1 : Vmid m half0 c main_v1 = _ := Wmid_main_v1 m half0 c
  rw [e0, e2, e3, e7, ev1, hidden_value m c]
  rfl

end Cert.KernelIdeal.Whole

end
-- ==== Proof.RefValue.lean ====
/-
  The reference program computes `Cert.Spec.whole`.

  Its run ends with the result at the composition of its host operations; read one operation at a time at an index, the
  four matrix products are plain sums over the contracted axis, the transposes and broadcasts only move indices, and
  what is left is, term by term, the specification's formula: the two contractions over the features, the interaction,
  the hidden layer, then the output.
-/
import proofs.«181743_j4071628997276_2_alg».proof.Proof.Gen.ReferenceIdeal.Read
import proofs.«181743_j4071628997276_2_alg».proof.Proof.Spec

noncomputable section

namespace Cert.ReferenceIdeal.RefValue

open Cert.ReferenceIdeal Cert.ReferenceIdeal.Read Idealize.ShloMosaic Idealize.ShloMosaic.ValueIdx

/-- Two indices of a matrix with equal coordinates are equal. -/
theorem idx2_ext {a b : Nat} {i j : (⟨2, ![a, b]⟩ : Shape).Idx} (h0 : (i 0).val = (j 0).val) (h1 : (i 1).val = (j 1).val) : i = j :=
  funext fun d => Fin.ext (by match d with | ⟨0, _⟩ => exact h0 | ⟨1, _⟩ => exact h1)

/-- Two indices of a vector with equal coordinate are equal. -/
theorem idx1_ext {a : Nat} {i j : (⟨1, ![a]⟩ : Shape).Idx} (h0 : (i 0).val = (j 0).val) : i = j :=
  funext fun d => Fin.ext (by match d with | ⟨0, _⟩ => exact h0)

variable (x0 : (⟨S1024x16384, .f32⟩ : BufTy).Contents (Elt Ideal)) (x1 : (⟨S16384x512, .f32⟩ : BufTy).Contents (Elt Ideal))
  (x2 : (⟨S4096x16384, .f32⟩ : BufTy).Contents (Elt Ideal)) (x3 : (⟨S4096, .f32⟩ : BufTy).Contents (Elt Ideal))
  (x4 : (⟨S512x512, .f32⟩ : BufTy).Contents (Elt Ideal)) (x5 : (⟨S512, .f32⟩ : BufTy).Contents (Elt Ideal))
  (x6 : (⟨S4096x512, .f32⟩ : BufTy).Contents (Elt Ideal)) (x7 : (⟨S4096, .f32⟩ : BufTy).Contents (Elt Ideal))

/-- The first contraction over the features. -/
theorem sumEmb_eq (b : Fin 1024) (k : Fin 512) : val_main_v0 (F := Ideal) x0 x1 (ix2 b k) = Cert.Spec.sumEmb x0 x1 b k := by
  rw [val_main_v0_apply]
  exact Finset.sum_congr rfl fun n _ =>
    congrArg₂ (· * ·) (congrArg x0 (idx2_ext rfl rfl)) (congrArg x1 (idx2_ext rfl rfl))

/-- The contraction of the squares. -/
theorem sumSq_eq (b : Fin 1024) (k : Fin 512) : val_main_v3 (F := Ideal) x0 x1 (ix2 b k) = Cert.Spec.sumSq x0 x1 b k := by
  rw [val_main_v3_apply]
  refine Finset.sum_congr rfl fun n _ => ?_
  rw [val_main_v1_apply, val_main_v2_apply]
  exact congrArg₂ (· * ·)
    (congrArg₂ (· * ·) (congrArg x0 (idx2_ext rfl rfl)) (congrArg x0 (idx2_ext rfl rfl)))
    (congrArg₂ (· * ·) (congrArg x1 (idx2_ext rfl rfl)) (congrArg x1 (idx2_ext rfl rfl)))

/-- The interaction: half the difference of the squared sum and the sum of squares. -/
theorem interaction_eq (b : Fin 1024) (k : Fin 512) :
    val_main_v7 (F := Ideal) x0 x1 (ix2 b k) = Cert.Spec.interaction x0 x1 b k := by
  rw [val_main_v7_apply, val_main_v6_apply, val_main_cst_apply, val_main_v5_apply, val_main_v4_apply, sumEmb_eq, sumSq_eq]
  rfl

/-- The reference's hidden layer (its value after the outlined relu) is the specification's. -/
theorem hidden_eq : val_main_v13 (F := Ideal) x0 x1 x4 x5 = Cert.Spec.hidden x0 x1 x4 x5 := by
  funext i
  obtain ⟨b, o, rfl⟩ : ∃ (b : Fin 1024) (o : Fin 512), i = ix2 b o := ⟨i 0, i 1, eq_ix2 i⟩
  rw [val_main_v13_apply, val_main_v12_apply, val_main_v9_apply, val_main_v11_apply, val_main_v10_apply,
    val_main_call0_v0_apply, val_main_call0_cst_apply]
  refine congrArg₂ max (congrArg₂ (· + ·) (Finset.sum_congr rfl fun k _ => ?_) (congrArg x5 (idx1_ext rfl))) rfl
  rw [show lidx_main_v9 (ix2 b o) k = ix2 b k from idx2_ext rfl rfl, interaction_eq, val_main_v8_apply]
  exact congrArg (Cert.Spec.interaction x0 x1 b k * ·) (congrArg x4 (idx2_ext rfl rfl))

/-- The reference's result is the specification's whole function of the eight arguments. -/
theorem result_eq : val_main_v24 (F := Ideal) x0 x1 x2 x3 x4 x5 x6 x7 = Cert.Spec.whole x0 x1 x2 x3 x4 x5 x6 x7 := by
  funext i
  obtain ⟨b, o, rfl⟩ : ∃ (b : Fin 1024) (o : Fin 4096), i = ix2 b o := ⟨i 0, i 1, eq_ix2 i⟩
  rw [val_main_v24_apply, val_main_v23_apply, val_main_v20_apply, val_main_v22_apply, val_main_v21_apply,
    val_main_v18_apply, val_main_v15_apply, val_main_v17_apply, val_main_v16_apply, hidden_eq]
  refine congrArg₂ (· + ·)
    (congrArg₂ (· + ·) (Finset.sum_congr rfl fun n _ => ?_) (congrArg x3 (idx1_ext rfl)))
    (congrArg₂ (· + ·) (Finset.sum_congr rfl fun d _ => ?_) (congrArg x7 (idx1_ext rfl)))
  · rw [val_main_v19_apply]
    exact congrArg₂ (· * ·) (congrArg x0 (idx2_ext rfl rfl)) (congrArg x2 (idx2_ext rfl rfl))
  · rw [val_main_v14_apply]
    exact congrArg₂ (· * ·) (congrArg (Cert.Spec.hidden x0 x1 x4 x5) (idx2_ext rfl rfl)) (congrArg x6 (idx2_ext rfl rfl))

end Cert.ReferenceIdeal.RefValue

end
-- ==== Proof.lean ====
/-
  A neural factorization machine: over the extended reals, the two-kernel program and the plain reference are one
  function of their eight arguments.

  With x = sae_features [1024,16384], e = emb [16384,512], W1 = mlp1_w [512,512], c1 = mlp1_b [512],
  L = linear_w [4096,16384], l = linear_b [4096], W2 = mlp2_w [4096,512], c2 = mlp2_b [4096], both compute

    hidden[b,o] = max (Σ_k ½·((Σ_n x[b,n]e[n,k])² − Σ_n x[b,n]²e[n,k]²) · W1[o,k] + c1[o]) 0
    output[b,o] = (Σ_n x[b,n]·L[o,n] + l[o]) + (Σ_d hidden[b,d]·W2[o,d] + c2[o])          (Proof/Spec.lean).

  The reference does so by four whole matrix products (Proof/RefValue.lean, over its generated run).  The kernel
  program rounds the two small weight matrices to bf16 on the host (the identity on the extended reals) and runs two
  kernel regions.  The first walks a 2 × 16 grid: for each half of the rows it accumulates, over 16 blocks of 1024
  features, the two contractions in two scratch accumulators (zeroed at the first block), and at the last block forms
  the interaction, multiplies by W1ᵀ, adds c1, takes the maximum with 0 and stores the block of `hidden`.  The second
  walks a 4 × 4 × 8 grid: for each 256 × 1024 block of the output it accumulates x·Lᵀ over 8 blocks of 2048 features in
  a scratch accumulator, and at the last block adds l, the product hidden·W2ᵀ and c2, and stores.  Per region, the
  running sums after each grid point are the invariant carried between points (Proof/KI/R0*.lean, R1*.lean; the same
  text at the word level in Proof/K/); the two regions are chained behind the host stretch into one run of @main that
  names the final contents of every buffer (Proof/KI/Whole.lean, Ends.lean); the output array is then the second
  region's block-by-block formula of the first region's, and a sum taken block by block is the whole sum, by
  associativity and commutativity alone — so no finiteness of the inputs is used anywhere (Proof/Bridge.lean,
  Proof/KI/Value.lean).  The ideal pass rewrote nothing, so the idealization's conjunct is `True`.
-/
import proofs.«181743_j4071628997276_2_alg».proof.Defs
import proofs.«181743_j4071628997276_2_alg».proof.Proof.Gen.Kernel
import proofs.«181743_j4071628997276_2_alg».proof.Proof.Gen.KernelIdeal
import proofs.«181743_j4071628997276_2_alg».proof.Proof.Gen.ReferenceIdeal
import proofs.«181743_j4071628997276_2_alg».proof.Proof.Gen.Pre_finite_inputs
import proofs.«181743_j4071628997276_2_alg».proof.Proof.Gen.ReferenceIdeal.Run
import proofs.«181743_j4071628997276_2_alg».proof.Proof.Gen.ReferenceIdeal.Read
import proofs.«181743_j4071628997276_2_alg».proof.Proof.K.Ends
import proofs.«181743_j4071628997276_2_alg».proof.Proof.K.Halves
import proofs.«181743_j4071628997276_2_alg».proof.Proof.KI.Ends
import proofs.«181743_j4071628997276_2_alg».proof.Proof.KI.Halves
import proofs.«181743_j4071628997276_2_alg».proof.Proof.KI.Value
import proofs.«181743_j4071628997276_2_alg».proof.Proof.RefValue
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ =>
  Cert.Kernel.Whole.frame m Cert.Kernel.Whole.half0 Cert.Kernel.Whole.half1 ρ

/-- So does its idealization. -/
theorem frame_ki : Cert.frame_KernelIdeal := fun m ρ _ =>
  Cert.KernelIdeal.Whole.frame m Cert.KernelIdeal.Whole.half0 Cert.KernelIdeal.Whole.half1 ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result array at the specification's
    function of the arguments. -/
theorem algebraic : Cert.algebraic_KernelIdeal_ReferenceIdeal := by
  intro m ρ m' ρ' _ hagree
  refine ⟨fun c => Cert.Spec.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.kernel_value m c), (h c).2⟩)
      (Cert.KernelIdeal.Whole.run_named m Cert.KernelIdeal.Whole.half0 Cert.KernelIdeal.Whole.half1 ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v24_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
